-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.truncf_extf.Statement Cert.KernelIdeal.S1024x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096 : Shape := ⟨1, ![4096]⟩
abbrev S4096x4096 : Shape := ⟨2, ![4096, 4096]⟩
abbrev S1x4096 : Shape := ⟨2, ![1, 4096]⟩
abbrev S1 : Shape := ⟨1, ![1]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_
  bcast_S_S1x4096 : S_.BroadcastsInDim S1x4096 (![] : Fin 0 → Fin S1x4096.rank)
  reducesTo_S1x4096_S_d0_1 : S1x4096.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S4096 .f32) (main_arg5 : FVec F S1x4096 .f32) (main_arg6 : FVec F S1 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S1x4096 .f32 := Host.absf main_arg5
  let main_cst_8 : FVec F S_ .f32 := constant S_ .f32 0x7F800000#32
  let main_v25 : FVec F S1x4096 .f32 := broadcastInDim S1x4096 ![] bcast_S_S1x4096 main_cst_8
  let main_v26 : IVec S1x4096 1 := cmpf .olt main_v24 main_v25
  let main_c_9 : IVec S_ 1 := constantI S_ 1 1#1
  let main_v27 : IVec S_ 1 := (fun x v => Host.reduce IntOp.andi x v reducesTo_S1x4096_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S4096x512 .f32) (main_arg1 : FVec F S4096x512 .f32) (main_arg2 : FVec F S4096 .f32) (main_arg3 : FVec F S4096x4096 .f32) (main_arg4 : FVec F S4096 .f32) (main_arg5 : FVec F S1x4096 .f32) (main_arg6 : FVec F S1 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_v13 main_v16
-- ==== Kernel.lean ====
abbrev S4096x512 : Shape := ⟨2, ![4096, 512]⟩
abbrev S4096 : Shape := ⟨1, ![4096]⟩
abbrev S4096x4096 : Shape := ⟨2, ![4096, 4096]⟩
abbrev S1x4096 : Shape := ⟨2, ![1, 4096]⟩
abbrev S1 : Shape := ⟨1, ![1]⟩
abbrev S1x1 : Shape := ⟨2, ![1, 1]⟩
abbrev S1024x512 : Shape := ⟨2, ![1024, 512]⟩
abbrev S1x1024 : Shape := ⟨2, ![1, 1024]⟩
abbrev S1024x1024 : Shape := ⟨2, ![1024, 1024]⟩
abbrev S4096x1 : Shape := ⟨2, ![4096, 1]⟩
abbrev S1024x4096 : Shape := ⟨2, ![1024, 4096]⟩
abbrev S512x4096 : Shape := ⟨2, ![512, 4096]⟩
abbrev S1x512 : Shape := ⟨2, ![1, 512]⟩
abbrev S1024x1 : Shape := ⟨2, ![1024, 1]⟩
abbrev S1024 : Shape := ⟨1, ![1024]⟩

abbrev nBuf : Space → Nat
  | .hbm => 16
  | .vmem => 31
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S1x4096, .f32⟩
  | .hbm, ⟨6, _⟩ => ⟨S1, .f32⟩
  | .hbm, ⟨7, _⟩ => ⟨S4096x4096, .bf16⟩
  | .hbm, ⟨8, _⟩ => ⟨S1x4096, .f32⟩
  | .hbm, ⟨9, _⟩ => ⟨S1x4096, .f32⟩
  | .hbm, ⟨10, _⟩ => ⟨S1x1, .f32⟩
  | .hbm, ⟨11, _⟩ => ⟨S4096x4096, .bf16⟩
  | .hbm, ⟨12, _⟩ => ⟨S4096x4096, .bf16⟩
  | .hbm, ⟨13, _⟩ => ⟨S4096x1, .f32⟩
  | .hbm, ⟨14, _⟩ => ⟨S1x4096, .f32⟩
  | .hbm, ⟨15, _⟩ => ⟨S4096x1, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x4096, .bf16⟩
  | .local _ .vmem, ⟨9, _⟩ => ⟨S1024x4096, .bf16⟩
  | .local _ .vmem, ⟨10, _⟩ => ⟨S512x4096, .bf16⟩
  | .local _ .vmem, ⟨11, _⟩ => ⟨S512x4096, .bf16⟩
  | .local _ .vmem, ⟨12, _⟩ => ⟨S1x512, .f32⟩
  | .local _ .vmem, ⟨13, _⟩ => ⟨S1x512, .f32⟩
  | .local _ .vmem, ⟨14, _⟩ => ⟨S1024x512, .bf16⟩
  | .local _ .vmem, ⟨15, _⟩ => ⟨S1024x512, .bf16⟩
  | .local _ .vmem, ⟨16, _⟩ => ⟨S1024x1, .f32⟩
  | .local _ .vmem, ⟨17, _⟩ => ⟨S1024x1, .f32⟩
  | .local _ .vmem, ⟨18, _⟩ => ⟨S1024x4096, .bf16⟩
  | .local _ .vmem, ⟨19, _⟩ => ⟨S1024x4096, .bf16⟩
  | .local _ .vmem, ⟨20, _⟩ => ⟨S512x4096, .bf16⟩
  | .local _ .vmem, ⟨21, _⟩ => ⟨S512x4096, .bf16⟩
  | .local _ .vmem, ⟨22, _⟩ => ⟨S1024x1, .f32⟩
  | .local _ .vmem, ⟨23, _⟩ => ⟨S1024x1, .f32⟩
  | .local _ .vmem, ⟨24, _⟩ => ⟨S1x512, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | .local _ .vmem, ⟨28, _⟩ => ⟨S1x1, .f32⟩
  | .local _ .vmem, ⟨29, _⟩ => ⟨S1024x1, .f32⟩
  | .local _ .vmem, ⟨30, _⟩ => ⟨S1024x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg6_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem6_0 : DmaSem sig := 29
abbrev cc2_sem6_1 : DmaSem sig := 30

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![4, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1024x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

class Facts₀ : Prop where
  bitsLt_bf16_f32 : FTy.bits .bf16 < FTy.bits .f32
  shapeCasts_S4096_S1x4096 : S4096.ShapeCasts S1x4096
  shapeCasts_S1_S1x1 : S1.ShapeCasts S1x1
  inb_S1024x512_S1024x512_0_0 : ∀ a, (![0, 0] : Fin 2 → Nat) a + S1024x512.size a ≤ S1024x512.size a
  h_S1024x512 : 0 < S1024x512.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  packedbf16_S1024x1024_S1024x1024_0_0 : (Rect.unit (s := S1024x1024) ![0, 0] S1024x1024.size inb_S1024x1024_S1024x1024_0_0).PackedRows (EltTy.packing .bf16)
  inb_S1024x1_S1024x1_0_0 : ∀ a, (![0, 0] : Fin 2 → Nat) a + S1024x1.size a ≤ S1024x1.size a
  h_S1024x1 : 0 < S1024x1.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  packedbf16_S1024x512_S1024x512_0_0 : (Rect.unit (s := S1024x512) ![0, 0] S1024x512.size inb_S1024x512_S1024x512_0_0).PackedRows (EltTy.packing .bf16)
  shapeCasts_S1024x1_S1024x1 : S1024x1.ShapeCasts S1024x1
  reduces_S1024x512_S1024 : S1024x512.Reduces [1] S1024
  shapeCasts_S1024_S1024x1 : S1024.ShapeCasts S1024x1
  shapeCasts_S4096x1_S1x4096 : S4096x1.ShapeCasts S1x4096
  broadcasts_S1024x1_S1024x512 : S1024x1.Broadcasts S1024x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  dot_S1024x512_S1024x512_S1024x1024_1_1_0_0_n_n_wf : DotDims.WF S1024x512 S1024x512 S1024x1024 [1] [1] [0] [0] [] []
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .f32 = 32 ∨ (Rect.block (s := S4096x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x512.size a
  hwx0_1 : ∀ i : grid0.Coords, EltTy.bits .f32 = 32 ∨ (Rect.block (s := S4096x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .bf16 = 32 ∨ (Rect.block (s := S4096x4096) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S4096x4096.size a
  hwx1_0 : ∀ i : grid1.Coords, EltTy.bits .bf16 = 32 ∨ (Rect.block (s := S4096x4096) S1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .bf16 = 32 ∨ (Rect.block (s := S4096x4096) S512x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x4096.size a
  hwx1_2 : ∀ i : grid1.Coords, EltTy.bits .f32 = 32 ∨ (Rect.block (s := S1x4096) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S4096x4096.size a
  hwx1_3 : ∀ i : grid1.Coords, EltTy.bits .bf16 = 32 ∨ (Rect.block (s := S4096x4096) S1024x512.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S4096x1.size a
  hwx1_4 : ∀ i : grid1.Coords, EltTy.bits .f32 = 32 ∨ (Rect.block (s := S4096x1) S1024x1.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x4096.size a ≤ S4096x4096.size a
  hwx2_0 : ∀ i : grid2.Coords, EltTy.bits .bf16 = 32 ∨ (Rect.block (s := S4096x4096) S1024x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x4096.size a ≤ S4096x4096.size a
  hwx2_1 : ∀ i : grid2.Coords, EltTy.bits .bf16 = 32 ∨ (Rect.block (s := S4096x4096) S512x4096.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S4096x1.size a
  hwx2_2 : ∀ i : grid2.Coords, EltTy.bits .f32 = 32 ∨ (Rect.block (s := S4096x1) S1024x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x4096.size a
  hwx2_3 : ∀ i : grid2.Coords, EltTy.bits .f32 = 32 ∨ (Rect.block (s := S1x4096) S1x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x4096.size a
  hwx2_4 : ∀ i : grid2.Coords, EltTy.bits .f32 = 32 ∨ (Rect.block (s := S1x4096) S1x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1024x1.size a ≤ S4096x1.size a
  hwx2_6 : ∀ i : grid2.Coords, EltTy.bits .f32 = 32 ∨ (Rect.block (s := S4096x1) S1024x1.size (cc2_transform_6 i) (hinb2_6 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5_0) S1024x512.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5_1) S1024x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v5_0) S1024x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5_0) S512x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5_1) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v6) S1x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg5) S1x512.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v3) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v7) S1024x1.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S4096x512 : Shape := ⟨2, ![4096, 512]⟩
abbrev S4096 : Shape := ⟨1, ![4096]⟩
abbrev S4096x4096 : Shape := ⟨2, ![4096, 4096]⟩
abbrev S1x4096 : Shape := ⟨2, ![1, 4096]⟩
abbrev S1 : Shape := ⟨1, ![1]⟩
abbrev S512x4096 : Shape := ⟨2, ![512, 4096]⟩
abbrev S_ : Shape := ⟨0, ![]⟩
abbrev S4096x1 : Shape := ⟨2, ![4096, 1]⟩
abbrev S1x1 : Shape := ⟨2, ![1, 1]⟩

abbrev nBuf : Space → Nat
  | .hbm => 45
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S1x4096, .f32⟩
  | .hbm, ⟨6, _⟩ => ⟨S1, .f32⟩
  | .hbm, ⟨7, _⟩ => ⟨S512x4096, .f32⟩
  | .hbm, ⟨8, _⟩ => ⟨S4096x4096, .f32⟩
  | .hbm, ⟨9, _⟩ => ⟨S1x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S1x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S4096x4096, .f32⟩
  | .hbm, ⟨24, _⟩ => ⟨S_, .f32⟩
  | .hbm, ⟨25, _⟩ => ⟨S4096, .f32⟩
  | .hbm, ⟨26, _⟩ => ⟨S1x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x1, .f32⟩
  | .hbm, ⟨41, _⟩ => ⟨S4096x1, .f32⟩
  | .hbm, ⟨42, _⟩ => ⟨S1x1, .f32⟩
  | .hbm, ⟨43, _⟩ => ⟨S4096x1, .f32⟩
  | .hbm, ⟨44, _⟩ => ⟨S4096x1, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]

class Facts₀ : Prop where
  transposes_S4096x512_S512x4096_1_0 : S4096x512.Transposes [1, 0] S512x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  transposes_S4096x4096_S4096x4096_1_0 : S4096x4096.Transposes [1, 0] S4096x4096
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  transposes_S1x4096_S4096x1_1_0 : S1x4096.Transposes [1, 0] S4096x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  dot_S4096x512_S512x4096_S4096x4096_1_0_0_1_n_n_wf : DotDims.WF S4096x512 S512x4096 S4096x4096 [1] [0] [0] [1] [] []
  dot_S4096x4096_S4096x4096_S4096x4096_1_0_0_1_n_n_wf : DotDims.WF S4096x4096 S4096x4096 S4096x4096 [1] [0] [0] [1] [] []
  dot_S4096x4096_S4096x1_S4096x1_1_0_0_1_n_n_wf : DotDims.WF S4096x4096 S4096x1 S4096x1 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4096x4096_S4096x1_S4096x1_1_0_0_1_n_n : DotDims S4096x4096 S4096x1 S4096x1 where
  lhsContracting := [1]
  rhsContracting := [0]
  lhsNonContracting := [0]
  rhsNonContracting := [1]
  lhsBatch := []
  rhsBatch := []
  wf := dot_S4096x4096_S4096x1_S4096x1_1_0_0_1_n_n_wf

class Facts : Prop extends Facts₀ where

variable [Facts]
-- ==== Proof.Layer1Bits.lean ====
import proofs.«127863_j65481071400088_2_alg».proof.Proof.Gen.Kernel.Launch
import proofs.«127863_j65481071400088_2_alg».proof.Proof.Gen.Kernel.Skeleton
import proofs.«127863_j65481071400088_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The first layer's region, point by point

The first pallas_call computes, for the grid point (mb, nb) of a 4 × 4 grid, the 1024 × 1024 block
`tanh (x[mb] · W1[nb]ᵀ + b1[nb])` of the first hidden layer: it reads a 1024 × 512 block of rows of `x`, a
1024 × 512 block of rows of `W1`, a 1 × 1024 block of the bias laid out as a row, and writes the whole output block.
Nothing is carried from one point to the next: the output block after the body is one function of the three input
blocks, the body's single store read back over the whole buffer.

Everything here is stated at a parameter `V`, the contents of the core's buffers when the region is entered.
-/

set_option maxRecDepth 16384

noncomputable section

namespace Cert.Kernel.Layer1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of rows of `x` is in its staging buffer at every point, whether the pipeline fetched it there or kept
    it from the point before (its block index did not move), for any proof data over the arrays of `V` whose body
    leaves the block in place. -/
theorem before_x_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the block of rows of `W1`. -/
theorem before_w_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The same for the block of the bias row. -/
theorem before_b_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body reads and writes -/

/-- The whole 1024 × 512 block. -/
abbrev rIn : Rect S1024x512 := Rect.unit (s := S1024x512) ![0, 0] S1024x512.size inb_S1024x512_S1024x512_0_0
/-- The whole 1 × 1024 row. -/
abbrev rBias : Rect S1x1024 := Rect.unit (s := S1x1024) ![0, 0] S1x1024.size inb_S1x1024_S1x1024_0_0
/-- The whole 1024 × 1024 output block. -/
abbrev rOut : Rect S1024x1024 := Rect.unit (s := S1024x1024) ![0, 0] S1024x1024.size inb_S1024x1024_S1024x1024_0_0

/-- The output block after the body, from the three input blocks: the body's one store, of the layer's value on what
    it loaded, read back over the buffer. -/
def outBlock (x0 : Vec F S1024x512 .f32) (x1 : Vec F S1024x512 .f32) (x2 : Vec F S1x1024 .f32) : Vec F S1024x1024 .bf16 :=
  View.canon [⟨rOut, k0_pay1 (View.ld x0 rIn) (View.ld x1 rIn) (View.ld x2 rBias)⟩]

/-- That store covers the buffer. -/
theorem cover_out (p0 : Vec F S1024x1024 .bf16) (y : S1024x1024.Idx) :
    ∃ pc ∈ ([⟨rOut, p0⟩] : List (View.Piece (Elt F) S1024x1024 .bf16)), y ∈ pc.1.set :=
  View.cover_of_tiled [⟨rOut, p0⟩] S1024x1024.size (by rfl) y

/-! ## The body's triple -/

set_option maxHeartbeats 1000000 in
/-- On whole staging buffers, the inputs' holding `x0`, `x1`, `x2` and the output's anything, the body runs to its end
    leaving the inputs' as they were and the output's at `outBlock x0 x1 x2`. -/
theorem sound_kernel (c : Dev nD) (E : Set ℕ) (i : grid0.Coords)
    (arg2 : Memref sig .tc .vmem S1024x512 .f32) (harg2 : arg2.IsWhole) (arg3 : Memref sig .tc .vmem S1024x512 .f32) (harg3 : arg3.IsWhole)
    (arg4 : Memref sig .tc .vmem S1x1024 .f32) (harg4 : arg4.IsWhole) (arg5 : Memref sig .tc .vmem S1024x1024 .bf16) (harg5 : arg5.IsWhole)
    (x0 : Vec F S1024x512 .f32) (x1 : Vec F S1024x512 .f32) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outBlock x0 x1 x2)) -∗ K ⟨⟩))
      ⊢ wp frame (wpE (defs₀ (F := F)) Variants.none c none) E (cc0__layer1_kernel i arg2 harg2 arg3 harg3 arg4 harg4 arg5 harg5) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The proof data -/

/-- The region's proof data on core `c`: the arrays as the region finds them; after the body at point `t` each input
    buffer still at its block and the output buffer at `outBlock` of the three blocks; the invariant is the scoped rest
    and the generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outBlock (iblk V c 0 t) (iblk V c 1 t) (iblk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_x (c : Dev nD) (t : Fin cfg0.N) : (dat V c).after 0 t = iblk V c 0 t := by dsimp only [dat]
theorem after_w (c : Dev nD) (t : Fin cfg0.N) : (dat V c).after 1 t = iblk V c 1 t := by dsimp only [dat]
theorem after_b (c : Dev nD) (t : Fin cfg0.N) : (dat V c).after 2 t = iblk V c 2 t := by dsimp only [dat]
theorem after_out (c : Dev nD) (t : Fin cfg0.N) :
    (dat V c).after 3 t = outBlock (iblk V c 0 t) (iblk V c 1 t) (iblk V c 2 t) := by dsimp only [dat]

theorem before_x (c : Dev nD) (t : Fin cfg0.N) (d) : (dat V c).before 0 t d = iblk V c 0 t :=
  before_x_of V (dat V c) (A_eq V c 0) (after_x V c) t d
theorem before_w (c : Dev nD) (t : Fin cfg0.N) (d) : (dat V c).before 1 t d = iblk V c 1 t :=
  before_w_of V (dat V c) (A_eq V c 1) (after_w V c) t d
theorem before_b (c : Dev nD) (t : Fin cfg0.N) (d) : (dat V c).before 2 t d = iblk V c 2 t :=
  before_b_of V (dat V c) (A_eq V c 2) (after_b V c) t d

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the input buffers hold their blocks, so the triple applies; the invariant and what the
    core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_w, before_b]
  rw [show (dat V c).Φ t.succ = (dat V c).Φ t.castSucc from rfl,
    show (dat V c).owesAt () t.succ = (dat V c).owesAt () t.castSucc from rfl,
    after_x, after_w, after_b, after_out]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dat (F := F) V c) (defs₀ (F := F)) Variants.none () Set.univ := fun t => by
  rw [bigSep_W0, bigSep_W0]
  exact sound_body V c t

end Cert.Kernel.Layer1

end
-- ==== Proof.Layer2Bits.lean ====
import proofs.«127863_j65481071400088_2_alg».proof.Proof.Gen.Kernel.Launch
import proofs.«127863_j65481071400088_2_alg».proof.Proof.Gen.Kernel.Skeleton
import proofs.«127863_j65481071400088_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The second layer's region, point by point

The second pallas_call runs on a 4 × 8 grid. At the point (mb, nb) it reads a 1024 × 4096 block of rows of the first
hidden layer, a 512 × 4096 block of rows of `W2`, a 1 × 512 block of the bias row, writes the 1024 × 512 block
`tanh (h1[mb] · W2[nb]ᵀ + b2[nb])` of the second hidden layer, and adds the row sums of that block's squares to a
1024 × 1 accumulator that stays in its staging buffer while nb runs from 0 to 7: at nb = 0 the body first stores zeros
into it, at every other nb it finds what the point before left, and the pipeline writes it back after nb = 7.

So the body has two control cases: the first point of a row of the grid (the accumulator reset), and the others (the
accumulator read). Each case's run is found by executing the body symbolically; what the two output buffers hold after
each point is a recursion on the point. Everything is stated at a parameter `V`, the contents of the core's buffers
when the region is entered.
-/

set_option maxRecDepth 16384

noncomputable section

namespace Cert.Kernel.Layer2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of rows of the first hidden layer is in its staging buffer at every point, fetched there or kept from
    the point before, for any proof data over the arrays of `V` whose body leaves the block in place. -/
theorem before_h_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the block of rows of `W2`. -/
theorem before_w_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The same for the block of the bias row. -/
theorem before_b_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The condition of the body's one branch, from the grid coordinates: the second coordinate is 0. -/
abbrev isFirst (i : grid1.Coords) : Prop := (Scalar.cmpi .ne (Scalar.extui (Scalar.cmpi .eq (BitVec.ofNat 32 (i 1).val) 0#32)) 0#32) = 1#1
/-- It holds at the points ≡ 0 (mod 8): decided over the grid. -/
theorem isFirst_iff : ∀ t : Fin cfg1.N, isFirst (grid1.coords t) ↔ t.val % 8 = 0 :=
  (by decide +kernel : ∀ t : Fin grid1.N, isFirst (grid1.coords t) ↔ t.val % 8 = 0)

/-! ## The staging buffers at a point -/

/-- One staging buffer of each output window, through which its contents are stated (the choice does not matter). -/
abbrev VO3 : View sig .tc .vmem S1024x512 .bf16 := (Memref.whole cc1_stg3_0 : Memref sig .tc .vmem S1024x512 .bf16).view
abbrev VO4 : View sig .tc .vmem S1024x1 .f32 := (Memref.whole cc1_stg4_0 : Memref sig .tc .vmem S1024x1 .f32).view
/-- Each window's current staging buffer at point `t`, as the pipeline passes it, and its wholeness. -/
abbrev ms0 (t : Fin cfg1.N) : Memref sig .tc .vmem S1024x4096 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S512x4096 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x512 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024x512 .bf16 := win1_3.stage (cfg1.slots t 3)
abbrev hs3 (t : Fin cfg1.N) : (ms3 t).IsWhole := hstage1_3 ((cfg1.slots t 3).cast nbuf1_3)
abbrev ms4 (t : Fin cfg1.N) : Memref sig .tc .vmem S1024x1 .f32 := win1_4.stage (cfg1.slots t 4)
abbrev hs4 (t : Fin cfg1.N) : (ms4 t).IsWhole := hstage1_4 ((cfg1.slots t 4).cast nbuf1_4)

/-! ## The body's runs, case by case -/

set_option maxHeartbeats 2000000 in
/-- THE FIRST POINT OF A ROW OF THE GRID. On whole staging buffers, the inputs' at `x0`, `x1`, `x2` and the two outputs'
    at anything, the body runs to its end leaving the inputs' as they were and each output's with the pieces its stores
    wrote (last first): the pieces are what the symbolic run finds. -/
noncomputable def runFirst (c : Dev nD) (i : grid1.Coords)
    (arg2 : Memref sig .tc .vmem S1024x4096 .bf16) (harg2 : arg2.IsWhole) (arg3 : Memref sig .tc .vmem S512x4096 .bf16) (harg3 : arg3.IsWhole)
    (arg4 : Memref sig .tc .vmem S1x512 .f32) (harg4 : arg4.IsWhole) (arg5 : Memref sig .tc .vmem S1024x512 .bf16) (harg5 : arg5.IsWhole)
    (arg6 : Memref sig .tc .vmem S1024x1 .f32) (harg6 : arg6.IsWhole) (hc : isFirst i)
    (x0 : Vec F S1024x4096 .bf16) (x1 : Vec F S512x4096 .bf16) (x2 : Vec F S1x512 .f32) :
    Σ' (L3 : List (View.Piece (Elt F) S1024x512 .bf16)), { L4 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc1__layer2_kernel i arg2 harg2 arg3 harg3 arg4 harg4 arg5 harg5 arg6 harg6) K } := by
  refine ⟨?_, ?_, fun E K => ?run⟩
  case run =>
    simp only [cc1__layer2_kernel_eq_skeleton]; unfold cc1__layer2_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

set_option maxHeartbeats 2000000 in
/-- EVERY OTHER POINT. The same, the accumulator's buffer at the running contents `xo` the point before left. -/
noncomputable def runNext (c : Dev nD) (i : grid1.Coords)
    (arg2 : Memref sig .tc .vmem S1024x4096 .bf16) (harg2 : arg2.IsWhole) (arg3 : Memref sig .tc .vmem S512x4096 .bf16) (harg3 : arg3.IsWhole)
    (arg4 : Memref sig .tc .vmem S1x512 .f32) (harg4 : arg4.IsWhole) (arg5 : Memref sig .tc .vmem S1024x512 .bf16) (harg5 : arg5.IsWhole)
    (arg6 : Memref sig .tc .vmem S1024x1 .f32) (harg6 : arg6.IsWhole) (hc : ¬isFirst i)
    (x0 : Vec F S1024x4096 .bf16) (x1 : Vec F S512x4096 .bf16) (x2 : Vec F S1x512 .f32) (xo : Vec F S1024x1 .f32) :
    Σ' (L3 : List (View.Piece (Elt F) S1024x512 .bf16)), { L4 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xo
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc1__layer2_kernel i arg2 harg2 arg3 harg3 arg4 harg4 arg5 harg5 arg6 harg6) K } := by
  refine ⟨?_, ?_, fun E K => ?run⟩
  case run =>
    simp only [cc1__layer2_kernel_eq_skeleton]; unfold cc1__layer2_kernel_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg2.eq_unread hf0; obtain rfl := harg3.eq_unread hf1; obtain rfl := harg4.eq_unread hf2; obtain rfl := harg6.eq_unread hf4
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

/-! ## What each case leaves in the output buffers -/

/-- The first case's pieces for the stored block cover its buffer, -/
theorem coverFirst_blk (c : Dev nD) (i : grid1.Coords) (arg2 : Memref sig .tc .vmem S1024x4096 .bf16) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x1 .f32) (harg6 : arg6.IsWhole) (hc : isFirst i) (x0 : Vec F S1024x4096 .bf16) (x1 : Vec F S512x4096 .bf16) (x2 : Vec F S1x512 .f32) (y : S1024x512.Idx) :
    ∃ pc ∈ (runFirst c i arg2 harg2 arg3 harg3 arg4 harg4 arg5 harg5 arg6 harg6 hc x0 x1 x2).1, y ∈ pc.1.set :=
  View.cover_of_tiledL (runFirst c i arg2 harg2 arg3 harg3 arg4 harg4 arg5 harg5 arg6 harg6 hc x0 x1 x2).1 S1024x512.size (by sl_kernel_rfl) y
/-- and its pieces for the accumulator cover that one. -/
theorem coverFirst_acc (c : Dev nD) (i : grid1.Coords) (arg2 : Memref sig .tc .vmem S1024x4096 .bf16) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x1 .f32) (harg6 : arg6.IsWhole) (hc : isFirst i) (x0 : Vec F S1024x4096 .bf16) (x1 : Vec F S512x4096 .bf16) (x2 : Vec F S1x512 .f32) (y : S1024x1.Idx) :
    ∃ pc ∈ (runFirst c i arg2 harg2 arg3 harg3 arg4 harg4 arg5 harg5 arg6 harg6 hc x0 x1 x2).2.1, y ∈ pc.1.set :=
  View.cover_of_tiledL (runFirst c i arg2 harg2 arg3 harg3 arg4 harg4 arg5 harg5 arg6 harg6 hc x0 x1 x2).2.1 S1024x1.size (by sl_kernel_rfl) y
/-- What the first case leaves in the stored block's buffer: its pieces read back. -/
def outFirst_blk (c : Dev nD) (i : grid1.Coords) (arg2 : Memref sig .tc .vmem S1024x4096 .bf16) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x1 .f32) (harg6 : arg6.IsWhole) (hc : isFirst i) (x0 : Vec F S1024x4096 .bf16) (x1 : Vec F S512x4096 .bf16) (x2 : Vec F S1x512 .f32) : Vec F S1024x512 .bf16 :=
  VO3.read (Elt F) (VO3.writes (Elt F) VO3.junk (runFirst c i arg2 harg2 arg3 harg3 arg4 harg4 arg5 harg5 arg6 harg6 hc x0 x1 x2).1)
/-- What it leaves in the accumulator's buffer. -/
def outFirst_acc (c : Dev nD) (i : grid1.Coords) (arg2 : Memref sig .tc .vmem S1024x4096 .bf16) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x1 .f32) (harg6 : arg6.IsWhole) (hc : isFirst i) (x0 : Vec F S1024x4096 .bf16) (x1 : Vec F S512x4096 .bf16) (x2 : Vec F S1x512 .f32) : Vec F S1024x1 .f32 :=
  VO4.read (Elt F) (VO4.writes (Elt F) VO4.junk (runFirst c i arg2 harg2 arg3 harg3 arg4 harg4 arg5 harg5 arg6 harg6 hc x0 x1 x2).2.1)

theorem coverNext_blk (c : Dev nD) (i : grid1.Coords) (arg2 : Memref sig .tc .vmem S1024x4096 .bf16) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x1 .f32) (harg6 : arg6.IsWhole) (hc : ¬isFirst i) (x0 : Vec F S1024x4096 .bf16) (x1 : Vec F S512x4096 .bf16) (x2 : Vec F S1x512 .f32) (xo : Vec F S1024x1 .f32) (y : S1024x512.Idx) :
    ∃ pc ∈ (runNext c i arg2 harg2 arg3 harg3 arg4 harg4 arg5 harg5 arg6 harg6 hc x0 x1 x2 xo).1, y ∈ pc.1.set :=
  View.cover_of_tiledL (runNext c i arg2 harg2 arg3 harg3 arg4 harg4 arg5 harg5 arg6 harg6 hc x0 x1 x2 xo).1 S1024x512.size (by sl_kernel_rfl) y
theorem coverNext_acc (c : Dev nD) (i : grid1.Coords) (arg2 : Memref sig .tc .vmem S1024x4096 .bf16) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x1 .f32) (harg6 : arg6.IsWhole) (hc : ¬isFirst i) (x0 : Vec F S1024x4096 .bf16) (x1 : Vec F S512x4096 .bf16) (x2 : Vec F S1x512 .f32) (xo : Vec F S1024x1 .f32) (y : S1024x1.Idx) :
    ∃ pc ∈ (runNext c i arg2 harg2 arg3 harg3 arg4 harg4 arg5 harg5 arg6 harg6 hc x0 x1 x2 xo).2.1, y ∈ pc.1.set :=
  View.cover_of_tiledL (runNext c i arg2 harg2 arg3 harg3 arg4 harg4 arg5 harg5 arg6 harg6 hc x0 x1 x2 xo).2.1 S1024x1.size (by sl_kernel_rfl) y
/-- What every other case leaves in the stored block's buffer, -/
def outNext_blk (c : Dev nD) (i : grid1.Coords) (arg2 : Memref sig .tc .vmem S1024x4096 .bf16) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x1 .f32) (harg6 : arg6.IsWhole) (hc : ¬isFirst i) (x0 : Vec F S1024x4096 .bf16) (x1 : Vec F S512x4096 .bf16) (x2 : Vec F S1x512 .f32) (xo : Vec F S1024x1 .f32) : Vec F S1024x512 .bf16 :=
  VO3.read (Elt F) (VO3.writes (Elt F) VO3.junk (runNext c i arg2 harg2 arg3 harg3 arg4 harg4 arg5 harg5 arg6 harg6 hc x0 x1 x2 xo).1)
/-- and in the accumulator's, over the running contents `xo`. -/
def outNext_acc (c : Dev nD) (i : grid1.Coords) (arg2 : Memref sig .tc .vmem S1024x4096 .bf16) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x1 .f32) (harg6 : arg6.IsWhole) (hc : ¬isFirst i) (x0 : Vec F S1024x4096 .bf16) (x1 : Vec F S512x4096 .bf16) (x2 : Vec F S1x512 .f32) (xo : Vec F S1024x1 .f32) : Vec F S1024x1 .f32 :=
  VO4.read (Elt F) (VO4.writes (Elt F) VO4.junk (runNext c i arg2 harg2 arg3 harg3 arg4 harg4 arg5 harg5 arg6 harg6 hc x0 x1 x2 xo).2.1)

/-! ## What the outputs hold after each point -/

/-- THE ACCUMULATION. What the two output buffers hold after the body at position `n`: the case the point is in, run at
    the point's buffers and input blocks; at a point that is not the first of its row the accumulator starts from what
    the point before left (its buffer is not written back in between). -/
def outsAt (c : Dev nD) : (n : ℕ) → n < cfg1.N → Vec F S1024x512 .bf16 × Vec F S1024x1 .f32
  | 0, hn => (outFirst_blk c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) ((isFirst_iff ⟨0, hn⟩).mpr (Nat.zero_mod _)) (iblk V c 0 ⟨0, hn⟩) (iblk V c 1 ⟨0, hn⟩) (iblk V c 2 ⟨0, hn⟩),
      outFirst_acc c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) ((isFirst_iff ⟨0, hn⟩).mpr (Nat.zero_mod _)) (iblk V c 0 ⟨0, hn⟩) (iblk V c 1 ⟨0, hn⟩) (iblk V c 2 ⟨0, hn⟩))
  | n + 1, hn =>
    if h0 : (n + 1) % 8 = 0 then
      (outFirst_blk c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) ((isFirst_iff ⟨n + 1, hn⟩).mpr h0) (iblk V c 0 ⟨n + 1, hn⟩) (iblk V c 1 ⟨n + 1, hn⟩) (iblk V c 2 ⟨n + 1, hn⟩),
        outFirst_acc c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) ((isFirst_iff ⟨n + 1, hn⟩).mpr h0) (iblk V c 0 ⟨n + 1, hn⟩) (iblk V c 1 ⟨n + 1, hn⟩) (iblk V c 2 ⟨n + 1, hn⟩))
    else
      (outNext_blk c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (fun h => h0 ((isFirst_iff ⟨n + 1, hn⟩).mp h)) (iblk V c 0 ⟨n + 1, hn⟩) (iblk V c 1 ⟨n + 1, hn⟩) (iblk V c 2 ⟨n + 1, hn⟩) (outsAt c n (Nat.lt_of_succ_lt hn)).2,
        outNext_acc c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (fun h => h0 ((isFirst_iff ⟨n + 1, hn⟩).mp h)) (iblk V c 0 ⟨n + 1, hn⟩) (iblk V c 1 ⟨n + 1, hn⟩) (iblk V c 2 ⟨n + 1, hn⟩) (outsAt c n (Nat.lt_of_succ_lt hn)).2)

/-- `outsAt` at the first point of a row: the reset case's contents. -/
theorem outsAt_first (c : Dev nD) (t : Fin cfg1.N) (h0 : t.val % 8 = 0) :
    outsAt V c t.val t.isLt = (outFirst_blk c (grid1.coords t) (ms0 t) (hs0 t) (ms1 t) (hs1 t) (ms2 t) (hs2 t) (ms3 t) (hs3 t) (ms4 t) (hs4 t) ((isFirst_iff t).mpr h0) (iblk V c 0 t) (iblk V c 1 t) (iblk V c 2 t),
      outFirst_acc c (grid1.coords t) (ms0 t) (hs0 t) (ms1 t) (hs1 t) (ms2 t) (hs2 t) (ms3 t) (hs3 t) (ms4 t) (hs4 t) ((isFirst_iff t).mpr h0) (iblk V c 0 t) (iblk V c 1 t) (iblk V c 2 t)) := by
  obtain ⟨n, hn⟩ := t
  cases n with
  | zero => exact rfl
  | succ n => exact (dif_pos h0).trans rfl

/-- `outsAt` at any other point: the other case's contents, over what the point before left. -/
theorem outsAt_next (c : Dev nD) (t : Fin cfg1.N) (h0 : ¬t.val % 8 = 0) :
    outsAt V c t.val t.isLt = (outNext_blk c (grid1.coords t) (ms0 t) (hs0 t) (ms1 t) (hs1 t) (ms2 t) (hs2 t) (ms3 t) (hs3 t) (ms4 t) (hs4 t) (fun h => h0 ((isFirst_iff t).mp h)) (iblk V c 0 t) (iblk V c 1 t) (iblk V c 2 t) (outsAt V c (t.val - 1) (Nat.lt_of_le_of_lt (Nat.sub_le _ _) t.isLt)).2,
      outNext_acc c (grid1.coords t) (ms0 t) (hs0 t) (ms1 t) (hs1 t) (ms2 t) (hs2 t) (ms3 t) (hs3 t) (ms4 t) (hs4 t) (fun h => h0 ((isFirst_iff t).mp h)) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

theorem outsAt_first_blk (c : Dev nD) (t : Fin cfg1.N) (h0 : t.val % 8 = 0) :
    (outsAt V c t.val t.isLt).1 = outFirst_blk c (grid1.coords t) (ms0 t) (hs0 t) (ms1 t) (hs1 t) (ms2 t) (hs2 t) (ms3 t) (hs3 t) (ms4 t) (hs4 t) ((isFirst_iff t).mpr h0) (iblk V c 0 t) (iblk V c 1 t) (iblk V c 2 t) := by
  rw [outsAt_first V c t h0]
theorem outsAt_first_acc (c : Dev nD) (t : Fin cfg1.N) (h0 : t.val % 8 = 0) :
    (outsAt V c t.val t.isLt).2 = outFirst_acc c (grid1.coords t) (ms0 t) (hs0 t) (ms1 t) (hs1 t) (ms2 t) (hs2 t) (ms3 t) (hs3 t) (ms4 t) (hs4 t) ((isFirst_iff t).mpr h0) (iblk V c 0 t) (iblk V c 1 t) (iblk V c 2 t) := by
  rw [outsAt_first V c t h0]
theorem outsAt_next_blk (c : Dev nD) (t : Fin cfg1.N) (h0 : ¬t.val % 8 = 0) :
    (outsAt V c t.val t.isLt).1 = outNext_blk c (grid1.coords t) (ms0 t) (hs0 t) (ms1 t) (hs1 t) (ms2 t) (hs2 t) (ms3 t) (hs3 t) (ms4 t) (hs4 t) (fun h => h0 ((isFirst_iff t).mp h)) (iblk V c 0 t) (iblk V c 1 t) (iblk V c 2 t) (outsAt V c (t.val - 1) (Nat.lt_of_le_of_lt (Nat.sub_le _ _) t.isLt)).2 := by
  rw [outsAt_next V c t h0]
theorem outsAt_next_acc (c : Dev nD) (t : Fin cfg1.N) (h0 : ¬t.val % 8 = 0) :
    (outsAt V c t.val t.isLt).2 = outNext_acc c (grid1.coords t) (ms0 t) (hs0 t) (ms1 t) (hs1 t) (ms2 t) (hs2 t) (ms3 t) (hs3 t) (ms4 t) (hs4 t) (fun h => h0 ((isFirst_iff t).mp h)) (iblk V c 0 t) (iblk V c 1 t) (iblk V c 2 t) (outsAt V c (t.val - 1) (Nat.lt_of_le_of_lt (Nat.sub_le _ _) t.isLt)).2 := by
  rw [outsAt_next V c t h0]

/-! ## The proof data -/

/-- The region's proof data on core `c`: the arrays as the region finds them; after the body at point `t` each input
    buffer still at its block and the two output buffers at `outsAt`; the invariant is the scoped rest and the generator
    register, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
    | ⟨4, _⟩ => (outsAt V c t.val t.isLt).2
  Φ _ := Pipeline.ΦA spec1 c
  q _ := fullShare
  owed _ := 0

theorem A_eq (c : Dev nD) (w : Fin cfg1.W) : (dat V c).A w = V c (Pipeline.arrRef spec1 w) := by
  dsimp only [dat]

theorem after_h (c : Dev nD) (t : Fin cfg1.N) : (dat V c).after 0 t = iblk V c 0 t := by dsimp only [dat]
theorem after_w (c : Dev nD) (t : Fin cfg1.N) : (dat V c).after 1 t = iblk V c 1 t := by dsimp only [dat]
theorem after_b (c : Dev nD) (t : Fin cfg1.N) : (dat V c).after 2 t = iblk V c 2 t := by dsimp only [dat]
theorem after_blk (c : Dev nD) (t : Fin cfg1.N) : (dat V c).after 3 t = (outsAt V c t.val t.isLt).1 := by dsimp only [dat]
theorem after_acc (c : Dev nD) (t : Fin cfg1.N) : (dat V c).after 4 t = (outsAt V c t.val t.isLt).2 := by dsimp only [dat]

theorem before_h (c : Dev nD) (t : Fin cfg1.N) (d) : (dat V c).before 0 t d = iblk V c 0 t :=
  before_h_of V (dat V c) (A_eq V c 0) (after_h V c) t d
theorem before_w (c : Dev nD) (t : Fin cfg1.N) (d) : (dat V c).before 1 t d = iblk V c 1 t :=
  before_w_of V (dat V c) (A_eq V c 1) (after_w V c) t d
theorem before_b (c : Dev nD) (t : Fin cfg1.N) (d) : (dat V c).before 2 t d = iblk V c 2 t :=
  before_b_of V (dat V c) (A_eq V c 2) (after_b V c) t d
/-- At a point that is not the first of its row the accumulator's buffer holds what the body left at the point before:
    the buffer was not written back in between, the window is live and uncut. -/
theorem before_acc (c : Dev nD) (t : Fin cfg1.N) (h0 : ¬t.val % 8 = 0) (d) :
    (dat V c).before 4 t d = (outsAt V c (t.val - 1) (Nat.lt_of_le_of_lt (Nat.sub_le _ _) t.isLt)).2 := by
  have hN : t.val < 32 := lt_of_lt_of_eq t.isLt (show cfg1.N = 32 from N_1)
  rw [Dat.before_out_kept _ 4 rfl t (by omega) (Bool.eq_false_iff.mpr fun h => by have := (flush1_4 _).mp h; dsimp only at this; omega)
    (fun _ => rfl) (fun _ _ => rfl)]
  dsimp only [dat]

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg1.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t))

set_option maxHeartbeats 1600000 in
/-- The body at any point: the input buffers hold their blocks; the point is the first of its row or not; in the
    second case the accumulator's buffer holds what the point before left; so that case's run applies; the invariant
    and what the core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_h, before_w, before_b]
  rw [show (dat V c).Φ t.succ = (dat V c).Φ t.castSucc from rfl,
    show (dat V c).owesAt () t.succ = (dat V c).owesAt () t.castSucc from rfl,
    after_h, after_w, after_b, after_blk, after_acc]
  by_cases h0 : t.val % 8 = 0
  · rw [outsAt_first_blk V c t h0, outsAt_first_acc V c t h0]
    unfold outFirst_blk outFirst_acc
    iintro ⟨HΦ, Ho, ⟨%d0, H0⟩, ⟨%d1, H1⟩, ⟨%d2, H2⟩, ⟨%d3, H3⟩, ⟨%d4, H4⟩⟩
    iapply ((runFirst c (grid1.coords t) _ _ _ _ _ _ _ _ _ _ ((isFirst_iff t).mpr h0) (iblk V c 0 t) (iblk V c 1 t) (iblk V c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverFirst_blk c _ _ _ _ _ _ _ _ _ _ _ _ _ _ _)
    unfold owns; iexists _; isplitr
    swap; · iexact H4
    ipureintro; exact View.read_writes_of_cover _ _ _ _ _ (coverFirst_acc c _ _ _ _ _ _ _ _ _ _ _ _ _ _ _)
  · rw [outsAt_next_blk V c t h0, outsAt_next_acc V c t h0]
    simp only [before_acc V c t h0]
    unfold outNext_blk outNext_acc
    iintro ⟨HΦ, Ho, ⟨%d0, H0⟩, ⟨%d1, H1⟩, ⟨%d2, H2⟩, ⟨%d3, H3⟩, ⟨%d4, H4⟩⟩
    iapply ((runNext c (grid1.coords t) _ _ _ _ _ _ _ _ _ _ (fun h => h0 ((isFirst_iff t).mp h)) (iblk V c 0 t) (iblk V c 1 t) (iblk V c 2 t) _).2.2 Set.univ _)
    isplitl [H0]; · iexact H0
    isplitl [H1]; · iexact H1
    isplitl [H2]; · iexact H2
    isplitl [H3]; · iexists _; iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverNext_blk c _ _ _ _ _ _ _ _ _ _ _ _ _ _ _ _)
    unfold owns; iexists _; isplitr
    swap; · iexact H4
    ipureintro; exact View.read_writes_of_cover _ _ _ _ _ (coverNext_acc c _ _ _ _ _ _ _ _ _ _ _ _ _ _ _ _)

/-- The body obligation, at every point. -/
theorem body_obligation (c : Dev nD) : BodyObligation (dat (F := F) V c) (defs₀ (F := F)) Variants.none () Set.univ := fun t => by
  rw [bigSep_W1, bigSep_W1]
  exact sound_body V c t

end Cert.Kernel.Layer2

end
-- ==== Proof.Layer3Bits.lean ====
import proofs.«127863_j65481071400088_2_alg».proof.Proof.Gen.Kernel.Launch
import proofs.«127863_j65481071400088_2_alg».proof.Proof.Gen.Kernel.Skeleton
import proofs.«127863_j65481071400088_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The third region, point by point

The third pallas_call runs on a 4 × 8 grid. At the point (mb, nb) it reads a 1024 × 4096 block of rows of the second
hidden layer (the rows i), a 512 × 4096 block of rows of the same array (the rows j), the 1024 × 1 block of the row
norms at i, the 1 × 512 blocks of the row norms at j and of the weights `Wc`, and the 1 × 1 bias, and adds
`Σ_j exp (c · ((‖h_i‖² + ‖h_j‖²) − 2 · h_i · h_j)) · Wc[j]` over the block's 512 values of j to a 1024 × 1 accumulator that
stays in its staging buffer while nb runs from 0 to 7: at nb = 0 the body first stores zeros into it, at nb = 7 it adds
the bias after the block's sum, and the pipeline writes the accumulator back after nb = 7.

So the body has three control cases: the first point of a row of the grid, the last, and those between. Each case's run
is found by executing the body symbolically; what the accumulator's buffer holds after each point is a recursion on the
point. Everything is stated at a parameter `V`, the contents of the core's buffers when the region is entered.
-/

set_option maxRecDepth 16384

noncomputable section

namespace Cert.Kernel.Layer3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of rows i of the hidden layer is in its staging buffer at every point, fetched there or kept from the point before, for any proof data over the arrays of `V` whose body leaves the block in place. -/
theorem before_hi_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the block of rows j. -/
theorem before_hj_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The same for the block of row norms at i. -/
theorem before_nr_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The same for the block of row norms at j. -/
theorem before_nc_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The same for the block of the weights. -/
theorem before_wc_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The same for the bias, fetched once, at the first point. -/
theorem before_bc_of {c : Dev nD} (dat : Dat τ (Elt F) Unit ℕ (UR sig nD τ) ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's branches -/

/-- The condition of the body's first branch, from the grid coordinates: the second coordinate is 0. -/
abbrev isFirst (i : grid2.Coords) : Prop := (Scalar.cmpi .ne (Scalar.extui (Scalar.cmpi .eq (BitVec.ofNat 32 (i 1).val) 0#32)) 0#32) = 1#1
/-- The condition of its second branch: the second coordinate is 7. -/
abbrev isLast (i : grid2.Coords) : Prop := (Scalar.cmpi .ne (Scalar.extui (Scalar.cmpi .eq (BitVec.ofNat 32 (i 1).val) 7#32)) 0#32) = 1#1
theorem isFirst_iff : ∀ t : Fin cfg2.N, isFirst (grid2.coords t) ↔ t.val % 8 = 0 :=
  (by decide +kernel : ∀ t : Fin grid2.N, isFirst (grid2.coords t) ↔ t.val % 8 = 0)
theorem isLast_iff : ∀ t : Fin cfg2.N, isLast (grid2.coords t) ↔ t.val % 8 = 7 :=
  (by decide +kernel : ∀ t : Fin grid2.N, isLast (grid2.coords t) ↔ t.val % 8 = 7)

/-! ## The staging buffers at a point -/

/-- One staging buffer of the output window, through which its contents are stated (the choice does not matter). -/
abbrev VO : View sig .tc .vmem S1024x1 .f32 := (Memref.whole cc2_stg6_0 : Memref sig .tc .vmem S1024x1 .f32).view
abbrev ms0 (t : Fin cfg2.N) : Memref sig .tc .vmem S1024x4096 .bf16 := win2_0.stage (cfg2.slots t 0)
abbrev hs0 (t : Fin cfg2.N) : (ms0 t).IsWhole := hstage2_0 ((cfg2.slots t 0).cast nbuf2_0)
abbrev ms1 (t : Fin cfg2.N) : Memref sig .tc .vmem S512x4096 .bf16 := win2_1.stage (cfg2.slots t 1)
abbrev hs1 (t : Fin cfg2.N) : (ms1 t).IsWhole := hstage2_1 ((cfg2.slots t 1).cast nbuf2_1)
abbrev ms2 (t : Fin cfg2.N) : Memref sig .tc .vmem S1024x1 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S1x512 .f32 := win2_3.stage (cfg2.slots t 3)
abbrev hs3 (t : Fin cfg2.N) : (ms3 t).IsWhole := hstage2_3 ((cfg2.slots t 3).cast nbuf2_3)
abbrev ms4 (t : Fin cfg2.N) : Memref sig .tc .vmem S1x512 .f32 := win2_4.stage (cfg2.slots t 4)
abbrev hs4 (t : Fin cfg2.N) : (ms4 t).IsWhole := hstage2_4 ((cfg2.slots t 4).cast nbuf2_4)
abbrev ms5 (t : Fin cfg2.N) : Memref sig .tc .vmem S1x1 .f32 := win2_5.stage (cfg2.slots t 5)
abbrev hs5 (t : Fin cfg2.N) : (ms5 t).IsWhole := hstage2_5 ((cfg2.slots t 5).cast nbuf2_5)
abbrev ms6 (t : Fin cfg2.N) : Memref sig .tc .vmem S1024x1 .f32 := win2_6.stage (cfg2.slots t 6)
abbrev hs6 (t : Fin cfg2.N) : (ms6 t).IsWhole := hstage2_6 ((cfg2.slots t 6).cast nbuf2_6)

/-! ## The body's runs, case by case -/

set_option maxHeartbeats 4000000 in
/-- THE FIRST POINT OF A ROW OF THE GRID (the accumulator reset, no bias yet). On whole staging buffers, the inputs' at their contents and the accumulator's at anything, the body runs to its end leaving the inputs' as they were and the accumulator's with the pieces its stores wrote (last first): the pieces are what the symbolic run finds. -/
noncomputable def runFirst (c : Dev nD) (i : grid2.Coords) (arg2 : Memref sig .tc .vmem S1024x4096 .bf16) (harg2 : arg2.IsWhole) (arg3 : Memref sig .tc .vmem S512x4096 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1 .f32) (harg7 : arg7.IsWhole) (arg8 : Memref sig .tc .vmem S1024x1 .f32) (harg8 : arg8.IsWhole) (hc0 : isFirst i) (hc1 : ¬isLast i)
    (x0 : Vec F S1024x4096 .bf16) (x1 : Vec F S512x4096 .bf16) (x2 : Vec F S1024x1 .f32) (x3 : Vec F S1x512 .f32) (x4 : Vec F S1x512 .f32) (x5 : Vec F S1x1 .f32) :
    { L : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L)) -∗ K ⟨⟩))
          ⊢ wp frame (wpE (defs₀ (F := F)) Variants.none c none) E (cc2__layer3_kernel i arg2 harg2 arg3 harg3 arg4 harg4 arg5 harg5 arg6 harg6 arg7 harg7 arg8 harg8) K } := by
  refine ⟨?_, fun E K => ?run⟩
  case run =>
    simp only [cc2__layer3_kernel_eq_skeleton]; unfold cc2__layer3_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

set_option maxHeartbeats 4000000 in
/-- A POINT BETWEEN (no reset, no bias): the accumulator's buffer at the running contents `xo` the point before left. -/
noncomputable def runMid (c : Dev nD) (i : grid2.Coords) (arg2 : Memref sig .tc .vmem S1024x4096 .bf16) (harg2 : arg2.IsWhole) (arg3 : Memref sig .tc .vmem S512x4096 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1 .f32) (harg7 : arg7.IsWhole) (arg8 : Memref sig .tc .vmem S1024x1 .f32) (harg8 : arg8.IsWhole) (hc0 : ¬isFirst i) (hc1 : ¬isLast i)
    (x0 : Vec F S1024x4096 .bf16) (x1 : Vec F S512x4096 .bf16) (x2 : Vec F S1024x1 .f32) (x3 : Vec F S1x512 .f32) (x4 : Vec F S1x512 .f32) (x5 : Vec F S1x1 .f32) (xo : Vec F S1024x1 .f32) :
    { L : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L)) -∗ K ⟨⟩))
          ⊢ wp frame (wpE (defs₀ (F := F)) Variants.none c none) E (cc2__layer3_kernel i arg2 harg2 arg3 harg3 arg4 harg4 arg5 harg5 arg6 harg6 arg7 harg7 arg8 harg8) K } := by
  refine ⟨?_, fun E K => ?run⟩
  case run =>
    simp only [cc2__layer3_kernel_eq_skeleton]; unfold cc2__layer3_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

set_option maxHeartbeats 4000000 in
/-- THE LAST POINT OF A ROW (no reset; the bias added after the block's sum). -/
noncomputable def runLast (c : Dev nD) (i : grid2.Coords) (arg2 : Memref sig .tc .vmem S1024x4096 .bf16) (harg2 : arg2.IsWhole) (arg3 : Memref sig .tc .vmem S512x4096 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1 .f32) (harg7 : arg7.IsWhole) (arg8 : Memref sig .tc .vmem S1024x1 .f32) (harg8 : arg8.IsWhole) (hc0 : ¬isFirst i) (hc1 : isLast i)
    (x0 : Vec F S1024x4096 .bf16) (x1 : Vec F S512x4096 .bf16) (x2 : Vec F S1024x1 .f32) (x3 : Vec F S1x512 .f32) (x4 : Vec F S1x512 .f32) (x5 : Vec F S1x1 .f32) (xo : Vec F S1024x1 .f32) :
    { L : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L)) -∗ K ⟨⟩))
          ⊢ wp frame (wpE (defs₀ (F := F)) Variants.none c none) E (cc2__layer3_kernel i arg2 harg2 arg3 harg3 arg4 harg4 arg5 harg5 arg6 harg6 arg7 harg7 arg8 harg8) K } := by
  refine ⟨?_, fun E K => ?run⟩
  case run =>
    simp only [cc2__layer3_kernel_eq_skeleton]; unfold cc2__layer3_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

/-! ## What each case leaves in the accumulator's buffer -/

/-- The first case's pieces cover the accumulator's buffer. -/
theorem coverFirst (c : Dev nD) (i : grid2.Coords) (arg2 : Memref sig .tc .vmem S1024x4096 .bf16) (harg2 : arg2.IsWhole) (arg3 : Memref sig .tc .vmem S512x4096 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1 .f32) (harg7 : arg7.IsWhole) (arg8 : Memref sig .tc .vmem S1024x1 .f32) (harg8 : arg8.IsWhole) (hc0 : isFirst i) (hc1 : ¬isLast i) (x0 : Vec F S1024x4096 .bf16) (x1 : Vec F S512x4096 .bf16) (x2 : Vec F S1024x1 .f32) (x3 : Vec F S1x512 .f32) (x4 : Vec F S1x512 .f32) (x5 : Vec F S1x1 .f32) (y : S1024x1.Idx) :
    ∃ pc ∈ (runFirst c i arg2 harg2 arg3 harg3 arg4 harg4 arg5 harg5 arg6 harg6 arg7 harg7 arg8 harg8 hc0 hc1 x0 x1 x2 x3 x4 x5).1, y ∈ pc.1.set :=
  View.cover_of_tiledL (runFirst c i arg2 harg2 arg3 harg3 arg4 harg4 arg5 harg5 arg6 harg6 arg7 harg7 arg8 harg8 hc0 hc1 x0 x1 x2 x3 x4 x5).1 S1024x1.size (by sl_kernel_rfl) y
/-- What that case leaves in the accumulator's buffer: its pieces read back. -/
def outFirst (c : Dev nD) (i : grid2.Coords) (arg2 : Memref sig .tc .vmem S1024x4096 .bf16) (harg2 : arg2.IsWhole) (arg3 : Memref sig .tc .vmem S512x4096 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1 .f32) (harg7 : arg7.IsWhole) (arg8 : Memref sig .tc .vmem S1024x1 .f32) (harg8 : arg8.IsWhole) (hc0 : isFirst i) (hc1 : ¬isLast i) (x0 : Vec F S1024x4096 .bf16) (x1 : Vec F S512x4096 .bf16) (x2 : Vec F S1024x1 .f32) (x3 : Vec F S1x512 .f32) (x4 : Vec F S1x512 .f32) (x5 : Vec F S1x1 .f32) : Vec F S1024x1 .f32 :=
  VO.read (Elt F) (VO.writes (Elt F) VO.junk (runFirst c i arg2 harg2 arg3 harg3 arg4 harg4 arg5 harg5 arg6 harg6 arg7 harg7 arg8 harg8 hc0 hc1 x0 x1 x2 x3 x4 x5).1)

/-- The middle case's pieces cover it. -/
theorem coverMid (c : Dev nD) (i : grid2.Coords) (arg2 : Memref sig .tc .vmem S1024x4096 .bf16) (harg2 : arg2.IsWhole) (arg3 : Memref sig .tc .vmem S512x4096 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1 .f32) (harg7 : arg7.IsWhole) (arg8 : Memref sig .tc .vmem S1024x1 .f32) (harg8 : arg8.IsWhole) (hc0 : ¬isFirst i) (hc1 : ¬isLast i) (x0 : Vec F S1024x4096 .bf16) (x1 : Vec F S512x4096 .bf16) (x2 : Vec F S1024x1 .f32) (x3 : Vec F S1x512 .f32) (x4 : Vec F S1x512 .f32) (x5 : Vec F S1x1 .f32) (xo : Vec F S1024x1 .f32) (y : S1024x1.Idx) :
    ∃ pc ∈ (runMid c i arg2 harg2 arg3 harg3 arg4 harg4 arg5 harg5 arg6 harg6 arg7 harg7 arg8 harg8 hc0 hc1 x0 x1 x2 x3 x4 x5 xo).1, y ∈ pc.1.set :=
  View.cover_of_tiledL (runMid c i arg2 harg2 arg3 harg3 arg4 harg4 arg5 harg5 arg6 harg6 arg7 harg7 arg8 harg8 hc0 hc1 x0 x1 x2 x3 x4 x5 xo).1 S1024x1.size (by sl_kernel_rfl) y
/-- What that case leaves in the accumulator's buffer: its pieces read back. -/
def outMid (c : Dev nD) (i : grid2.Coords) (arg2 : Memref sig .tc .vmem S1024x4096 .bf16) (harg2 : arg2.IsWhole) (arg3 : Memref sig .tc .vmem S512x4096 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1 .f32) (harg7 : arg7.IsWhole) (arg8 : Memref sig .tc .vmem S1024x1 .f32) (harg8 : arg8.IsWhole) (hc0 : ¬isFirst i) (hc1 : ¬isLast i) (x0 : Vec F S1024x4096 .bf16) (x1 : Vec F S512x4096 .bf16) (x2 : Vec F S1024x1 .f32) (x3 : Vec F S1x512 .f32) (x4 : Vec F S1x512 .f32) (x5 : Vec F S1x1 .f32) (xo : Vec F S1024x1 .f32) : Vec F S1024x1 .f32 :=
  VO.read (Elt F) (VO.writes (Elt F) VO.junk (runMid c i arg2 harg2 arg3 harg3 arg4 harg4 arg5 harg5 arg6 harg6 arg7 harg7 arg8 harg8 hc0 hc1 x0 x1 x2 x3 x4 x5 xo).1)

/-- The last case's pieces cover it. -/
theorem coverLast (c : Dev nD) (i : grid2.Coords) (arg2 : Memref sig .tc .vmem S1024x4096 .bf16) (harg2 : arg2.IsWhole) (arg3 : Memref sig .tc .vmem S512x4096 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1 .f32) (harg7 : arg7.IsWhole) (arg8 : Memref sig .tc .vmem S1024x1 .f32) (harg8 : arg8.IsWhole) (hc0 : ¬isFirst i) (hc1 : isLast i) (x0 : Vec F S1024x4096 .bf16) (x1 : Vec F S512x4096 .bf16) (x2 : Vec F S1024x1 .f32) (x3 : Vec F S1x512 .f32) (x4 : Vec F S1x512 .f32) (x5 : Vec F S1x1 .f32) (xo : Vec F S1024x1 .f32) (y : S1024x1.Idx) :
    ∃ pc ∈ (runLast c i arg2 harg2 arg3 harg3 arg4 harg4 arg5 harg5 arg6 harg6 arg7 harg7 arg8 harg8 hc0 hc1 x0 x1 x2 x3 x4 x5 xo).1, y ∈ pc.1.set :=
  View.cover_of_tiledL (runLast c i arg2 harg2 arg3 harg3 arg4 harg4 arg5 harg5 arg6 harg6 arg7 harg7 arg8 harg8 hc0 hc1 x0 x1 x2 x3 x4 x5 xo).1 S1024x1.size (by sl_kernel_rfl) y
/-- What that case leaves in the accumulator's buffer: its pieces read back. -/
def outLast (c : Dev nD) (i : grid2.Coords) (arg2 : Memref sig .tc .vmem S1024x4096 .bf16) (harg2 : arg2.IsWhole) (arg3 : Memref sig .tc .vmem S512x4096 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1 .f32) (harg7 : arg7.IsWhole) (arg8 : Memref sig .tc .vmem S1024x1 .f32) (harg8 : arg8.IsWhole) (hc0 : ¬isFirst i) (hc1 : isLast i) (x0 : Vec F S1024x4096 .bf16) (x1 : Vec F S512x4096 .bf16) (x2 : Vec F S1024x1 .f32) (x3 : Vec F S1x512 .f32) (x4 : Vec F S1x512 .f32) (x5 : Vec F S1x1 .f32) (xo : Vec F S1024x1 .f32) : Vec F S1024x1 .f32 :=
  VO.read (Elt F) (VO.writes (Elt F) VO.junk (runLast c i arg2 harg2 arg3 harg3 arg4 harg4 arg5 harg5 arg6 harg6 arg7 harg7 arg8 harg8 hc0 hc1 x0 x1 x2 x3 x4 x5 xo).1)

/-! ## What the accumulator holds after each point -/

/-- THE ACCUMULATION. What the accumulator's buffer holds after the body at position `n`: the case the point is in, run
    at the point's buffers and input blocks; at a point that is not the first of its row it starts from what the point
    before left (the buffer is not written back in between). -/
def outsAt (c : Dev nD) : (n : ℕ) → n < cfg2.N → Vec F S1024x1 .f32
  | 0, hn => outFirst c (grid2.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) ((isFirst_iff ⟨0, hn⟩).mpr (Nat.zero_mod _)) (fun h => by have := (isLast_iff ⟨0, hn⟩).mp h; dsimp only at this; omega) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩)
  | n + 1, hn =>
    if h0 : (n + 1) % 8 = 0 then
      outFirst c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) ((isFirst_iff ⟨n + 1, hn⟩).mpr h0) (fun h => by have := (isLast_iff ⟨n + 1, hn⟩).mp h; dsimp only at this; omega) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩)
    else if h7 : (n + 1) % 8 = 7 then
      outLast c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (fun h => h0 ((isFirst_iff ⟨n + 1, hn⟩).mp h)) ((isLast_iff ⟨n + 1, hn⟩).mpr h7) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt c n (Nat.lt_of_succ_lt hn))
    else
      outMid c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (fun h => h0 ((isFirst_iff ⟨n + 1, hn⟩).mp h)) (fun h => h7 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt c n (Nat.lt_of_succ_lt hn))

/-- `outsAt` at the first point of a row. -/
theorem outsAt_first (c : Dev nD) (t : Fin cfg2.N) (h0 : t.val % 8 = 0) :
    outsAt V c t.val t.isLt = outFirst c (grid2.coords t) (ms0 t) (hs0 t) (ms1 t) (hs1 t) (ms2 t) (hs2 t) (ms3 t) (hs3 t) (ms4 t) (hs4 t) (ms5 t) (hs5 t) (ms6 t) (hs6 t) ((isFirst_iff t).mpr h0) (fun h => by have := (isLast_iff t).mp h; omega) (iblk V c 0 t) (iblk V c 1 t) (iblk V c 2 t) (iblk V c 3 t) (iblk V c 4 t) (iblk V c 5 t) := by
  obtain ⟨n, hn⟩ := t
  cases n with
  | zero => exact rfl
  | succ n => exact (dif_pos h0).trans rfl

/-- `outsAt` at the last point of a row: over what the point before left. -/
theorem outsAt_last (c : Dev nD) (t : Fin cfg2.N) (h0 : ¬t.val % 8 = 0) (h7 : t.val % 8 = 7) :
    outsAt V c t.val t.isLt = outLast c (grid2.coords t) (ms0 t) (hs0 t) (ms1 t) (hs1 t) (ms2 t) (hs2 t) (ms3 t) (hs3 t) (ms4 t) (hs4 t) (ms5 t) (hs5 t) (ms6 t) (hs6 t) (fun h => h0 ((isFirst_iff t).mp h)) ((isLast_iff t).mpr h7) (iblk V c 0 t) (iblk V c 1 t) (iblk V c 2 t) (iblk V c 3 t) (iblk V c 4 t) (iblk V c 5 t) (outsAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact ((dif_neg h0).trans (dif_pos h7)).trans rfl

/-- `outsAt` at a point between: over what the point before left. -/
theorem outsAt_mid (c : Dev nD) (t : Fin cfg2.N) (h0 : ¬t.val % 8 = 0) (h7 : ¬t.val % 8 = 7) :
    outsAt V c t.val t.isLt = outMid c (grid2.coords t) (ms0 t) (hs0 t) (ms1 t) (hs1 t) (ms2 t) (hs2 t) (ms3 t) (hs3 t) (ms4 t) (hs4 t) (ms5 t) (hs5 t) (ms6 t) (hs6 t) (fun h => h0 ((isFirst_iff t).mp h)) (fun h => h7 ((isLast_iff t).mp h)) (iblk V c 0 t) (iblk V c 1 t) (iblk V c 2 t) (iblk V c 3 t) (iblk V c 4 t) (iblk V c 5 t) (outsAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact ((dif_neg h0).trans (dif_neg h7)).trans rfl

/-! ## The proof data -/

/-- The region's proof data on core `c`: the arrays as the region finds them; after the body at point `t` each input
    buffer still at its block and the accumulator's at `outsAt`; the invariant is the scoped rest and the generator
    register, untouched; nothing owed. The two windows that read rows of the hidden layer read ONE array: each holds
    half of it, the two halves of the full share; every other array is held whole. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outsAt V c t.val t.isLt
  Φ _ := Pipeline.ΦA spec2 c
  q w := match w with
    | ⟨0, _⟩ => (fullShare : PosShare TreeShare).left
    | ⟨1, _⟩ => (fullShare : PosShare TreeShare).right
    | _ => fullShare
  owed _ := 0

theorem A_eq (c : Dev nD) (w : Fin cfg2.W) : (dat V c).A w = V c (Pipeline.arrRef spec2 w) := by
  dsimp only [dat]

theorem after_hi (c : Dev nD) (t : Fin cfg2.N) : (dat V c).after 0 t = iblk V c 0 t := by dsimp only [dat]
theorem after_hj (c : Dev nD) (t : Fin cfg2.N) : (dat V c).after 1 t = iblk V c 1 t := by dsimp only [dat]
theorem after_nr (c : Dev nD) (t : Fin cfg2.N) : (dat V c).after 2 t = iblk V c 2 t := by dsimp only [dat]
theorem after_nc (c : Dev nD) (t : Fin cfg2.N) : (dat V c).after 3 t = iblk V c 3 t := by dsimp only [dat]
theorem after_wc (c : Dev nD) (t : Fin cfg2.N) : (dat V c).after 4 t = iblk V c 4 t := by dsimp only [dat]
theorem after_bc (c : Dev nD) (t : Fin cfg2.N) : (dat V c).after 5 t = iblk V c 5 t := by dsimp only [dat]
theorem after_acc (c : Dev nD) (t : Fin cfg2.N) : (dat V c).after 6 t = outsAt V c t.val t.isLt := by dsimp only [dat]

theorem before_hi (c : Dev nD) (t : Fin cfg2.N) (d) : (dat V c).before 0 t d = iblk V c 0 t :=
  before_hi_of V (dat V c) (A_eq V c 0) (after_hi V c) t d
theorem before_hj (c : Dev nD) (t : Fin cfg2.N) (d) : (dat V c).before 1 t d = iblk V c 1 t :=
  before_hj_of V (dat V c) (A_eq V c 1) (after_hj V c) t d
theorem before_nr (c : Dev nD) (t : Fin cfg2.N) (d) : (dat V c).before 2 t d = iblk V c 2 t :=
  before_nr_of V (dat V c) (A_eq V c 2) (after_nr V c) t d
theorem before_nc (c : Dev nD) (t : Fin cfg2.N) (d) : (dat V c).before 3 t d = iblk V c 3 t :=
  before_nc_of V (dat V c) (A_eq V c 3) (after_nc V c) t d
theorem before_wc (c : Dev nD) (t : Fin cfg2.N) (d) : (dat V c).before 4 t d = iblk V c 4 t :=
  before_wc_of V (dat V c) (A_eq V c 4) (after_wc V c) t d
theorem before_bc (c : Dev nD) (t : Fin cfg2.N) (d) : (dat V c).before 5 t d = iblk V c 5 t :=
  before_bc_of V (dat V c) (A_eq V c 5) (after_bc V c) t d
/-- At a point that is not the first of its row the accumulator's buffer holds what the body left at the point before:
    the buffer was not written back in between, the window is live and uncut. -/
theorem before_acc (c : Dev nD) (t : Fin cfg2.N) (h0 : ¬t.val % 8 = 0) (d) :
    (dat V c).before 6 t d = (outsAt V c (t.val - 1) (Nat.lt_of_le_of_lt (Nat.sub_le _ _) t.isLt)) := by
  have hN : t.val < 32 := lt_of_lt_of_eq t.isLt (show cfg2.N = 32 from N_2)
  rw [Dat.before_out_kept _ 6 rfl t (by omega) (Bool.eq_false_iff.mpr fun h => by have := (flush2_6 _).mp h; dsimp only at this; omega)
    (fun _ => rfl) (fun _ _ => rfl)]
  dsimp only [dat]

/-! ## The body obligation -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d)))

/-- and what it returns. -/
def bodyPost (c : Dev nD) (t : Fin cfg2.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t)
    ∗ owns (c : Thread nD τ) (ms6 t) fullShare ((dat V c).after 6 t))

set_option maxHeartbeats 3200000 in
/-- The body at any point: the input buffers hold their blocks; the point is the first of its row, the last, or between;
    off the first the accumulator's buffer holds what the point before left; so that case's run applies; the invariant
    and what the core owes pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_hi, before_hj, before_nr, before_nc, before_wc, before_bc]
  rw [show (dat V c).Φ t.succ = (dat V c).Φ t.castSucc from rfl,
    show (dat V c).owesAt () t.succ = (dat V c).owesAt () t.castSucc from rfl,
    after_hi, after_hj, after_nr, after_nc, after_wc, after_bc, after_acc]
  by_cases h0 : t.val % 8 = 0
  ·
    rw [outsAt_first V c t h0]
    unfold outFirst
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runFirst c (grid2.coords t) _ _ _ _ _ _ _ _ _ _ _ _ _ _ ((isFirst_iff t).mpr h0) (fun h => by have := (isLast_iff t).mp h; omega) (iblk V c 0 t) (iblk V c 1 t) (iblk V c 2 t) (iblk V c 3 t) (iblk V c 4 t) (iblk V c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverFirst c _ _ _ _ _ _ _ _ _ _ _ _ _ _ _ _ _ _ _ _ _ _ _)
  · simp only [before_acc V c t h0]
    by_cases h7 : t.val % 8 = 7
    ·
      rw [outsAt_last V c t h0 h7]
      unfold outLast
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((runLast c (grid2.coords t) _ _ _ _ _ _ _ _ _ _ _ _ _ _ (fun h => h0 ((isFirst_iff t).mp h)) ((isLast_iff t).mpr h7) (iblk V c 0 t) (iblk V c 1 t) (iblk V c 2 t) (iblk V c 3 t) (iblk V c 4 t) (iblk V c 5 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, H5, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverLast c _ _ _ _ _ _ _ _ _ _ _ _ _ _ _ _ _ _ _ _ _ _ _ _)
    ·
      rw [outsAt_mid V c t h0 h7]
      unfold outMid
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((runMid c (grid2.coords t) _ _ _ _ _ _ _ _ _ _ _ _ _ _ (fun h => h0 ((isFirst_iff t).mp h)) (fun h => h7 ((isLast_iff t).mp h)) (iblk V c 0 t) (iblk V c 1 t) (iblk V c 2 t) (iblk V c 3 t) (iblk V c 4 t) (iblk V c 5 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, H5, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverMid c _ _ _ _ _ _ _ _ _ _ _ _ _ _ _ _ _ _ _ _ _ _ _ _)

/-- The body obligation, at every point. -/
theorem body_obligation (c : Dev nD) : BodyObligation (dat (F := F) V c) (defs₀ (F := F)) Variants.none () Set.univ := fun t => by
  rw [bigSep_W2, bigSep_W2]
  exact sound_body V c t

end Cert.Kernel.Layer3

end
-- ==== Proof.Layer3ArraysBits.lean ====
import proofs.«127863_j65481071400088_2_alg».proof.Proof.Layer3Bits

/-!
# The third region's arrays: one array behind two windows

The third region reads the second hidden layer through two windows (the rows i and the rows j), so its seven windows
stand on six buffers. When the region is entered the buffer of the hidden layer, held whole, is split in two halves,
one per window; when it is left the two halves, still holding the same contents (both windows only read), are put back
together. Every other window's array is held whole. The result buffer leaves at what the write-backs left in it; every
other buffer leaves as it was entered.
-/

set_option maxRecDepth 16384

noncomputable section

namespace Cert.Kernel.Layer3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The six buffers behind the seven windows, each whole at the full share, one by one. -/
theorem arrBufs_eq (c : Dev nD) (Vv : (b : Ref sig .tc) → Buf (Elt F) ((c : Thread nD τ).loc b)) :
    (Pipeline.arrBufs (Ix := Unit) (Name := ℕ) (U := UR sig nD τ) (Lvl := ℕ) spec2 c Vv : sProp 𝕄)
      = iprop((((c : Thread nD τ).loc main_v5_0) ↦{fullShare} Vv main_v5_0) ∗ (((c : Thread nD τ).loc main_v5_1) ↦{fullShare} Vv main_v5_1) ∗ (((c : Thread nD τ).loc main_v6) ↦{fullShare} Vv main_v6) ∗ (((c : Thread nD τ).loc main_arg5) ↦{fullShare} Vv main_arg5) ∗ (((c : Thread nD τ).loc main_v3) ↦{fullShare} Vv main_v3) ∗ (((c : Thread nD τ).loc main_v7) ↦{fullShare} Vv main_v7)) := by
  unfold Pipeline.arrBufs
  exact bigSep_eq_bigSepL_of_eq [main_v5_0, main_v5_1, main_v6, main_arg5, main_v3, main_v7] (by decide) (by decide) _

/-- The share each window's array is held at: the two windows on the hidden layer's buffer hold its two halves, -/
theorem share_hi (c : Dev nD) : (dat V c).share 0 = (fullShare : PosShare TreeShare).left := by
  unfold Dat.share; rw [if_neg (by decide)]; dsimp only [dat]; rfl
theorem share_hj (c : Dev nD) : (dat V c).share 1 = (fullShare : PosShare TreeShare).right := by
  unfold Dat.share; rw [if_neg (by decide)]; dsimp only [dat]; rfl
/-- every other input window holds its array whole, -/
theorem share_nr (c : Dev nD) : (dat V c).share 2 = fullShare := by
  unfold Dat.share; rw [if_neg (by decide)]; dsimp only [dat]; rfl
theorem share_nc (c : Dev nD) : (dat V c).share 3 = fullShare := by
  unfold Dat.share; rw [if_neg (by decide)]; dsimp only [dat]; rfl
theorem share_wc (c : Dev nD) : (dat V c).share 4 = fullShare := by
  unfold Dat.share; rw [if_neg (by decide)]; dsimp only [dat]; rfl
theorem share_bc (c : Dev nD) : (dat V c).share 5 = fullShare := by
  unfold Dat.share; rw [if_neg (by decide)]; dsimp only [dat]; rfl
/-- and so does the output window. -/
theorem share_out (c : Dev nD) : (dat V c).share 6 = fullShare := by
  unfold Dat.share; rw [if_pos (by decide)]

/-- The seven windows' arrays as the region's proof data hold them, one by one. -/
theorem arrays_eq (c : Dev nD) (Fw : (w : Fin cfg2.W) → Buf (Elt F) ((cfg2.win w).arr.view.loc (c : Thread nD τ))) :
    (dat V c).arrays Fw
      = iprop((((c : Thread nD τ).loc main_v5_0) ↦{(fullShare : PosShare TreeShare).left} Fw 0) ∗ (((c : Thread nD τ).loc main_v5_0) ↦{(fullShare : PosShare TreeShare).right} Fw 1) ∗ (((c : Thread nD τ).loc main_v5_1) ↦{fullShare} Fw 2) ∗ (((c : Thread nD τ).loc main_v6) ↦{fullShare} Fw 3) ∗ (((c : Thread nD τ).loc main_arg5) ↦{fullShare} Fw 4) ∗ (((c : Thread nD τ).loc main_v3) ↦{fullShare} Fw 5) ∗ (((c : Thread nD τ).loc main_v7) ↦{fullShare} Fw 6)) := by
  have h : (dat V c).arrays Fw = bigSep Finset.univ fun w => (((c : Thread nD τ).loc (Pipeline.arrRef spec2 w)) ↦{(dat V c).share w} Fw w : sProp 𝕄) := by
    unfold Dat.arrays
    exact bigSep_congr fun w _ => by rw [(arr_whole2 w).set_eq_univ]
  rw [h, bigSep_W2, share_hi, share_hj, share_nr, share_nc, share_wc, share_bc, share_out]

/-- ENTRY. The core's unscoped buffers at contents `V c` are the region's arrays at their entry contents and the
    rest: the hidden layer's buffer is split in its two halves, one per window reading it. -/
theorem arrays_of_unscopedBufs (c : Dev nD) :
    (unscopedBufs c (V c) : sProp 𝕄)
      ⊢ iprop((dat V c).arrays ((dat V c).arrAt · 0) ∗ Pipeline.unscopedRest (Ix := Unit) (Name := ℕ) (U := UR sig nD τ) (Lvl := ℕ) spec2 c (V c)) := by
  rw [show (unscopedBufs c (V c) : sProp 𝕄) = iprop(Pipeline.arrBufs spec2 c (V c) ∗ Pipeline.unscopedRest spec2 c (V c))
    from Pipeline.unscopedBufs_split₀ cfgs (2 : Fin 3) winFacts₀2.arr_unscoped c (V c)]
  refine sep_mono ?_ .rfl
  have hA : ((dat V c).arrAt · 0) = fun w => V c (Pipeline.arrRef spec2 w) :=
    funext fun w => (show (dat V c).arrAt w 0 = (dat V c).A w from rfl).trans (A_eq V c w)
  rw [hA, arrBufs_eq, arrays_eq]
  exact (sep_mono (pointsTo_share (PosShare.mem_left_op_right fullShare)).1 .rfl).trans sep_assoc.1

/-- EXIT. The region's arrays at their final contents and the rest are the core's unscoped buffers at any valuation
    `V'` that has the result buffer at what the write-backs left and agrees with `V c` elsewhere: the input windows' arrays
    end as entered, and the two halves of the hidden layer's buffer, at the same contents, make it whole again. -/
theorem unscopedBufs_of_arrays (c : Dev nD) (V' : (b : Ref sig .tc) → Buf (Elt F) ((c : Thread nD τ).loc b))
    (hout : (dat V c).arrAt 6 cfg2.N = V' main_v7) (hrest : ∀ b, b ≠ main_v7 → V' b = V c b) :
    iprop((dat V c).arrays ((dat V c).arrAt · cfg2.N) ∗ Pipeline.unscopedRest (Ix := Unit) (Name := ℕ) (U := UR sig nD τ) (Lvl := ℕ) spec2 c (V c))
      ⊢ (unscopedBufs c V' : sProp 𝕄) := by
  rw [show (unscopedBufs c V' : sProp 𝕄) = iprop(Pipeline.arrBufs spec2 c V' ∗ Pipeline.unscopedRest spec2 c V')
    from Pipeline.unscopedBufs_split₀ cfgs (2 : Fin 3) winFacts₀2.arr_unscoped c V']
  have e0 : (dat V c).arrAt 0 cfg2.N = V' main_v5_0 :=
    (((dat V c).arrAt_in 0 rfl _).trans (A_eq V c 0)).trans (hrest main_v5_0 (by decide)).symm
  have e1 : (dat V c).arrAt 1 cfg2.N = V' main_v5_0 :=
    (((dat V c).arrAt_in 1 rfl _).trans (A_eq V c 1)).trans (hrest main_v5_0 (by decide)).symm
  have e2 : (dat V c).arrAt 2 cfg2.N = V' main_v5_1 :=
    (((dat V c).arrAt_in 2 rfl _).trans (A_eq V c 2)).trans (hrest main_v5_1 (by decide)).symm
  have e3 : (dat V c).arrAt 3 cfg2.N = V' main_v6 :=
    (((dat V c).arrAt_in 3 rfl _).trans (A_eq V c 3)).trans (hrest main_v6 (by decide)).symm
  have e4 : (dat V c).arrAt 4 cfg2.N = V' main_arg5 :=
    (((dat V c).arrAt_in 4 rfl _).trans (A_eq V c 4)).trans (hrest main_arg5 (by decide)).symm
  have e5 : (dat V c).arrAt 5 cfg2.N = V' main_v3 :=
    (((dat V c).arrAt_in 5 rfl _).trans (A_eq V c 5)).trans (hrest main_v3 (by decide)).symm
  have hR : (Pipeline.unscopedRest (Ix := Unit) (Name := ℕ) (U := UR sig nD τ) (Lvl := ℕ) spec2 c (V c) : sProp 𝕄)
      = Pipeline.unscopedRest spec2 c V' := by
    unfold Pipeline.unscopedRest
    exact bigSep_congr fun b hb => by
      rw [hrest b fun h => (Finset.mem_sdiff.mp hb).2 (h ▸ (by decide : main_v7 ∈ Finset.univ.image (Pipeline.arrRef spec2)))]
  rw [hR, arrays_eq, arrBufs_eq, e0, e1, e2, e3, e4, e5, hout]
  exact sep_mono (sep_assoc.2.trans (sep_mono (pointsTo_share (PosShare.mem_left_op_right fullShare)).2 .rfl)) .rfl

end Cert.Kernel.Layer3

end
-- ==== Proof.RunBits.lean ====
import proofs.«127863_j65481071400088_2_alg».proof.Proof.Layer1Bits
import proofs.«127863_j65481071400088_2_alg».proof.Proof.Layer2Bits
import proofs.«127863_j65481071400088_2_alg».proof.Proof.Layer3ArraysBits
import proofs.«127863_j65481071400088_2_alg».proof.Proof.Gen.Kernel.Regions

/-!
# The whole run: host operations, the three regions, and what the buffers hold in between

`@main` is: four host operations (the cast of `W2`, three reshapes), the first layer's region, the second layer's
region, one host reshape (the column of row norms laid out as a row), the third region. Between two items every
unscoped buffer of the core is held whole at a known valuation: the launch memory, then each host stretch applied, then
each region's arrays at what its write-backs leave. Each region is entered from the valuation before it and left at
the one after it; the arguments are read back through the whole chain to the launch memory, and the result buffer is
read at what the third region leaves in it.
-/

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first four host operations (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (Layer1.dat (V1 m ρ) c).arrAt w cfg0.N
theorem W2_arr (c : Dev nD) (w : Fin cfg0.W) :
    W2 m ρ c (Proc.devRef .tc (Pipeline.arrRef spec0 w)) = (Layer1.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Layer1.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit. -/
def W3 (c : Dev nD) : Valuation τ sig (Elt F) :=
  Pipeline.withArrays spec1 c (W2 m ρ c) fun w => (Layer2.dat (V2 m ρ) c).arrAt w cfg1.N
theorem W3_arr (c : Dev nD) (w : Fin cfg1.W) :
    W3 m ρ c (Proc.devRef .tc (Pipeline.arrRef spec1 w)) = (Layer2.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (Layer2.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the host reshape of the row norms (the third region's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- At the third region's exit: the result buffer at what the pipeline leaves, every other buffer as entered (the
    region's other arrays are inputs). -/
def W5 (c : Dev nD) : Valuation τ sig (Elt F) :=
  Function.update (W4 m ρ c) (Proc.devRef .tc main_v7) ((Layer3.dat (V4 m ρ) c).arrAt 6 cfg2.N)
abbrev V5 : (c : Dev nD) → (b : Ref sig .tc) → Buf (Elt F) ((c : Thread nD τ).loc b) := fun c b => W5 m ρ c b
theorem V5_result (c : Dev nD) : V5 m ρ c main_v7 = (Layer3.dat (V4 m ρ) c).arrAt 6 cfg2.N := by
  unfold V5 W5; exact Function.update_self ..
theorem V5_of_ne (c : Dev nD) (b : Ref sig .tc) (hb : b ≠ main_v7) : V5 m ρ c b = V4 m ρ c b := by
  unfold V5 W5; exact Function.update_of_ne (StableHlo.devRef_ne_of_ne hb) ..

/-! ## The proof data family and the thread state -/

/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => Layer1.dat (V1 m ρ) c
  | ⟨1, _⟩ => fun c => Layer2.dat (V2 m ρ) c
  | ⟨2, _⟩ => fun c => Layer3.dat (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W5 m ρ c) ∗ ∃ r, prngReg c r)

/-! ## The first two regions as segments -/

set_option backward.isDefEq.respectTransparency.types false in
/-- REGION 0 over the thread state: entered from every unscoped buffer at the valuation before it, left at the one after.
    Its arrays are split out of the unscoped buffers at entry and put back at exit at their final contents; the generator
    register goes into the region's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Layer1.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the valuation before it, left at the one after.
    Its arrays are split out of the unscoped buffers at entry and put back at exit at their final contents; the generator
    register goes into the region's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Layer2.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := V5_of_ne m ρ c main_arg0 (by decide)
    _ = W3 m ρ c (Proc.devRef .tc main_arg0) := StableHlo.after_of_writes_sub hostOps2 _ hostOps2_writes (by decide : main_arg0 ∉ hostOps2_W)
    _ = W2 m ρ c (Proc.devRef .tc main_arg0) := W3_of_ne m ρ c main_arg0 (by decide)
    _ = W1 m ρ c (Proc.devRef .tc main_arg0) := (W2_arr m ρ c 0).trans (((Layer1.dat (V1 m ρ) c).arrAt_in 0 rfl _).trans (Layer1.A_eq (V1 m ρ) c 0))
    _ = W0 m ρ c (Proc.devRef .tc main_arg0) := StableHlo.after_of_writes_sub hostOps0 _ hostOps0_writes (by decide : main_arg0 ∉ hostOps0_W)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := V5_of_ne m ρ c main_arg1 (by decide)
    _ = W3 m ρ c (Proc.devRef .tc main_arg1) := StableHlo.after_of_writes_sub hostOps2 _ hostOps2_writes (by decide : main_arg1 ∉ hostOps2_W)
    _ = W2 m ρ c (Proc.devRef .tc main_arg1) := W3_of_ne m ρ c main_arg1 (by decide)
    _ = W1 m ρ c (Proc.devRef .tc main_arg1) := (W2_arr m ρ c 1).trans (((Layer1.dat (V1 m ρ) c).arrAt_in 1 rfl _).trans (Layer1.A_eq (V1 m ρ) c 1))
    _ = W0 m ρ c (Proc.devRef .tc main_arg1) := StableHlo.after_of_writes_sub hostOps0 _ hostOps0_writes (by decide : main_arg1 ∉ hostOps0_W)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := V5_of_ne m ρ c main_arg2 (by decide)
    _ = W3 m ρ c (Proc.devRef .tc main_arg2) := StableHlo.after_of_writes_sub hostOps2 _ hostOps2_writes (by decide : main_arg2 ∉ hostOps2_W)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := V5_of_ne m ρ c main_arg3 (by decide)
    _ = W3 m ρ c (Proc.devRef .tc main_arg3) := StableHlo.after_of_writes_sub hostOps2 _ hostOps2_writes (by decide : main_arg3 ∉ hostOps2_W)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := V5_of_ne m ρ c main_arg4 (by decide)
    _ = W3 m ρ c (Proc.devRef .tc main_arg4) := StableHlo.after_of_writes_sub hostOps2 _ hostOps2_writes (by decide : main_arg4 ∉ hostOps2_W)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := V5_of_ne m ρ c main_arg5 (by decide)
    _ = W3 m ρ c (Proc.devRef .tc main_arg5) := StableHlo.after_of_writes_sub hostOps2 _ hostOps2_writes (by decide : main_arg5 ∉ hostOps2_W)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl

theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := V5_of_ne m ρ c main_arg6 (by decide)
    _ = W3 m ρ c (Proc.devRef .tc main_arg6) := StableHlo.after_of_writes_sub hostOps2 _ hostOps2_writes (by decide : main_arg6 ∉ hostOps2_W)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl

/-! ## The third region as a segment -/

set_option backward.isDefEq.respectTransparency.types false in
/-- REGION 2 over the thread state: entered from every unscoped buffer at the valuation after the host reshape, left at
    the last one. The hidden layer's buffer is split between the two windows that read it and put back together; the
    generator register goes into the region's invariant and comes out; nothing is owed. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (Layer3.body_obligation (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Layer3.arrays_of_unscopedBufs (V4 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m ρ 2 c).arrays ((pdats m ρ 2 c).arrAt · cfg2.N) ∗ Pipeline.unscopedRest (Ix := Unit) (Name := ℕ) (U := UR sig nD τ) (Lvl := ℕ) spec2 c (V4 m ρ c))
        ⊢ (unscopedBufs c (V5 m ρ c) : sProp 𝕄) :=
      Layer3.unscopedBufs_of_arrays (V4 m ρ) c (V5 m ρ c) (V5_result m ρ c).symm (fun b hb => V5_of_ne m ρ c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's five items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ) ]
/-- @main IS the run of the segments. -/
theorem main_run (c : Dev nD) : main (F := F) c = Pipeline.Seg.run (segs m ρ) := (main_chain c).trans (by chain_rfl)

set_option backward.isDefEq.respectTransparency.types false in
/-- THE RUN. From any memory with zero counters, every weakly fair execution of @main on the cores terminates, nothing
    faulting, and every final state has the result buffer at what the third region's write-backs leave in it and every
    argument array as launched. -/
theorem run : θ_run defs (onTc (τ := τ) (main (F := F))) ⟨m, fun _ => 0, ρ⟩ (fun r => ∀ c : Dev nD,
      r.2.mem ((c.tc : Thread nD τ).loc main_v7) = (Layer3.dat (V4 m ρ) c).arrAt 6 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨(h c _ (mem_uc main_v7 (by decide))).trans (V5_result m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

/-- The frame claim: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run m ρ)

end Cert.Kernel.Whole

end
-- ==== Proof.Layer1Ideal.lean ====
import proofs.«127863_j65481071400088_2_alg».proof.Proof.Gen.KernelIdeal.Launch
import proofs.«127863_j65481071400088_2_alg».proof.Proof.Gen.KernelIdeal.Skeleton
import proofs.«127863_j65481071400088_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The first layer's region, point by point

The first pallas_call computes, for the grid point (mb, nb) of a 4 × 4 grid, the 1024 × 1024 block
`tanh (x[mb] · W1[nb]ᵀ + b1[nb])` of the first hidden layer: it reads a 1024 × 512 block of rows of `x`, a
1024 × 512 block of rows of `W1`, a 1 × 1024 block of the bias laid out as a row, and writes the whole output block.
Nothing is carried from one point to the next: the output block after the body is one function of the three input
blocks, the body's single store read back over the whole buffer.

Everything here is stated at a parameter `V`, the contents of the core's buffers when the region is entered.
-/

set_option maxRecDepth 16384

noncomputable section

namespace Cert.KernelIdeal.Layer1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of rows of `x` is in its staging buffer at every point, whether the pipeline fetched it there or kept
    it from the point before (its block index did not move), for any proof data over the arrays of `V` whose body
    leaves the block in place. -/
theorem before_x_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the block of rows of `W1`. -/
theorem before_w_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The same for the block of the bias row. -/
theorem before_b_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body reads and writes -/

/-- The whole 1024 × 512 block. -/
abbrev rIn : Rect S1024x512 := Rect.unit (s := S1024x512) ![0, 0] S1024x512.size inb_S1024x512_S1024x512_0_0
/-- The whole 1 × 1024 row. -/
abbrev rBias : Rect S1x1024 := Rect.unit (s := S1x1024) ![0, 0] S1x1024.size inb_S1x1024_S1x1024_0_0
/-- The whole 1024 × 1024 output block. -/
abbrev rOut : Rect S1024x1024 := Rect.unit (s := S1024x1024) ![0, 0] S1024x1024.size inb_S1024x1024_S1024x1024_0_0

/-- The output block after the body, from the three input blocks: the body's one store, of the layer's value on what
    it loaded, read back over the buffer. -/
def outBlock (x0 : Vec F S1024x512 .f32) (x1 : Vec F S1024x512 .f32) (x2 : Vec F S1x1024 .f32) : Vec F S1024x1024 .bf16 :=
  View.canon [⟨rOut, k0_pay1 (View.ld x0 rIn) (View.ld x1 rIn) (View.ld x2 rBias)⟩]

/-- That store covers the buffer. -/
theorem cover_out (p0 : Vec F S1024x1024 .bf16) (y : S1024x1024.Idx) :
    ∃ pc ∈ ([⟨rOut, p0⟩] : List (View.Piece (Elt F) S1024x1024 .bf16)), y ∈ pc.1.set :=
  View.cover_of_tiled [⟨rOut, p0⟩] S1024x1024.size (by rfl) y

/-! ## The body's triple -/

set_option maxHeartbeats 1000000 in
/-- On whole staging buffers, the inputs' holding `x0`, `x1`, `x2` and the output's anything, the body runs to its end
    leaving the inputs' as they were and the output's at `outBlock x0 x1 x2`. -/
theorem sound_kernel (c : Dev nD) (E : Set ℕ) (i : grid0.Coords)
    (arg2 : Memref sig .tc .vmem S1024x512 .f32) (harg2 : arg2.IsWhole) (arg3 : Memref sig .tc .vmem S1024x512 .f32) (harg3 : arg3.IsWhole)
    (arg4 : Memref sig .tc .vmem S1x1024 .f32) (harg4 : arg4.IsWhole) (arg5 : Memref sig .tc .vmem S1024x1024 .bf16) (harg5 : arg5.IsWhole)
    (x0 : Vec F S1024x512 .f32) (x1 : Vec F S1024x512 .f32) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outBlock x0 x1 x2)) -∗ K ⟨⟩))
      ⊢ wp frame (wpE (defs₀ (F := F)) Variants.none c none) E (cc0__layer1_kernel i arg2 harg2 arg3 harg3 arg4 harg4 arg5 harg5) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The proof data -/

/-- The region's proof data on core `c`: the arrays as the region finds them; after the body at point `t` each input
    buffer still at its block and the output buffer at `outBlock` of the three blocks; the invariant is the scoped rest
    and the generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outBlock (iblk V c 0 t) (iblk V c 1 t) (iblk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_x (c : Dev nD) (t : Fin cfg0.N) : (dat V c).after 0 t = iblk V c 0 t := by dsimp only [dat]
theorem after_w (c : Dev nD) (t : Fin cfg0.N) : (dat V c).after 1 t = iblk V c 1 t := by dsimp only [dat]
theorem after_b (c : Dev nD) (t : Fin cfg0.N) : (dat V c).after 2 t = iblk V c 2 t := by dsimp only [dat]
theorem after_out (c : Dev nD) (t : Fin cfg0.N) :
    (dat V c).after 3 t = outBlock (iblk V c 0 t) (iblk V c 1 t) (iblk V c 2 t) := by dsimp only [dat]

theorem before_x (c : Dev nD) (t : Fin cfg0.N) (d) : (dat V c).before 0 t d = iblk V c 0 t :=
  before_x_of V (dat V c) (A_eq V c 0) (after_x V c) t d
theorem before_w (c : Dev nD) (t : Fin cfg0.N) (d) : (dat V c).before 1 t d = iblk V c 1 t :=
  before_w_of V (dat V c) (A_eq V c 1) (after_w V c) t d
theorem before_b (c : Dev nD) (t : Fin cfg0.N) (d) : (dat V c).before 2 t d = iblk V c 2 t :=
  before_b_of V (dat V c) (A_eq V c 2) (after_b V c) t d

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the input buffers hold their blocks, so the triple applies; the invariant and what the
    core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_w, before_b]
  rw [show (dat V c).Φ t.succ = (dat V c).Φ t.castSucc from rfl,
    show (dat V c).owesAt () t.succ = (dat V c).owesAt () t.castSucc from rfl,
    after_x, after_w, after_b, after_out]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dat (F := F) V c) (defs₀ (F := F)) Variants.none () Set.univ := fun t => by
  rw [bigSep_W0, bigSep_W0]
  exact sound_body V c t

end Cert.KernelIdeal.Layer1

end
-- ==== Proof.Layer2Ideal.lean ====
import proofs.«127863_j65481071400088_2_alg».proof.Proof.Gen.KernelIdeal.Launch
import proofs.«127863_j65481071400088_2_alg».proof.Proof.Gen.KernelIdeal.Skeleton
import proofs.«127863_j65481071400088_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The second layer's region, point by point

The second pallas_call runs on a 4 × 8 grid. At the point (mb, nb) it reads a 1024 × 4096 block of rows of the first
hidden layer, a 512 × 4096 block of rows of `W2`, a 1 × 512 block of the bias row, writes the 1024 × 512 block
`tanh (h1[mb] · W2[nb]ᵀ + b2[nb])` of the second hidden layer, and adds the row sums of that block's squares to a
1024 × 1 accumulator that stays in its staging buffer while nb runs from 0 to 7: at nb = 0 the body first stores zeros
into it, at every other nb it finds what the point before left, and the pipeline writes it back after nb = 7.

So the body has two control cases: the first point of a row of the grid (the accumulator reset), and the others (the
accumulator read). Each case's run is found by executing the body symbolically; what the two output buffers hold after
each point is a recursion on the point. Everything is stated at a parameter `V`, the contents of the core's buffers
when the region is entered.
-/

set_option maxRecDepth 16384

noncomputable section

namespace Cert.KernelIdeal.Layer2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of rows of the first hidden layer is in its staging buffer at every point, fetched there or kept from
    the point before, for any proof data over the arrays of `V` whose body leaves the block in place. -/
theorem before_h_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the block of rows of `W2`. -/
theorem before_w_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The same for the block of the bias row. -/
theorem before_b_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The condition of the body's one branch, from the grid coordinates: the second coordinate is 0. -/
abbrev isFirst (i : grid1.Coords) : Prop := (Scalar.cmpi .ne (Scalar.extui (Scalar.cmpi .eq (BitVec.ofNat 32 (i 1).val) 0#32)) 0#32) = 1#1
/-- It holds at the points ≡ 0 (mod 8): decided over the grid. -/
theorem isFirst_iff : ∀ t : Fin cfg1.N, isFirst (grid1.coords t) ↔ t.val % 8 = 0 :=
  (by decide +kernel : ∀ t : Fin grid1.N, isFirst (grid1.coords t) ↔ t.val % 8 = 0)

/-! ## The staging buffers at a point -/

/-- One staging buffer of each output window, through which its contents are stated (the choice does not matter). -/
abbrev VO3 : View sig .tc .vmem S1024x512 .bf16 := (Memref.whole cc1_stg3_0 : Memref sig .tc .vmem S1024x512 .bf16).view
abbrev VO4 : View sig .tc .vmem S1024x1 .f32 := (Memref.whole cc1_stg4_0 : Memref sig .tc .vmem S1024x1 .f32).view
/-- Each window's current staging buffer at point `t`, as the pipeline passes it, and its wholeness. -/
abbrev ms0 (t : Fin cfg1.N) : Memref sig .tc .vmem S1024x4096 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S512x4096 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x512 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024x512 .bf16 := win1_3.stage (cfg1.slots t 3)
abbrev hs3 (t : Fin cfg1.N) : (ms3 t).IsWhole := hstage1_3 ((cfg1.slots t 3).cast nbuf1_3)
abbrev ms4 (t : Fin cfg1.N) : Memref sig .tc .vmem S1024x1 .f32 := win1_4.stage (cfg1.slots t 4)
abbrev hs4 (t : Fin cfg1.N) : (ms4 t).IsWhole := hstage1_4 ((cfg1.slots t 4).cast nbuf1_4)

/-! ## The body's runs, case by case -/

set_option maxHeartbeats 2000000 in
/-- THE FIRST POINT OF A ROW OF THE GRID. On whole staging buffers, the inputs' at `x0`, `x1`, `x2` and the two outputs'
    at anything, the body runs to its end leaving the inputs' as they were and each output's with the pieces its stores
    wrote (last first): the pieces are what the symbolic run finds. -/
noncomputable def runFirst (c : Dev nD) (i : grid1.Coords)
    (arg2 : Memref sig .tc .vmem S1024x4096 .bf16) (harg2 : arg2.IsWhole) (arg3 : Memref sig .tc .vmem S512x4096 .bf16) (harg3 : arg3.IsWhole)
    (arg4 : Memref sig .tc .vmem S1x512 .f32) (harg4 : arg4.IsWhole) (arg5 : Memref sig .tc .vmem S1024x512 .bf16) (harg5 : arg5.IsWhole)
    (arg6 : Memref sig .tc .vmem S1024x1 .f32) (harg6 : arg6.IsWhole) (hc : isFirst i)
    (x0 : Vec F S1024x4096 .bf16) (x1 : Vec F S512x4096 .bf16) (x2 : Vec F S1x512 .f32) :
    Σ' (L3 : List (View.Piece (Elt F) S1024x512 .bf16)), { L4 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc1__layer2_kernel i arg2 harg2 arg3 harg3 arg4 harg4 arg5 harg5 arg6 harg6) K } := by
  refine ⟨?_, ?_, fun E K => ?run⟩
  case run =>
    simp only [cc1__layer2_kernel_eq_skeleton]; unfold cc1__layer2_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

set_option maxHeartbeats 2000000 in
/-- EVERY OTHER POINT. The same, the accumulator's buffer at the running contents `xo` the point before left. -/
noncomputable def runNext (c : Dev nD) (i : grid1.Coords)
    (arg2 : Memref sig .tc .vmem S1024x4096 .bf16) (harg2 : arg2.IsWhole) (arg3 : Memref sig .tc .vmem S512x4096 .bf16) (harg3 : arg3.IsWhole)
    (arg4 : Memref sig .tc .vmem S1x512 .f32) (harg4 : arg4.IsWhole) (arg5 : Memref sig .tc .vmem S1024x512 .bf16) (harg5 : arg5.IsWhole)
    (arg6 : Memref sig .tc .vmem S1024x1 .f32) (harg6 : arg6.IsWhole) (hc : ¬isFirst i)
    (x0 : Vec F S1024x4096 .bf16) (x1 : Vec F S512x4096 .bf16) (x2 : Vec F S1x512 .f32) (xo : Vec F S1024x1 .f32) :
    Σ' (L3 : List (View.Piece (Elt F) S1024x512 .bf16)), { L4 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xo
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc1__layer2_kernel i arg2 harg2 arg3 harg3 arg4 harg4 arg5 harg5 arg6 harg6) K } := by
  refine ⟨?_, ?_, fun E K => ?run⟩
  case run =>
    simp only [cc1__layer2_kernel_eq_skeleton]; unfold cc1__layer2_kernel_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg2.eq_unread hf0; obtain rfl := harg3.eq_unread hf1; obtain rfl := harg4.eq_unread hf2; obtain rfl := harg6.eq_unread hf4
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

/-! ## What each case leaves in the output buffers -/

/-- The first case's pieces for the stored block cover its buffer, -/
theorem coverFirst_blk (c : Dev nD) (i : grid1.Coords) (arg2 : Memref sig .tc .vmem S1024x4096 .bf16) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x1 .f32) (harg6 : arg6.IsWhole) (hc : isFirst i) (x0 : Vec F S1024x4096 .bf16) (x1 : Vec F S512x4096 .bf16) (x2 : Vec F S1x512 .f32) (y : S1024x512.Idx) :
    ∃ pc ∈ (runFirst c i arg2 harg2 arg3 harg3 arg4 harg4 arg5 harg5 arg6 harg6 hc x0 x1 x2).1, y ∈ pc.1.set :=
  View.cover_of_tiledL (runFirst c i arg2 harg2 arg3 harg3 arg4 harg4 arg5 harg5 arg6 harg6 hc x0 x1 x2).1 S1024x512.size (by sl_kernel_rfl) y
/-- and its pieces for the accumulator cover that one. -/
theorem coverFirst_acc (c : Dev nD) (i : grid1.Coords) (arg2 : Memref sig .tc .vmem S1024x4096 .bf16) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x1 .f32) (harg6 : arg6.IsWhole) (hc : isFirst i) (x0 : Vec F S1024x4096 .bf16) (x1 : Vec F S512x4096 .bf16) (x2 : Vec F S1x512 .f32) (y : S1024x1.Idx) :
    ∃ pc ∈ (runFirst c i arg2 harg2 arg3 harg3 arg4 harg4 arg5 harg5 arg6 harg6 hc x0 x1 x2).2.1, y ∈ pc.1.set :=
  View.cover_of_tiledL (runFirst c i arg2 harg2 arg3 harg3 arg4 harg4 arg5 harg5 arg6 harg6 hc x0 x1 x2).2.1 S1024x1.size (by sl_kernel_rfl) y
/-- What the first case leaves in the stored block's buffer: its pieces read back. -/
def outFirst_blk (c : Dev nD) (i : grid1.Coords) (arg2 : Memref sig .tc .vmem S1024x4096 .bf16) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x1 .f32) (harg6 : arg6.IsWhole) (hc : isFirst i) (x0 : Vec F S1024x4096 .bf16) (x1 : Vec F S512x4096 .bf16) (x2 : Vec F S1x512 .f32) : Vec F S1024x512 .bf16 :=
  VO3.read (Elt F) (VO3.writes (Elt F) VO3.junk (runFirst c i arg2 harg2 arg3 harg3 arg4 harg4 arg5 harg5 arg6 harg6 hc x0 x1 x2).1)
/-- What it leaves in the accumulator's buffer. -/
def outFirst_acc (c : Dev nD) (i : grid1.Coords) (arg2 : Memref sig .tc .vmem S1024x4096 .bf16) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x1 .f32) (harg6 : arg6.IsWhole) (hc : isFirst i) (x0 : Vec F S1024x4096 .bf16) (x1 : Vec F S512x4096 .bf16) (x2 : Vec F S1x512 .f32) : Vec F S1024x1 .f32 :=
  VO4.read (Elt F) (VO4.writes (Elt F) VO4.junk (runFirst c i arg2 harg2 arg3 harg3 arg4 harg4 arg5 harg5 arg6 harg6 hc x0 x1 x2).2.1)

theorem coverNext_blk (c : Dev nD) (i : grid1.Coords) (arg2 : Memref sig .tc .vmem S1024x4096 .bf16) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x1 .f32) (harg6 : arg6.IsWhole) (hc : ¬isFirst i) (x0 : Vec F S1024x4096 .bf16) (x1 : Vec F S512x4096 .bf16) (x2 : Vec F S1x512 .f32) (xo : Vec F S1024x1 .f32) (y : S1024x512.Idx) :
    ∃ pc ∈ (runNext c i arg2 harg2 arg3 harg3 arg4 harg4 arg5 harg5 arg6 harg6 hc x0 x1 x2 xo).1, y ∈ pc.1.set :=
  View.cover_of_tiledL (runNext c i arg2 harg2 arg3 harg3 arg4 harg4 arg5 harg5 arg6 harg6 hc x0 x1 x2 xo).1 S1024x512.size (by sl_kernel_rfl) y
theorem coverNext_acc (c : Dev nD) (i : grid1.Coords) (arg2 : Memref sig .tc .vmem S1024x4096 .bf16) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x1 .f32) (harg6 : arg6.IsWhole) (hc : ¬isFirst i) (x0 : Vec F S1024x4096 .bf16) (x1 : Vec F S512x4096 .bf16) (x2 : Vec F S1x512 .f32) (xo : Vec F S1024x1 .f32) (y : S1024x1.Idx) :
    ∃ pc ∈ (runNext c i arg2 harg2 arg3 harg3 arg4 harg4 arg5 harg5 arg6 harg6 hc x0 x1 x2 xo).2.1, y ∈ pc.1.set :=
  View.cover_of_tiledL (runNext c i arg2 harg2 arg3 harg3 arg4 harg4 arg5 harg5 arg6 harg6 hc x0 x1 x2 xo).2.1 S1024x1.size (by sl_kernel_rfl) y
/-- What every other case leaves in the stored block's buffer, -/
def outNext_blk (c : Dev nD) (i : grid1.Coords) (arg2 : Memref sig .tc .vmem S1024x4096 .bf16) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x1 .f32) (harg6 : arg6.IsWhole) (hc : ¬isFirst i) (x0 : Vec F S1024x4096 .bf16) (x1 : Vec F S512x4096 .bf16) (x2 : Vec F S1x512 .f32) (xo : Vec F S1024x1 .f32) : Vec F S1024x512 .bf16 :=
  VO3.read (Elt F) (VO3.writes (Elt F) VO3.junk (runNext c i arg2 harg2 arg3 harg3 arg4 harg4 arg5 harg5 arg6 harg6 hc x0 x1 x2 xo).1)
/-- and in the accumulator's, over the running contents `xo`. -/
def outNext_acc (c : Dev nD) (i : grid1.Coords) (arg2 : Memref sig .tc .vmem S1024x4096 .bf16) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x1 .f32) (harg6 : arg6.IsWhole) (hc : ¬isFirst i) (x0 : Vec F S1024x4096 .bf16) (x1 : Vec F S512x4096 .bf16) (x2 : Vec F S1x512 .f32) (xo : Vec F S1024x1 .f32) : Vec F S1024x1 .f32 :=
  VO4.read (Elt F) (VO4.writes (Elt F) VO4.junk (runNext c i arg2 harg2 arg3 harg3 arg4 harg4 arg5 harg5 arg6 harg6 hc x0 x1 x2 xo).2.1)

/-! ## What the outputs hold after each point -/

/-- THE ACCUMULATION. What the two output buffers hold after the body at position `n`: the case the point is in, run at
    the point's buffers and input blocks; at a point that is not the first of its row the accumulator starts from what
    the point before left (its buffer is not written back in between). -/
def outsAt (c : Dev nD) : (n : ℕ) → n < cfg1.N → Vec F S1024x512 .bf16 × Vec F S1024x1 .f32
  | 0, hn => (outFirst_blk c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) ((isFirst_iff ⟨0, hn⟩).mpr (Nat.zero_mod _)) (iblk V c 0 ⟨0, hn⟩) (iblk V c 1 ⟨0, hn⟩) (iblk V c 2 ⟨0, hn⟩),
      outFirst_acc c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) ((isFirst_iff ⟨0, hn⟩).mpr (Nat.zero_mod _)) (iblk V c 0 ⟨0, hn⟩) (iblk V c 1 ⟨0, hn⟩) (iblk V c 2 ⟨0, hn⟩))
  | n + 1, hn =>
    if h0 : (n + 1) % 8 = 0 then
      (outFirst_blk c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) ((isFirst_iff ⟨n + 1, hn⟩).mpr h0) (iblk V c 0 ⟨n + 1, hn⟩) (iblk V c 1 ⟨n + 1, hn⟩) (iblk V c 2 ⟨n + 1, hn⟩),
        outFirst_acc c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) ((isFirst_iff ⟨n + 1, hn⟩).mpr h0) (iblk V c 0 ⟨n + 1, hn⟩) (iblk V c 1 ⟨n + 1, hn⟩) (iblk V c 2 ⟨n + 1, hn⟩))
    else
      (outNext_blk c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (fun h => h0 ((isFirst_iff ⟨n + 1, hn⟩).mp h)) (iblk V c 0 ⟨n + 1, hn⟩) (iblk V c 1 ⟨n + 1, hn⟩) (iblk V c 2 ⟨n + 1, hn⟩) (outsAt c n (Nat.lt_of_succ_lt hn)).2,
        outNext_acc c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (fun h => h0 ((isFirst_iff ⟨n + 1, hn⟩).mp h)) (iblk V c 0 ⟨n + 1, hn⟩) (iblk V c 1 ⟨n + 1, hn⟩) (iblk V c 2 ⟨n + 1, hn⟩) (outsAt c n (Nat.lt_of_succ_lt hn)).2)

/-- `outsAt` at the first point of a row: the reset case's contents. -/
theorem outsAt_first (c : Dev nD) (t : Fin cfg1.N) (h0 : t.val % 8 = 0) :
    outsAt V c t.val t.isLt = (outFirst_blk c (grid1.coords t) (ms0 t) (hs0 t) (ms1 t) (hs1 t) (ms2 t) (hs2 t) (ms3 t) (hs3 t) (ms4 t) (hs4 t) ((isFirst_iff t).mpr h0) (iblk V c 0 t) (iblk V c 1 t) (iblk V c 2 t),
      outFirst_acc c (grid1.coords t) (ms0 t) (hs0 t) (ms1 t) (hs1 t) (ms2 t) (hs2 t) (ms3 t) (hs3 t) (ms4 t) (hs4 t) ((isFirst_iff t).mpr h0) (iblk V c 0 t) (iblk V c 1 t) (iblk V c 2 t)) := by
  obtain ⟨n, hn⟩ := t
  cases n with
  | zero => exact rfl
  | succ n => exact (dif_pos h0).trans rfl

/-- `outsAt` at any other point: the other case's contents, over what the point before left. -/
theorem outsAt_next (c : Dev nD) (t : Fin cfg1.N) (h0 : ¬t.val % 8 = 0) :
    outsAt V c t.val t.isLt = (outNext_blk c (grid1.coords t) (ms0 t) (hs0 t) (ms1 t) (hs1 t) (ms2 t) (hs2 t) (ms3 t) (hs3 t) (ms4 t) (hs4 t) (fun h => h0 ((isFirst_iff t).mp h)) (iblk V c 0 t) (iblk V c 1 t) (iblk V c 2 t) (outsAt V c (t.val - 1) (Nat.lt_of_le_of_lt (Nat.sub_le _ _) t.isLt)).2,
      outNext_acc c (grid1.coords t) (ms0 t) (hs0 t) (ms1 t) (hs1 t) (ms2 t) (hs2 t) (ms3 t) (hs3 t) (ms4 t) (hs4 t) (fun h => h0 ((isFirst_iff t).mp h)) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

theorem outsAt_first_blk (c : Dev nD) (t : Fin cfg1.N) (h0 : t.val % 8 = 0) :
    (outsAt V c t.val t.isLt).1 = outFirst_blk c (grid1.coords t) (ms0 t) (hs0 t) (ms1 t) (hs1 t) (ms2 t) (hs2 t) (ms3 t) (hs3 t) (ms4 t) (hs4 t) ((isFirst_iff t).mpr h0) (iblk V c 0 t) (iblk V c 1 t) (iblk V c 2 t) := by
  rw [outsAt_first V c t h0]
theorem outsAt_first_acc (c : Dev nD) (t : Fin cfg1.N) (h0 : t.val % 8 = 0) :
    (outsAt V c t.val t.isLt).2 = outFirst_acc c (grid1.coords t) (ms0 t) (hs0 t) (ms1 t) (hs1 t) (ms2 t) (hs2 t) (ms3 t) (hs3 t) (ms4 t) (hs4 t) ((isFirst_iff t).mpr h0) (iblk V c 0 t) (iblk V c 1 t) (iblk V c 2 t) := by
  rw [outsAt_first V c t h0]
theorem outsAt_next_blk (c : Dev nD) (t : Fin cfg1.N) (h0 : ¬t.val % 8 = 0) :
    (outsAt V c t.val t.isLt).1 = outNext_blk c (grid1.coords t) (ms0 t) (hs0 t) (ms1 t) (hs1 t) (ms2 t) (hs2 t) (ms3 t) (hs3 t) (ms4 t) (hs4 t) (fun h => h0 ((isFirst_iff t).mp h)) (iblk V c 0 t) (iblk V c 1 t) (iblk V c 2 t) (outsAt V c (t.val - 1) (Nat.lt_of_le_of_lt (Nat.sub_le _ _) t.isLt)).2 := by
  rw [outsAt_next V c t h0]
theorem outsAt_next_acc (c : Dev nD) (t : Fin cfg1.N) (h0 : ¬t.val % 8 = 0) :
    (outsAt V c t.val t.isLt).2 = outNext_acc c (grid1.coords t) (ms0 t) (hs0 t) (ms1 t) (hs1 t) (ms2 t) (hs2 t) (ms3 t) (hs3 t) (ms4 t) (hs4 t) (fun h => h0 ((isFirst_iff t).mp h)) (iblk V c 0 t) (iblk V c 1 t) (iblk V c 2 t) (outsAt V c (t.val - 1) (Nat.lt_of_le_of_lt (Nat.sub_le _ _) t.isLt)).2 := by
  rw [outsAt_next V c t h0]

/-! ## The proof data -/

/-- The region's proof data on core `c`: the arrays as the region finds them; after the body at point `t` each input
    buffer still at its block and the two output buffers at `outsAt`; the invariant is the scoped rest and the generator
    register, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
    | ⟨4, _⟩ => (outsAt V c t.val t.isLt).2
  Φ _ := Pipeline.ΦA spec1 c
  q _ := fullShare
  owed _ := 0

theorem A_eq (c : Dev nD) (w : Fin cfg1.W) : (dat V c).A w = V c (Pipeline.arrRef spec1 w) := by
  dsimp only [dat]

theorem after_h (c : Dev nD) (t : Fin cfg1.N) : (dat V c).after 0 t = iblk V c 0 t := by dsimp only [dat]
theorem after_w (c : Dev nD) (t : Fin cfg1.N) : (dat V c).after 1 t = iblk V c 1 t := by dsimp only [dat]
theorem after_b (c : Dev nD) (t : Fin cfg1.N) : (dat V c).after 2 t = iblk V c 2 t := by dsimp only [dat]
theorem after_blk (c : Dev nD) (t : Fin cfg1.N) : (dat V c).after 3 t = (outsAt V c t.val t.isLt).1 := by dsimp only [dat]
theorem after_acc (c : Dev nD) (t : Fin cfg1.N) : (dat V c).after 4 t = (outsAt V c t.val t.isLt).2 := by dsimp only [dat]

theorem before_h (c : Dev nD) (t : Fin cfg1.N) (d) : (dat V c).before 0 t d = iblk V c 0 t :=
  before_h_of V (dat V c) (A_eq V c 0) (after_h V c) t d
theorem before_w (c : Dev nD) (t : Fin cfg1.N) (d) : (dat V c).before 1 t d = iblk V c 1 t :=
  before_w_of V (dat V c) (A_eq V c 1) (after_w V c) t d
theorem before_b (c : Dev nD) (t : Fin cfg1.N) (d) : (dat V c).before 2 t d = iblk V c 2 t :=
  before_b_of V (dat V c) (A_eq V c 2) (after_b V c) t d
/-- At a point that is not the first of its row the accumulator's buffer holds what the body left at the point before:
    the buffer was not written back in between, the window is live and uncut. -/
theorem before_acc (c : Dev nD) (t : Fin cfg1.N) (h0 : ¬t.val % 8 = 0) (d) :
    (dat V c).before 4 t d = (outsAt V c (t.val - 1) (Nat.lt_of_le_of_lt (Nat.sub_le _ _) t.isLt)).2 := by
  have hN : t.val < 32 := lt_of_lt_of_eq t.isLt (show cfg1.N = 32 from N_1)
  rw [Dat.before_out_kept _ 4 rfl t (by omega) (Bool.eq_false_iff.mpr fun h => by have := (flush1_4 _).mp h; dsimp only at this; omega)
    (fun _ => rfl) (fun _ _ => rfl)]
  dsimp only [dat]

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg1.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t))

set_option maxHeartbeats 1600000 in
/-- The body at any point: the input buffers hold their blocks; the point is the first of its row or not; in the
    second case the accumulator's buffer holds what the point before left; so that case's run applies; the invariant
    and what the core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_h, before_w, before_b]
  rw [show (dat V c).Φ t.succ = (dat V c).Φ t.castSucc from rfl,
    show (dat V c).owesAt () t.succ = (dat V c).owesAt () t.castSucc from rfl,
    after_h, after_w, after_b, after_blk, after_acc]
  by_cases h0 : t.val % 8 = 0
  · rw [outsAt_first_blk V c t h0, outsAt_first_acc V c t h0]
    unfold outFirst_blk outFirst_acc
    iintro ⟨HΦ, Ho, ⟨%d0, H0⟩, ⟨%d1, H1⟩, ⟨%d2, H2⟩, ⟨%d3, H3⟩, ⟨%d4, H4⟩⟩
    iapply ((runFirst c (grid1.coords t) _ _ _ _ _ _ _ _ _ _ ((isFirst_iff t).mpr h0) (iblk V c 0 t) (iblk V c 1 t) (iblk V c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverFirst_blk c _ _ _ _ _ _ _ _ _ _ _ _ _ _ _)
    unfold owns; iexists _; isplitr
    swap; · iexact H4
    ipureintro; exact View.read_writes_of_cover _ _ _ _ _ (coverFirst_acc c _ _ _ _ _ _ _ _ _ _ _ _ _ _ _)
  · rw [outsAt_next_blk V c t h0, outsAt_next_acc V c t h0]
    simp only [before_acc V c t h0]
    unfold outNext_blk outNext_acc
    iintro ⟨HΦ, Ho, ⟨%d0, H0⟩, ⟨%d1, H1⟩, ⟨%d2, H2⟩, ⟨%d3, H3⟩, ⟨%d4, H4⟩⟩
    iapply ((runNext c (grid1.coords t) _ _ _ _ _ _ _ _ _ _ (fun h => h0 ((isFirst_iff t).mp h)) (iblk V c 0 t) (iblk V c 1 t) (iblk V c 2 t) _).2.2 Set.univ _)
    isplitl [H0]; · iexact H0
    isplitl [H1]; · iexact H1
    isplitl [H2]; · iexact H2
    isplitl [H3]; · iexists _; iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverNext_blk c _ _ _ _ _ _ _ _ _ _ _ _ _ _ _ _)
    unfold owns; iexists _; isplitr
    swap; · iexact H4
    ipureintro; exact View.read_writes_of_cover _ _ _ _ _ (coverNext_acc c _ _ _ _ _ _ _ _ _ _ _ _ _ _ _ _)

/-- The body obligation, at every point. -/
theorem body_obligation (c : Dev nD) : BodyObligation (dat (F := F) V c) (defs₀ (F := F)) Variants.none () Set.univ := fun t => by
  rw [bigSep_W1, bigSep_W1]
  exact sound_body V c t

end Cert.KernelIdeal.Layer2

end
-- ==== Proof.Layer3Ideal.lean ====
import proofs.«127863_j65481071400088_2_alg».proof.Proof.Gen.KernelIdeal.Launch
import proofs.«127863_j65481071400088_2_alg».proof.Proof.Gen.KernelIdeal.Skeleton
import proofs.«127863_j65481071400088_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The third region, point by point

The third pallas_call runs on a 4 × 8 grid. At the point (mb, nb) it reads a 1024 × 4096 block of rows of the second
hidden layer (the rows i), a 512 × 4096 block of rows of the same array (the rows j), the 1024 × 1 block of the row
norms at i, the 1 × 512 blocks of the row norms at j and of the weights `Wc`, and the 1 × 1 bias, and adds
`Σ_j exp (c · ((‖h_i‖² + ‖h_j‖²) − 2 · h_i · h_j)) · Wc[j]` over the block's 512 values of j to a 1024 × 1 accumulator that
stays in its staging buffer while nb runs from 0 to 7: at nb = 0 the body first stores zeros into it, at nb = 7 it adds
the bias after the block's sum, and the pipeline writes the accumulator back after nb = 7.

So the body has three control cases: the first point of a row of the grid, the last, and those between. Each case's run
is found by executing the body symbolically; what the accumulator's buffer holds after each point is a recursion on the
point. Everything is stated at a parameter `V`, the contents of the core's buffers when the region is entered.
-/

set_option maxRecDepth 16384

noncomputable section

namespace Cert.KernelIdeal.Layer3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of rows i of the hidden layer is in its staging buffer at every point, fetched there or kept from the point before, for any proof data over the arrays of `V` whose body leaves the block in place. -/
theorem before_hi_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the block of rows j. -/
theorem before_hj_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The same for the block of row norms at i. -/
theorem before_nr_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The same for the block of row norms at j. -/
theorem before_nc_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The same for the block of the weights. -/
theorem before_wc_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The same for the bias, fetched once, at the first point. -/
theorem before_bc_of {c : Dev nD} (dat : Dat τ (Elt F) Unit ℕ (UR sig nD τ) ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's branches -/

/-- The condition of the body's first branch, from the grid coordinates: the second coordinate is 0. -/
abbrev isFirst (i : grid2.Coords) : Prop := (Scalar.cmpi .ne (Scalar.extui (Scalar.cmpi .eq (BitVec.ofNat 32 (i 1).val) 0#32)) 0#32) = 1#1
/-- The condition of its second branch: the second coordinate is 7. -/
abbrev isLast (i : grid2.Coords) : Prop := (Scalar.cmpi .ne (Scalar.extui (Scalar.cmpi .eq (BitVec.ofNat 32 (i 1).val) 7#32)) 0#32) = 1#1
theorem isFirst_iff : ∀ t : Fin cfg2.N, isFirst (grid2.coords t) ↔ t.val % 8 = 0 :=
  (by decide +kernel : ∀ t : Fin grid2.N, isFirst (grid2.coords t) ↔ t.val % 8 = 0)
theorem isLast_iff : ∀ t : Fin cfg2.N, isLast (grid2.coords t) ↔ t.val % 8 = 7 :=
  (by decide +kernel : ∀ t : Fin grid2.N, isLast (grid2.coords t) ↔ t.val % 8 = 7)

/-! ## The staging buffers at a point -/

/-- One staging buffer of the output window, through which its contents are stated (the choice does not matter). -/
abbrev VO : View sig .tc .vmem S1024x1 .f32 := (Memref.whole cc2_stg6_0 : Memref sig .tc .vmem S1024x1 .f32).view
abbrev ms0 (t : Fin cfg2.N) : Memref sig .tc .vmem S1024x4096 .bf16 := win2_0.stage (cfg2.slots t 0)
abbrev hs0 (t : Fin cfg2.N) : (ms0 t).IsWhole := hstage2_0 ((cfg2.slots t 0).cast nbuf2_0)
abbrev ms1 (t : Fin cfg2.N) : Memref sig .tc .vmem S512x4096 .bf16 := win2_1.stage (cfg2.slots t 1)
abbrev hs1 (t : Fin cfg2.N) : (ms1 t).IsWhole := hstage2_1 ((cfg2.slots t 1).cast nbuf2_1)
abbrev ms2 (t : Fin cfg2.N) : Memref sig .tc .vmem S1024x1 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S1x512 .f32 := win2_3.stage (cfg2.slots t 3)
abbrev hs3 (t : Fin cfg2.N) : (ms3 t).IsWhole := hstage2_3 ((cfg2.slots t 3).cast nbuf2_3)
abbrev ms4 (t : Fin cfg2.N) : Memref sig .tc .vmem S1x512 .f32 := win2_4.stage (cfg2.slots t 4)
abbrev hs4 (t : Fin cfg2.N) : (ms4 t).IsWhole := hstage2_4 ((cfg2.slots t 4).cast nbuf2_4)
abbrev ms5 (t : Fin cfg2.N) : Memref sig .tc .vmem S1x1 .f32 := win2_5.stage (cfg2.slots t 5)
abbrev hs5 (t : Fin cfg2.N) : (ms5 t).IsWhole := hstage2_5 ((cfg2.slots t 5).cast nbuf2_5)
abbrev ms6 (t : Fin cfg2.N) : Memref sig .tc .vmem S1024x1 .f32 := win2_6.stage (cfg2.slots t 6)
abbrev hs6 (t : Fin cfg2.N) : (ms6 t).IsWhole := hstage2_6 ((cfg2.slots t 6).cast nbuf2_6)

/-! ## The body's runs, case by case -/

set_option maxHeartbeats 4000000 in
/-- THE FIRST POINT OF A ROW OF THE GRID (the accumulator reset, no bias yet). On whole staging buffers, the inputs' at their contents and the accumulator's at anything, the body runs to its end leaving the inputs' as they were and the accumulator's with the pieces its stores wrote (last first): the pieces are what the symbolic run finds. -/
noncomputable def runFirst (c : Dev nD) (i : grid2.Coords) (arg2 : Memref sig .tc .vmem S1024x4096 .bf16) (harg2 : arg2.IsWhole) (arg3 : Memref sig .tc .vmem S512x4096 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1 .f32) (harg7 : arg7.IsWhole) (arg8 : Memref sig .tc .vmem S1024x1 .f32) (harg8 : arg8.IsWhole) (hc0 : isFirst i) (hc1 : ¬isLast i)
    (x0 : Vec F S1024x4096 .bf16) (x1 : Vec F S512x4096 .bf16) (x2 : Vec F S1024x1 .f32) (x3 : Vec F S1x512 .f32) (x4 : Vec F S1x512 .f32) (x5 : Vec F S1x1 .f32) :
    { L : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L)) -∗ K ⟨⟩))
          ⊢ wp frame (wpE (defs₀ (F := F)) Variants.none c none) E (cc2__layer3_kernel i arg2 harg2 arg3 harg3 arg4 harg4 arg5 harg5 arg6 harg6 arg7 harg7 arg8 harg8) K } := by
  refine ⟨?_, fun E K => ?run⟩
  case run =>
    simp only [cc2__layer3_kernel_eq_skeleton]; unfold cc2__layer3_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

set_option maxHeartbeats 4000000 in
/-- A POINT BETWEEN (no reset, no bias): the accumulator's buffer at the running contents `xo` the point before left. -/
noncomputable def runMid (c : Dev nD) (i : grid2.Coords) (arg2 : Memref sig .tc .vmem S1024x4096 .bf16) (harg2 : arg2.IsWhole) (arg3 : Memref sig .tc .vmem S512x4096 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1 .f32) (harg7 : arg7.IsWhole) (arg8 : Memref sig .tc .vmem S1024x1 .f32) (harg8 : arg8.IsWhole) (hc0 : ¬isFirst i) (hc1 : ¬isLast i)
    (x0 : Vec F S1024x4096 .bf16) (x1 : Vec F S512x4096 .bf16) (x2 : Vec F S1024x1 .f32) (x3 : Vec F S1x512 .f32) (x4 : Vec F S1x512 .f32) (x5 : Vec F S1x1 .f32) (xo : Vec F S1024x1 .f32) :
    { L : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L)) -∗ K ⟨⟩))
          ⊢ wp frame (wpE (defs₀ (F := F)) Variants.none c none) E (cc2__layer3_kernel i arg2 harg2 arg3 harg3 arg4 harg4 arg5 harg5 arg6 harg6 arg7 harg7 arg8 harg8) K } := by
  refine ⟨?_, fun E K => ?run⟩
  case run =>
    simp only [cc2__layer3_kernel_eq_skeleton]; unfold cc2__layer3_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

set_option maxHeartbeats 4000000 in
/-- THE LAST POINT OF A ROW (no reset; the bias added after the block's sum). -/
noncomputable def runLast (c : Dev nD) (i : grid2.Coords) (arg2 : Memref sig .tc .vmem S1024x4096 .bf16) (harg2 : arg2.IsWhole) (arg3 : Memref sig .tc .vmem S512x4096 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1 .f32) (harg7 : arg7.IsWhole) (arg8 : Memref sig .tc .vmem S1024x1 .f32) (harg8 : arg8.IsWhole) (hc0 : ¬isFirst i) (hc1 : isLast i)
    (x0 : Vec F S1024x4096 .bf16) (x1 : Vec F S512x4096 .bf16) (x2 : Vec F S1024x1 .f32) (x3 : Vec F S1x512 .f32) (x4 : Vec F S1x512 .f32) (x5 : Vec F S1x1 .f32) (xo : Vec F S1024x1 .f32) :
    { L : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L)) -∗ K ⟨⟩))
          ⊢ wp frame (wpE (defs₀ (F := F)) Variants.none c none) E (cc2__layer3_kernel i arg2 harg2 arg3 harg3 arg4 harg4 arg5 harg5 arg6 harg6 arg7 harg7 arg8 harg8) K } := by
  refine ⟨?_, fun E K => ?run⟩
  case run =>
    simp only [cc2__layer3_kernel_eq_skeleton]; unfold cc2__layer3_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

/-! ## What each case leaves in the accumulator's buffer -/

/-- The first case's pieces cover the accumulator's buffer. -/
theorem coverFirst (c : Dev nD) (i : grid2.Coords) (arg2 : Memref sig .tc .vmem S1024x4096 .bf16) (harg2 : arg2.IsWhole) (arg3 : Memref sig .tc .vmem S512x4096 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1 .f32) (harg7 : arg7.IsWhole) (arg8 : Memref sig .tc .vmem S1024x1 .f32) (harg8 : arg8.IsWhole) (hc0 : isFirst i) (hc1 : ¬isLast i) (x0 : Vec F S1024x4096 .bf16) (x1 : Vec F S512x4096 .bf16) (x2 : Vec F S1024x1 .f32) (x3 : Vec F S1x512 .f32) (x4 : Vec F S1x512 .f32) (x5 : Vec F S1x1 .f32) (y : S1024x1.Idx) :
    ∃ pc ∈ (runFirst c i arg2 harg2 arg3 harg3 arg4 harg4 arg5 harg5 arg6 harg6 arg7 harg7 arg8 harg8 hc0 hc1 x0 x1 x2 x3 x4 x5).1, y ∈ pc.1.set :=
  View.cover_of_tiledL (runFirst c i arg2 harg2 arg3 harg3 arg4 harg4 arg5 harg5 arg6 harg6 arg7 harg7 arg8 harg8 hc0 hc1 x0 x1 x2 x3 x4 x5).1 S1024x1.size (by sl_kernel_rfl) y
/-- What that case leaves in the accumulator's buffer: its pieces read back. -/
def outFirst (c : Dev nD) (i : grid2.Coords) (arg2 : Memref sig .tc .vmem S1024x4096 .bf16) (harg2 : arg2.IsWhole) (arg3 : Memref sig .tc .vmem S512x4096 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1 .f32) (harg7 : arg7.IsWhole) (arg8 : Memref sig .tc .vmem S1024x1 .f32) (harg8 : arg8.IsWhole) (hc0 : isFirst i) (hc1 : ¬isLast i) (x0 : Vec F S1024x4096 .bf16) (x1 : Vec F S512x4096 .bf16) (x2 : Vec F S1024x1 .f32) (x3 : Vec F S1x512 .f32) (x4 : Vec F S1x512 .f32) (x5 : Vec F S1x1 .f32) : Vec F S1024x1 .f32 :=
  VO.read (Elt F) (VO.writes (Elt F) VO.junk (runFirst c i arg2 harg2 arg3 harg3 arg4 harg4 arg5 harg5 arg6 harg6 arg7 harg7 arg8 harg8 hc0 hc1 x0 x1 x2 x3 x4 x5).1)

/-- The middle case's pieces cover it. -/
theorem coverMid (c : Dev nD) (i : grid2.Coords) (arg2 : Memref sig .tc .vmem S1024x4096 .bf16) (harg2 : arg2.IsWhole) (arg3 : Memref sig .tc .vmem S512x4096 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1 .f32) (harg7 : arg7.IsWhole) (arg8 : Memref sig .tc .vmem S1024x1 .f32) (harg8 : arg8.IsWhole) (hc0 : ¬isFirst i) (hc1 : ¬isLast i) (x0 : Vec F S1024x4096 .bf16) (x1 : Vec F S512x4096 .bf16) (x2 : Vec F S1024x1 .f32) (x3 : Vec F S1x512 .f32) (x4 : Vec F S1x512 .f32) (x5 : Vec F S1x1 .f32) (xo : Vec F S1024x1 .f32) (y : S1024x1.Idx) :
    ∃ pc ∈ (runMid c i arg2 harg2 arg3 harg3 arg4 harg4 arg5 harg5 arg6 harg6 arg7 harg7 arg8 harg8 hc0 hc1 x0 x1 x2 x3 x4 x5 xo).1, y ∈ pc.1.set :=
  View.cover_of_tiledL (runMid c i arg2 harg2 arg3 harg3 arg4 harg4 arg5 harg5 arg6 harg6 arg7 harg7 arg8 harg8 hc0 hc1 x0 x1 x2 x3 x4 x5 xo).1 S1024x1.size (by sl_kernel_rfl) y
/-- What that case leaves in the accumulator's buffer: its pieces read back. -/
def outMid (c : Dev nD) (i : grid2.Coords) (arg2 : Memref sig .tc .vmem S1024x4096 .bf16) (harg2 : arg2.IsWhole) (arg3 : Memref sig .tc .vmem S512x4096 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1 .f32) (harg7 : arg7.IsWhole) (arg8 : Memref sig .tc .vmem S1024x1 .f32) (harg8 : arg8.IsWhole) (hc0 : ¬isFirst i) (hc1 : ¬isLast i) (x0 : Vec F S1024x4096 .bf16) (x1 : Vec F S512x4096 .bf16) (x2 : Vec F S1024x1 .f32) (x3 : Vec F S1x512 .f32) (x4 : Vec F S1x512 .f32) (x5 : Vec F S1x1 .f32) (xo : Vec F S1024x1 .f32) : Vec F S1024x1 .f32 :=
  VO.read (Elt F) (VO.writes (Elt F) VO.junk (runMid c i arg2 harg2 arg3 harg3 arg4 harg4 arg5 harg5 arg6 harg6 arg7 harg7 arg8 harg8 hc0 hc1 x0 x1 x2 x3 x4 x5 xo).1)

/-- The last case's pieces cover it. -/
theorem coverLast (c : Dev nD) (i : grid2.Coords) (arg2 : Memref sig .tc .vmem S1024x4096 .bf16) (harg2 : arg2.IsWhole) (arg3 : Memref sig .tc .vmem S512x4096 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1 .f32) (harg7 : arg7.IsWhole) (arg8 : Memref sig .tc .vmem S1024x1 .f32) (harg8 : arg8.IsWhole) (hc0 : ¬isFirst i) (hc1 : isLast i) (x0 : Vec F S1024x4096 .bf16) (x1 : Vec F S512x4096 .bf16) (x2 : Vec F S1024x1 .f32) (x3 : Vec F S1x512 .f32) (x4 : Vec F S1x512 .f32) (x5 : Vec F S1x1 .f32) (xo : Vec F S1024x1 .f32) (y : S1024x1.Idx) :
    ∃ pc ∈ (runLast c i arg2 harg2 arg3 harg3 arg4 harg4 arg5 harg5 arg6 harg6 arg7 harg7 arg8 harg8 hc0 hc1 x0 x1 x2 x3 x4 x5 xo).1, y ∈ pc.1.set :=
  View.cover_of_tiledL (runLast c i arg2 harg2 arg3 harg3 arg4 harg4 arg5 harg5 arg6 harg6 arg7 harg7 arg8 harg8 hc0 hc1 x0 x1 x2 x3 x4 x5 xo).1 S1024x1.size (by sl_kernel_rfl) y
/-- What that case leaves in the accumulator's buffer: its pieces read back. -/
def outLast (c : Dev nD) (i : grid2.Coords) (arg2 : Memref sig .tc .vmem S1024x4096 .bf16) (harg2 : arg2.IsWhole) (arg3 : Memref sig .tc .vmem S512x4096 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1 .f32) (harg7 : arg7.IsWhole) (arg8 : Memref sig .tc .vmem S1024x1 .f32) (harg8 : arg8.IsWhole) (hc0 : ¬isFirst i) (hc1 : isLast i) (x0 : Vec F S1024x4096 .bf16) (x1 : Vec F S512x4096 .bf16) (x2 : Vec F S1024x1 .f32) (x3 : Vec F S1x512 .f32) (x4 : Vec F S1x512 .f32) (x5 : Vec F S1x1 .f32) (xo : Vec F S1024x1 .f32) : Vec F S1024x1 .f32 :=
  VO.read (Elt F) (VO.writes (Elt F) VO.junk (runLast c i arg2 harg2 arg3 harg3 arg4 harg4 arg5 harg5 arg6 harg6 arg7 harg7 arg8 harg8 hc0 hc1 x0 x1 x2 x3 x4 x5 xo).1)

/-! ## What the accumulator holds after each point -/

/-- THE ACCUMULATION. What the accumulator's buffer holds after the body at position `n`: the case the point is in, run
    at the point's buffers and input blocks; at a point that is not the first of its row it starts from what the point
    before left (the buffer is not written back in between). -/
def outsAt (c : Dev nD) : (n : ℕ) → n < cfg2.N → Vec F S1024x1 .f32
  | 0, hn => outFirst c (grid2.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) ((isFirst_iff ⟨0, hn⟩).mpr (Nat.zero_mod _)) (fun h => by have := (isLast_iff ⟨0, hn⟩).mp h; dsimp only at this; omega) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩)
  | n + 1, hn =>
    if h0 : (n + 1) % 8 = 0 then
      outFirst c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) ((isFirst_iff ⟨n + 1, hn⟩).mpr h0) (fun h => by have := (isLast_iff ⟨n + 1, hn⟩).mp h; dsimp only at this; omega) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩)
    else if h7 : (n + 1) % 8 = 7 then
      outLast c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (fun h => h0 ((isFirst_iff ⟨n + 1, hn⟩).mp h)) ((isLast_iff ⟨n + 1, hn⟩).mpr h7) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt c n (Nat.lt_of_succ_lt hn))
    else
      outMid c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (fun h => h0 ((isFirst_iff ⟨n + 1, hn⟩).mp h)) (fun h => h7 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt c n (Nat.lt_of_succ_lt hn))

/-- `outsAt` at the first point of a row. -/
theorem outsAt_first (c : Dev nD) (t : Fin cfg2.N) (h0 : t.val % 8 = 0) :
    outsAt V c t.val t.isLt = outFirst c (grid2.coords t) (ms0 t) (hs0 t) (ms1 t) (hs1 t) (ms2 t) (hs2 t) (ms3 t) (hs3 t) (ms4 t) (hs4 t) (ms5 t) (hs5 t) (ms6 t) (hs6 t) ((isFirst_iff t).mpr h0) (fun h => by have := (isLast_iff t).mp h; omega) (iblk V c 0 t) (iblk V c 1 t) (iblk V c 2 t) (iblk V c 3 t) (iblk V c 4 t) (iblk V c 5 t) := by
  obtain ⟨n, hn⟩ := t
  cases n with
  | zero => exact rfl
  | succ n => exact (dif_pos h0).trans rfl

/-- `outsAt` at the last point of a row: over what the point before left. -/
theorem outsAt_last (c : Dev nD) (t : Fin cfg2.N) (h0 : ¬t.val % 8 = 0) (h7 : t.val % 8 = 7) :
    outsAt V c t.val t.isLt = outLast c (grid2.coords t) (ms0 t) (hs0 t) (ms1 t) (hs1 t) (ms2 t) (hs2 t) (ms3 t) (hs3 t) (ms4 t) (hs4 t) (ms5 t) (hs5 t) (ms6 t) (hs6 t) (fun h => h0 ((isFirst_iff t).mp h)) ((isLast_iff t).mpr h7) (iblk V c 0 t) (iblk V c 1 t) (iblk V c 2 t) (iblk V c 3 t) (iblk V c 4 t) (iblk V c 5 t) (outsAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact ((dif_neg h0).trans (dif_pos h7)).trans rfl

/-- `outsAt` at a point between: over what the point before left. -/
theorem outsAt_mid (c : Dev nD) (t : Fin cfg2.N) (h0 : ¬t.val % 8 = 0) (h7 : ¬t.val % 8 = 7) :
    outsAt V c t.val t.isLt = outMid c (grid2.coords t) (ms0 t) (hs0 t) (ms1 t) (hs1 t) (ms2 t) (hs2 t) (ms3 t) (hs3 t) (ms4 t) (hs4 t) (ms5 t) (hs5 t) (ms6 t) (hs6 t) (fun h => h0 ((isFirst_iff t).mp h)) (fun h => h7 ((isLast_iff t).mp h)) (iblk V c 0 t) (iblk V c 1 t) (iblk V c 2 t) (iblk V c 3 t) (iblk V c 4 t) (iblk V c 5 t) (outsAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact ((dif_neg h0).trans (dif_neg h7)).trans rfl

/-! ## The proof data -/

/-- The region's proof data on core `c`: the arrays as the region finds them; after the body at point `t` each input
    buffer still at its block and the accumulator's at `outsAt`; the invariant is the scoped rest and the generator
    register, untouched; nothing owed. The two windows that read rows of the hidden layer read ONE array: each holds
    half of it, the two halves of the full share; every other array is held whole. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outsAt V c t.val t.isLt
  Φ _ := Pipeline.ΦA spec2 c
  q w := match w with
    | ⟨0, _⟩ => (fullShare : PosShare TreeShare).left
    | ⟨1, _⟩ => (fullShare : PosShare TreeShare).right
    | _ => fullShare
  owed _ := 0

theorem A_eq (c : Dev nD) (w : Fin cfg2.W) : (dat V c).A w = V c (Pipeline.arrRef spec2 w) := by
  dsimp only [dat]

theorem after_hi (c : Dev nD) (t : Fin cfg2.N) : (dat V c).after 0 t = iblk V c 0 t := by dsimp only [dat]
theorem after_hj (c : Dev nD) (t : Fin cfg2.N) : (dat V c).after 1 t = iblk V c 1 t := by dsimp only [dat]
theorem after_nr (c : Dev nD) (t : Fin cfg2.N) : (dat V c).after 2 t = iblk V c 2 t := by dsimp only [dat]
theorem after_nc (c : Dev nD) (t : Fin cfg2.N) : (dat V c).after 3 t = iblk V c 3 t := by dsimp only [dat]
theorem after_wc (c : Dev nD) (t : Fin cfg2.N) : (dat V c).after 4 t = iblk V c 4 t := by dsimp only [dat]
theorem after_bc (c : Dev nD) (t : Fin cfg2.N) : (dat V c).after 5 t = iblk V c 5 t := by dsimp only [dat]
theorem after_acc (c : Dev nD) (t : Fin cfg2.N) : (dat V c).after 6 t = outsAt V c t.val t.isLt := by dsimp only [dat]

theorem before_hi (c : Dev nD) (t : Fin cfg2.N) (d) : (dat V c).before 0 t d = iblk V c 0 t :=
  before_hi_of V (dat V c) (A_eq V c 0) (after_hi V c) t d
theorem before_hj (c : Dev nD) (t : Fin cfg2.N) (d) : (dat V c).before 1 t d = iblk V c 1 t :=
  before_hj_of V (dat V c) (A_eq V c 1) (after_hj V c) t d
theorem before_nr (c : Dev nD) (t : Fin cfg2.N) (d) : (dat V c).before 2 t d = iblk V c 2 t :=
  before_nr_of V (dat V c) (A_eq V c 2) (after_nr V c) t d
theorem before_nc (c : Dev nD) (t : Fin cfg2.N) (d) : (dat V c).before 3 t d = iblk V c 3 t :=
  before_nc_of V (dat V c) (A_eq V c 3) (after_nc V c) t d
theorem before_wc (c : Dev nD) (t : Fin cfg2.N) (d) : (dat V c).before 4 t d = iblk V c 4 t :=
  before_wc_of V (dat V c) (A_eq V c 4) (after_wc V c) t d
theorem before_bc (c : Dev nD) (t : Fin cfg2.N) (d) : (dat V c).before 5 t d = iblk V c 5 t :=
  before_bc_of V (dat V c) (A_eq V c 5) (after_bc V c) t d
/-- At a point that is not the first of its row the accumulator's buffer holds what the body left at the point before:
    the buffer was not written back in between, the window is live and uncut. -/
theorem before_acc (c : Dev nD) (t : Fin cfg2.N) (h0 : ¬t.val % 8 = 0) (d) :
    (dat V c).before 6 t d = (outsAt V c (t.val - 1) (Nat.lt_of_le_of_lt (Nat.sub_le _ _) t.isLt)) := by
  have hN : t.val < 32 := lt_of_lt_of_eq t.isLt (show cfg2.N = 32 from N_2)
  rw [Dat.before_out_kept _ 6 rfl t (by omega) (Bool.eq_false_iff.mpr fun h => by have := (flush2_6 _).mp h; dsimp only at this; omega)
    (fun _ => rfl) (fun _ _ => rfl)]
  dsimp only [dat]

/-! ## The body obligation -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d)))

/-- and what it returns. -/
def bodyPost (c : Dev nD) (t : Fin cfg2.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t)
    ∗ owns (c : Thread nD τ) (ms6 t) fullShare ((dat V c).after 6 t))

set_option maxHeartbeats 3200000 in
/-- The body at any point: the input buffers hold their blocks; the point is the first of its row, the last, or between;
    off the first the accumulator's buffer holds what the point before left; so that case's run applies; the invariant
    and what the core owes pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_hi, before_hj, before_nr, before_nc, before_wc, before_bc]
  rw [show (dat V c).Φ t.succ = (dat V c).Φ t.castSucc from rfl,
    show (dat V c).owesAt () t.succ = (dat V c).owesAt () t.castSucc from rfl,
    after_hi, after_hj, after_nr, after_nc, after_wc, after_bc, after_acc]
  by_cases h0 : t.val % 8 = 0
  ·
    rw [outsAt_first V c t h0]
    unfold outFirst
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runFirst c (grid2.coords t) _ _ _ _ _ _ _ _ _ _ _ _ _ _ ((isFirst_iff t).mpr h0) (fun h => by have := (isLast_iff t).mp h; omega) (iblk V c 0 t) (iblk V c 1 t) (iblk V c 2 t) (iblk V c 3 t) (iblk V c 4 t) (iblk V c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverFirst c _ _ _ _ _ _ _ _ _ _ _ _ _ _ _ _ _ _ _ _ _ _ _)
  · simp only [before_acc V c t h0]
    by_cases h7 : t.val % 8 = 7
    ·
      rw [outsAt_last V c t h0 h7]
      unfold outLast
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((runLast c (grid2.coords t) _ _ _ _ _ _ _ _ _ _ _ _ _ _ (fun h => h0 ((isFirst_iff t).mp h)) ((isLast_iff t).mpr h7) (iblk V c 0 t) (iblk V c 1 t) (iblk V c 2 t) (iblk V c 3 t) (iblk V c 4 t) (iblk V c 5 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, H5, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverLast c _ _ _ _ _ _ _ _ _ _ _ _ _ _ _ _ _ _ _ _ _ _ _ _)
    ·
      rw [outsAt_mid V c t h0 h7]
      unfold outMid
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((runMid c (grid2.coords t) _ _ _ _ _ _ _ _ _ _ _ _ _ _ (fun h => h0 ((isFirst_iff t).mp h)) (fun h => h7 ((isLast_iff t).mp h)) (iblk V c 0 t) (iblk V c 1 t) (iblk V c 2 t) (iblk V c 3 t) (iblk V c 4 t) (iblk V c 5 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, H5, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverMid c _ _ _ _ _ _ _ _ _ _ _ _ _ _ _ _ _ _ _ _ _ _ _ _)

/-- The body obligation, at every point. -/
theorem body_obligation (c : Dev nD) : BodyObligation (dat (F := F) V c) (defs₀ (F := F)) Variants.none () Set.univ := fun t => by
  rw [bigSep_W2, bigSep_W2]
  exact sound_body V c t

end Cert.KernelIdeal.Layer3

end
-- ==== Proof.Layer3ArraysIdeal.lean ====
import proofs.«127863_j65481071400088_2_alg».proof.Proof.Layer3Ideal

/-!
# The third region's arrays: one array behind two windows

The third region reads the second hidden layer through two windows (the rows i and the rows j), so its seven windows
stand on six buffers. When the region is entered the buffer of the hidden layer, held whole, is split in two halves,
one per window; when it is left the two halves, still holding the same contents (both windows only read), are put back
together. Every other window's array is held whole. The result buffer leaves at what the write-backs left in it; every
other buffer leaves as it was entered.
-/

set_option maxRecDepth 16384

noncomputable section

namespace Cert.KernelIdeal.Layer3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The six buffers behind the seven windows, each whole at the full share, one by one. -/
theorem arrBufs_eq (c : Dev nD) (Vv : (b : Ref sig .tc) → Buf (Elt F) ((c : Thread nD τ).loc b)) :
    (Pipeline.arrBufs (Ix := Unit) (Name := ℕ) (U := UR sig nD τ) (Lvl := ℕ) spec2 c Vv : sProp 𝕄)
      = iprop((((c : Thread nD τ).loc main_v5_0) ↦{fullShare} Vv main_v5_0) ∗ (((c : Thread nD τ).loc main_v5_1) ↦{fullShare} Vv main_v5_1) ∗ (((c : Thread nD τ).loc main_v6) ↦{fullShare} Vv main_v6) ∗ (((c : Thread nD τ).loc main_arg5) ↦{fullShare} Vv main_arg5) ∗ (((c : Thread nD τ).loc main_v3) ↦{fullShare} Vv main_v3) ∗ (((c : Thread nD τ).loc main_v7) ↦{fullShare} Vv main_v7)) := by
  unfold Pipeline.arrBufs
  exact bigSep_eq_bigSepL_of_eq [main_v5_0, main_v5_1, main_v6, main_arg5, main_v3, main_v7] (by decide) (by decide) _

/-- The share each window's array is held at: the two windows on the hidden layer's buffer hold its two halves, -/
theorem share_hi (c : Dev nD) : (dat V c).share 0 = (fullShare : PosShare TreeShare).left := by
  unfold Dat.share; rw [if_neg (by decide)]; dsimp only [dat]; rfl
theorem share_hj (c : Dev nD) : (dat V c).share 1 = (fullShare : PosShare TreeShare).right := by
  unfold Dat.share; rw [if_neg (by decide)]; dsimp only [dat]; rfl
/-- every other input window holds its array whole, -/
theorem share_nr (c : Dev nD) : (dat V c).share 2 = fullShare := by
  unfold Dat.share; rw [if_neg (by decide)]; dsimp only [dat]; rfl
theorem share_nc (c : Dev nD) : (dat V c).share 3 = fullShare := by
  unfold Dat.share; rw [if_neg (by decide)]; dsimp only [dat]; rfl
theorem share_wc (c : Dev nD) : (dat V c).share 4 = fullShare := by
  unfold Dat.share; rw [if_neg (by decide)]; dsimp only [dat]; rfl
theorem share_bc (c : Dev nD) : (dat V c).share 5 = fullShare := by
  unfold Dat.share; rw [if_neg (by decide)]; dsimp only [dat]; rfl
/-- and so does the output window. -/
theorem share_out (c : Dev nD) : (dat V c).share 6 = fullShare := by
  unfold Dat.share; rw [if_pos (by decide)]

/-- The seven windows' arrays as the region's proof data hold them, one by one. -/
theorem arrays_eq (c : Dev nD) (Fw : (w : Fin cfg2.W) → Buf (Elt F) ((cfg2.win w).arr.view.loc (c : Thread nD τ))) :
    (dat V c).arrays Fw
      = iprop((((c : Thread nD τ).loc main_v5_0) ↦{(fullShare : PosShare TreeShare).left} Fw 0) ∗ (((c : Thread nD τ).loc main_v5_0) ↦{(fullShare : PosShare TreeShare).right} Fw 1) ∗ (((c : Thread nD τ).loc main_v5_1) ↦{fullShare} Fw 2) ∗ (((c : Thread nD τ).loc main_v6) ↦{fullShare} Fw 3) ∗ (((c : Thread nD τ).loc main_arg5) ↦{fullShare} Fw 4) ∗ (((c : Thread nD τ).loc main_v3) ↦{fullShare} Fw 5) ∗ (((c : Thread nD τ).loc main_v7) ↦{fullShare} Fw 6)) := by
  have h : (dat V c).arrays Fw = bigSep Finset.univ fun w => (((c : Thread nD τ).loc (Pipeline.arrRef spec2 w)) ↦{(dat V c).share w} Fw w : sProp 𝕄) := by
    unfold Dat.arrays
    exact bigSep_congr fun w _ => by rw [(arr_whole2 w).set_eq_univ]
  rw [h, bigSep_W2, share_hi, share_hj, share_nr, share_nc, share_wc, share_bc, share_out]

/-- ENTRY. The core's unscoped buffers at contents `V c` are the region's arrays at their entry contents and the
    rest: the hidden layer's buffer is split in its two halves, one per window reading it. -/
theorem arrays_of_unscopedBufs (c : Dev nD) :
    (unscopedBufs c (V c) : sProp 𝕄)
      ⊢ iprop((dat V c).arrays ((dat V c).arrAt · 0) ∗ Pipeline.unscopedRest (Ix := Unit) (Name := ℕ) (U := UR sig nD τ) (Lvl := ℕ) spec2 c (V c)) := by
  rw [show (unscopedBufs c (V c) : sProp 𝕄) = iprop(Pipeline.arrBufs spec2 c (V c) ∗ Pipeline.unscopedRest spec2 c (V c))
    from Pipeline.unscopedBufs_split₀ cfgs (2 : Fin 3) winFacts₀2.arr_unscoped c (V c)]
  refine sep_mono ?_ .rfl
  have hA : ((dat V c).arrAt · 0) = fun w => V c (Pipeline.arrRef spec2 w) :=
    funext fun w => (show (dat V c).arrAt w 0 = (dat V c).A w from rfl).trans (A_eq V c w)
  rw [hA, arrBufs_eq, arrays_eq]
  exact (sep_mono (pointsTo_share (PosShare.mem_left_op_right fullShare)).1 .rfl).trans sep_assoc.1

/-- EXIT. The region's arrays at their final contents and the rest are the core's unscoped buffers at any valuation
    `V'` that has the result buffer at what the write-backs left and agrees with `V c` elsewhere: the input windows' arrays
    end as entered, and the two halves of the hidden layer's buffer, at the same contents, make it whole again. -/
theorem unscopedBufs_of_arrays (c : Dev nD) (V' : (b : Ref sig .tc) → Buf (Elt F) ((c : Thread nD τ).loc b))
    (hout : (dat V c).arrAt 6 cfg2.N = V' main_v7) (hrest : ∀ b, b ≠ main_v7 → V' b = V c b) :
    iprop((dat V c).arrays ((dat V c).arrAt · cfg2.N) ∗ Pipeline.unscopedRest (Ix := Unit) (Name := ℕ) (U := UR sig nD τ) (Lvl := ℕ) spec2 c (V c))
      ⊢ (unscopedBufs c V' : sProp 𝕄) := by
  rw [show (unscopedBufs c V' : sProp 𝕄) = iprop(Pipeline.arrBufs spec2 c V' ∗ Pipeline.unscopedRest spec2 c V')
    from Pipeline.unscopedBufs_split₀ cfgs (2 : Fin 3) winFacts₀2.arr_unscoped c V']
  have e0 : (dat V c).arrAt 0 cfg2.N = V' main_v5_0 :=
    (((dat V c).arrAt_in 0 rfl _).trans (A_eq V c 0)).trans (hrest main_v5_0 (by decide)).symm
  have e1 : (dat V c).arrAt 1 cfg2.N = V' main_v5_0 :=
    (((dat V c).arrAt_in 1 rfl _).trans (A_eq V c 1)).trans (hrest main_v5_0 (by decide)).symm
  have e2 : (dat V c).arrAt 2 cfg2.N = V' main_v5_1 :=
    (((dat V c).arrAt_in 2 rfl _).trans (A_eq V c 2)).trans (hrest main_v5_1 (by decide)).symm
  have e3 : (dat V c).arrAt 3 cfg2.N = V' main_v6 :=
    (((dat V c).arrAt_in 3 rfl _).trans (A_eq V c 3)).trans (hrest main_v6 (by decide)).symm
  have e4 : (dat V c).arrAt 4 cfg2.N = V' main_arg5 :=
    (((dat V c).arrAt_in 4 rfl _).trans (A_eq V c 4)).trans (hrest main_arg5 (by decide)).symm
  have e5 : (dat V c).arrAt 5 cfg2.N = V' main_v3 :=
    (((dat V c).arrAt_in 5 rfl _).trans (A_eq V c 5)).trans (hrest main_v3 (by decide)).symm
  have hR : (Pipeline.unscopedRest (Ix := Unit) (Name := ℕ) (U := UR sig nD τ) (Lvl := ℕ) spec2 c (V c) : sProp 𝕄)
      = Pipeline.unscopedRest spec2 c V' := by
    unfold Pipeline.unscopedRest
    exact bigSep_congr fun b hb => by
      rw [hrest b fun h => (Finset.mem_sdiff.mp hb).2 (h ▸ (by decide : main_v7 ∈ Finset.univ.image (Pipeline.arrRef spec2)))]
  rw [hR, arrays_eq, arrBufs_eq, e0, e1, e2, e3, e4, e5, hout]
  exact sep_mono (sep_assoc.2.trans (sep_mono (pointsTo_share (PosShare.mem_left_op_right fullShare)).2 .rfl)) .rfl

end Cert.KernelIdeal.Layer3

end
-- ==== Proof.RunIdeal.lean ====
import proofs.«127863_j65481071400088_2_alg».proof.Proof.Layer1Ideal
import proofs.«127863_j65481071400088_2_alg».proof.Proof.Layer2Ideal
import proofs.«127863_j65481071400088_2_alg».proof.Proof.Layer3ArraysIdeal
import proofs.«127863_j65481071400088_2_alg».proof.Proof.Gen.KernelIdeal.Regions

/-!
# The whole run: host operations, the three regions, and what the buffers hold in between

`@main` is: four host operations (the cast of `W2`, three reshapes), the first layer's region, the second layer's
region, one host reshape (the column of row norms laid out as a row), the third region. Between two items every
unscoped buffer of the core is held whole at a known valuation: the launch memory, then each host stretch applied, then
each region's arrays at what its write-backs leave. Each region is entered from the valuation before it and left at
the one after it; the arguments are read back through the whole chain to the launch memory, and the result buffer is
read at what the third region leaves in it.
-/

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first four host operations (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (Layer1.dat (V1 m ρ) c).arrAt w cfg0.N
theorem W2_arr (c : Dev nD) (w : Fin cfg0.W) :
    W2 m ρ c (Proc.devRef .tc (Pipeline.arrRef spec0 w)) = (Layer1.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Layer1.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit. -/
def W3 (c : Dev nD) : Valuation τ sig (Elt F) :=
  Pipeline.withArrays spec1 c (W2 m ρ c) fun w => (Layer2.dat (V2 m ρ) c).arrAt w cfg1.N
theorem W3_arr (c : Dev nD) (w : Fin cfg1.W) :
    W3 m ρ c (Proc.devRef .tc (Pipeline.arrRef spec1 w)) = (Layer2.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (Layer2.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the host reshape of the row norms (the third region's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- At the third region's exit: the result buffer at what the pipeline leaves, every other buffer as entered (the
    region's other arrays are inputs). -/
def W5 (c : Dev nD) : Valuation τ sig (Elt F) :=
  Function.update (W4 m ρ c) (Proc.devRef .tc main_v7) ((Layer3.dat (V4 m ρ) c).arrAt 6 cfg2.N)
abbrev V5 : (c : Dev nD) → (b : Ref sig .tc) → Buf (Elt F) ((c : Thread nD τ).loc b) := fun c b => W5 m ρ c b
theorem V5_result (c : Dev nD) : V5 m ρ c main_v7 = (Layer3.dat (V4 m ρ) c).arrAt 6 cfg2.N := by
  unfold V5 W5; exact Function.update_self ..
theorem V5_of_ne (c : Dev nD) (b : Ref sig .tc) (hb : b ≠ main_v7) : V5 m ρ c b = V4 m ρ c b := by
  unfold V5 W5; exact Function.update_of_ne (StableHlo.devRef_ne_of_ne hb) ..

/-! ## The proof data family and the thread state -/

/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => Layer1.dat (V1 m ρ) c
  | ⟨1, _⟩ => fun c => Layer2.dat (V2 m ρ) c
  | ⟨2, _⟩ => fun c => Layer3.dat (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W5 m ρ c) ∗ ∃ r, prngReg c r)

/-! ## The first two regions as segments -/

set_option backward.isDefEq.respectTransparency.types false in
/-- REGION 0 over the thread state: entered from every unscoped buffer at the valuation before it, left at the one after.
    Its arrays are split out of the unscoped buffers at entry and put back at exit at their final contents; the generator
    register goes into the region's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Layer1.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the valuation before it, left at the one after.
    Its arrays are split out of the unscoped buffers at entry and put back at exit at their final contents; the generator
    register goes into the region's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Layer2.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := V5_of_ne m ρ c main_arg0 (by decide)
    _ = W3 m ρ c (Proc.devRef .tc main_arg0) := StableHlo.after_of_writes_sub hostOps2 _ hostOps2_writes (by decide : main_arg0 ∉ hostOps2_W)
    _ = W2 m ρ c (Proc.devRef .tc main_arg0) := W3_of_ne m ρ c main_arg0 (by decide)
    _ = W1 m ρ c (Proc.devRef .tc main_arg0) := (W2_arr m ρ c 0).trans (((Layer1.dat (V1 m ρ) c).arrAt_in 0 rfl _).trans (Layer1.A_eq (V1 m ρ) c 0))
    _ = W0 m ρ c (Proc.devRef .tc main_arg0) := StableHlo.after_of_writes_sub hostOps0 _ hostOps0_writes (by decide : main_arg0 ∉ hostOps0_W)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := V5_of_ne m ρ c main_arg1 (by decide)
    _ = W3 m ρ c (Proc.devRef .tc main_arg1) := StableHlo.after_of_writes_sub hostOps2 _ hostOps2_writes (by decide : main_arg1 ∉ hostOps2_W)
    _ = W2 m ρ c (Proc.devRef .tc main_arg1) := W3_of_ne m ρ c main_arg1 (by decide)
    _ = W1 m ρ c (Proc.devRef .tc main_arg1) := (W2_arr m ρ c 1).trans (((Layer1.dat (V1 m ρ) c).arrAt_in 1 rfl _).trans (Layer1.A_eq (V1 m ρ) c 1))
    _ = W0 m ρ c (Proc.devRef .tc main_arg1) := StableHlo.after_of_writes_sub hostOps0 _ hostOps0_writes (by decide : main_arg1 ∉ hostOps0_W)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := V5_of_ne m ρ c main_arg2 (by decide)
    _ = W3 m ρ c (Proc.devRef .tc main_arg2) := StableHlo.after_of_writes_sub hostOps2 _ hostOps2_writes (by decide : main_arg2 ∉ hostOps2_W)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := V5_of_ne m ρ c main_arg3 (by decide)
    _ = W3 m ρ c (Proc.devRef .tc main_arg3) := StableHlo.after_of_writes_sub hostOps2 _ hostOps2_writes (by decide : main_arg3 ∉ hostOps2_W)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := V5_of_ne m ρ c main_arg4 (by decide)
    _ = W3 m ρ c (Proc.devRef .tc main_arg4) := StableHlo.after_of_writes_sub hostOps2 _ hostOps2_writes (by decide : main_arg4 ∉ hostOps2_W)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := V5_of_ne m ρ c main_arg5 (by decide)
    _ = W3 m ρ c (Proc.devRef .tc main_arg5) := StableHlo.after_of_writes_sub hostOps2 _ hostOps2_writes (by decide : main_arg5 ∉ hostOps2_W)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl

theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := V5_of_ne m ρ c main_arg6 (by decide)
    _ = W3 m ρ c (Proc.devRef .tc main_arg6) := StableHlo.after_of_writes_sub hostOps2 _ hostOps2_writes (by decide : main_arg6 ∉ hostOps2_W)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl

/-! ## The third region as a segment -/

set_option backward.isDefEq.respectTransparency.types false in
/-- REGION 2 over the thread state: entered from every unscoped buffer at the valuation after the host reshape, left at
    the last one. The hidden layer's buffer is split between the two windows that read it and put back together; the
    generator register goes into the region's invariant and comes out; nothing is owed. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (Layer3.body_obligation (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Layer3.arrays_of_unscopedBufs (V4 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m ρ 2 c).arrays ((pdats m ρ 2 c).arrAt · cfg2.N) ∗ Pipeline.unscopedRest (Ix := Unit) (Name := ℕ) (U := UR sig nD τ) (Lvl := ℕ) spec2 c (V4 m ρ c))
        ⊢ (unscopedBufs c (V5 m ρ c) : sProp 𝕄) :=
      Layer3.unscopedBufs_of_arrays (V4 m ρ) c (V5 m ρ c) (V5_result m ρ c).symm (fun b hb => V5_of_ne m ρ c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's five items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ) ]
/-- @main IS the run of the segments. -/
theorem main_run (c : Dev nD) : main (F := F) c = Pipeline.Seg.run (segs m ρ) := (main_chain c).trans (by chain_rfl)

set_option backward.isDefEq.respectTransparency.types false in
/-- THE RUN. From any memory with zero counters, every weakly fair execution of @main on the cores terminates, nothing
    faulting, and every final state has the result buffer at what the third region's write-backs leave in it and every
    argument array as launched. -/
theorem run : θ_run defs (onTc (τ := τ) (main (F := F))) ⟨m, fun _ => 0, ρ⟩ (fun r => ∀ c : Dev nD,
      r.2.mem ((c.tc : Thread nD τ).loc main_v7) = (Layer3.dat (V4 m ρ) c).arrAt 6 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨(h c _ (mem_uc main_v7 (by decide))).trans (V5_result m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

/-- The frame claim: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run m ρ)

end Cert.KernelIdeal.Whole

end
-- ==== Proof.ThroughIdeal.lean ====
import proofs.«127863_j65481071400088_2_alg».proof.Proof.RunIdeal
import Idealize.ShloMosaic.Lib.StableHlo.Run

/-!
# What each region finds in the buffers it reads

The valuations between the items of `@main`, read at the buffers the regions' windows stand on: an argument is still
the launch array; the cast of `W2` and the three reshapes are those operations applied to the launch arrays; the first
hidden layer is what the first region's write-backs left, the second hidden layer and its row norms what the second
region's left; the row of row norms is the host reshape of their column.
-/

noncomputable section

namespace Cert.KernelIdeal.Whole

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## After the first host stretch -/

theorem V1_x (c : Dev nD) : V1 m ρ c main_arg0 = m ((c : Thread nD τ).loc main_arg0) :=
  StableHlo.after_of_writes_sub hostOps0 _ hostOps0_writes (by decide : main_arg0 ∉ hostOps0_W)
theorem V1_W1 (c : Dev nD) : V1 m ρ c main_arg1 = m ((c : Thread nD τ).loc main_arg1) :=
  StableHlo.after_of_writes_sub hostOps0 _ hostOps0_writes (by decide : main_arg1 ∉ hostOps0_W)
theorem V1_Wc (c : Dev nD) : V1 m ρ c main_arg5 = m ((c : Thread nD τ).loc main_arg5) :=
  StableHlo.after_of_writes_sub hostOps0 _ hostOps0_writes (by decide : main_arg5 ∉ hostOps0_W)
/-- The cast of `W2`. -/
theorem V1_W2 (c : Dev nD) : V1 m ρ c main_v0 = truncf .bf16 (m ((c : Thread nD τ).loc main_arg3)) bitsLt_bf16_f32 := by
  dsimp only [V1, W1, W0]; after_results
/-- The bias `b1` laid out as a row. -/
theorem V1_b1 (c : Dev nD) : V1 m ρ c main_v1 = shapeCast S1x4096 (m ((c : Thread nD τ).loc main_arg2)) shapeCasts_S4096_S1x4096 := by
  dsimp only [V1, W1, W0]; after_results; rfl
/-- The bias `b2` laid out as a row. -/
theorem V1_b2 (c : Dev nD) : V1 m ρ c main_v2 = shapeCast S1x4096 (m ((c : Thread nD τ).loc main_arg4)) shapeCasts_S4096_S1x4096 := by
  dsimp only [V1, W1, W0]; after_results; rfl
/-- The bias `bc` laid out as a 1 × 1 array. -/
theorem V1_bc (c : Dev nD) : V1 m ρ c main_v3 = shapeCast S1x1 (m ((c : Thread nD τ).loc main_arg6)) shapeCasts_S1_S1x1 := by
  dsimp only [V1, W1, W0]; after_results; rfl

/-! ## After the first region -/

/-- The first hidden layer: what the first region's write-backs left. -/
theorem V2_h1 (c : Dev nD) : V2 m ρ c main_v4 = (Layer1.dat (V1 m ρ) c).arrAt 3 cfg0.N := W2_arr m ρ c 3
theorem V2_W2 (c : Dev nD) : V2 m ρ c main_v0 = V1 m ρ c main_v0 := W2_of_ne m ρ c main_v0 (by decide)
theorem V2_b2 (c : Dev nD) : V2 m ρ c main_v2 = V1 m ρ c main_v2 := W2_of_ne m ρ c main_v2 (by decide)
theorem V2_bc (c : Dev nD) : V2 m ρ c main_v3 = V1 m ρ c main_v3 := W2_of_ne m ρ c main_v3 (by decide)
theorem V2_Wc (c : Dev nD) : V2 m ρ c main_arg5 = V1 m ρ c main_arg5 := W2_of_ne m ρ c main_arg5 (by decide)

/-! ## After the second region -/

/-- The second hidden layer and its row norms: what the second region's write-backs left. -/
theorem V3_h2 (c : Dev nD) : V3 m ρ c main_v5_0 = (Layer2.dat (V2 m ρ) c).arrAt 3 cfg1.N := W3_arr m ρ c 3
theorem V3_norm (c : Dev nD) : V3 m ρ c main_v5_1 = (Layer2.dat (V2 m ρ) c).arrAt 4 cfg1.N := W3_arr m ρ c 4
theorem V3_bc (c : Dev nD) : V3 m ρ c main_v3 = V2 m ρ c main_v3 := W3_of_ne m ρ c main_v3 (by decide)
theorem V3_Wc (c : Dev nD) : V3 m ρ c main_arg5 = V2 m ρ c main_arg5 := W3_of_ne m ρ c main_arg5 (by decide)

/-! ## After the host reshape -/

theorem V4_h2 (c : Dev nD) : V4 m ρ c main_v5_0 = V3 m ρ c main_v5_0 :=
  StableHlo.after_of_writes_sub hostOps2 _ hostOps2_writes (by decide : main_v5_0 ∉ hostOps2_W)
theorem V4_norm (c : Dev nD) : V4 m ρ c main_v5_1 = V3 m ρ c main_v5_1 :=
  StableHlo.after_of_writes_sub hostOps2 _ hostOps2_writes (by decide : main_v5_1 ∉ hostOps2_W)
theorem V4_bc (c : Dev nD) : V4 m ρ c main_v3 = V3 m ρ c main_v3 :=
  StableHlo.after_of_writes_sub hostOps2 _ hostOps2_writes (by decide : main_v3 ∉ hostOps2_W)
theorem V4_Wc (c : Dev nD) : V4 m ρ c main_arg5 = V3 m ρ c main_arg5 :=
  StableHlo.after_of_writes_sub hostOps2 _ hostOps2_writes (by decide : main_arg5 ∉ hostOps2_W)
/-- The column of row norms laid out as a row. -/
theorem V4_normRow (c : Dev nD) : V4 m ρ c main_v6 = shapeCast S1x4096 (V3 m ρ c main_v5_1) shapeCasts_S4096x1_S1x4096 := by
  dsimp only [V4, W4]; after_results; rfl

end Cert.KernelIdeal.Whole

end
-- ==== Proof.PayAt.lean ====
import proofs.«127863_j65481071400088_2_alg».proof.Proof.Gen.KernelIdeal.Skeleton
import Idealize.ShloMosaic.Lib.Pipeline.Value
import Idealize.ShloMosaic.Lib.ValueIdx
import Idealize.ShloMosaic.PureOps.Ideal.Laws

/-! # The kernel's payloads read at an index

Each generated payload of the three kernel functions, at the extended reals, read at one index of the block it
produces, over explicit coordinates:

* layer 1 (`k0_pay1`): `tanh` of a row of the input block against a row of the weight block, plus the bias entry;
* layer 2 (`k1_pay2`, and `k1_pay3`, its narrowed copy — the same values): likewise over 4096 terms; `k1_pay1` is the
  zero the row-norm accumulator starts from and `k1_pay4` adds the sum of the squares of the block's row to it;
* layer 3: `k2_pay1` is the zero the output accumulator starts from, `k2_pay2` adds the block's Gaussian-weighted sum
  to it, `k2_pay3` adds the bias entry.

A contraction with one contracted axis is re-indexed through that axis's coordinate; a float format change is the
identity; a shape cast to the same shape is the identity; the two float constants stay as their f32 words. -/

noncomputable section

open scoped BigOperators

namespace Cert.KernelIdeal.PayAt

open Cert.KernelIdeal Cert.KernelIdeal.Gen Idealize.ShloMosaic Idealize.ShloMosaic.ValueIdx Idealize.SL.Sem

/-! ## The two contractions read at an index -/

theorem lhs_k0_0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide),
    dif_pos (show (0 : Fin S1024x512.rank) ∈ dot_S1024x512_S1024x512_S1024x1024_1_1_0_0_n_n.lhsNonContracting by decide)]
  rfl
theorem lhs_k0_1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
theorem rhs_k0_0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide),
    dif_pos (show (0 : Fin S1024x512.rank) ∈ dot_S1024x512_S1024x512_S1024x1024_1_1_0_0_n_n.rhsNonContracting by decide)]
  rfl
theorem rhs_k0_1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- The layer-1 block product: entry `(p, q)` of `a · bᵀ` for `a, b : [1024, 512]`. -/
theorem matmul_k0_apply (a b : FVec Ideal S1024x512 .bf16) (p q : Fin 1024) :
    matmul dot_S1024x512_S1024x512_S1024x1024_1_1_0_0_n_n none a b (constant (F := Ideal) S1024x1024 .f32 0x00000000#32) (ix2 p q)
      = ∑ k : Fin 512, a (ix2 p k) * b (ix2 q k) := by
  simp only [matmul]
  rw [Ideal.matmul_constant_zero_apply,
    ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p q)
      ((contrEquiv1 dot_S1024x512_S1024x512_S1024x1024_1_1_0_0_n_n 512 rfl rfl).symm k) = ix2 p k :=
    funext fun d => Fin.ext (by
      match d with
      | ⟨0, _⟩ => exact lhs_k0_0 _ _
      | ⟨1, _⟩ => exact (lhs_k0_1 _ _).trans hk)
  have er : dot_S1024x512_S1024x512_S1024x1024_1_1_0_0_n_n.rhsIdx (ix2 p q)
      ((contrEquiv1 dot_S1024x512_S1024x512_S1024x1024_1_1_0_0_n_n 512 rfl rfl).symm k) = ix2 q k :=
    funext fun d => Fin.ext (by
      match d with
      | ⟨0, _⟩ => exact rhs_k0_0 _ _
      | ⟨1, _⟩ => exact (rhs_k0_1 _ _).trans hk)
  rw [el, er]

/-- A row `[1, n]` broadcast down the rows of `[m, n]` reads the row at the column. -/
theorem broadcastTo_row_k0 (v : FVec Ideal S1x1024 .f32) (p q : Fin 1024) :
    broadcastTo S1024x1024 v broadcasts_S1x1024_S1024x1024 (ix2 p q) = v (ix2 0 q) :=
  broadcastTo_apply v broadcasts_S1x1024_S1024x1024 (ix2 p q) (ix2 0 q) (fun d => match d with
    | ⟨0, _⟩ => by show 0 = if (1 : Nat) = 1 then 0 else _; rw [if_pos rfl]
    | ⟨1, _⟩ => by show q.val = if (1024 : Nat) = 1 then 0 else q.val; rw [if_neg (by decide)])

/-- The layer-1 block at `(p, q)`: `tanh` of row `p` of the first operand against row `q` of the second, plus the bias
    row's entry `q`. -/
theorem k0_pay1_apply (x0 x1 : Vec Ideal S1024x512 .f32) (x2 : Vec Ideal S1x1024 .f32) (p q : Fin 1024) :
    k0_pay1 (F := Ideal) x0 x1 x2 (ix2 p q)
      = Ideal.tanh ((∑ k : Fin 512, x0 (ix2 p k) * x1 (ix2 q k)) + x2 (ix2 0 q)) := by
  unfold k0_pay1
  rw [truncf_apply]
  show Ideal.tanh _ = _
  rw [addf_apply, matmul_k0_apply, shapeCast_self, broadcastTo_row_k0]
  rfl

/-! ## Layer 2: a `[1024, 4096]` block of the first layer against a `[512, 4096]` block of the weights -/

theorem lhs_k1_0 (i : S1024x512.Idx) (q : dot_S1024x4096_S512x4096_S1024x512_1_1_0_0_n_n.contr.Idx) :
    (dot_S1024x4096_S512x4096_S1024x512_1_1_0_0_n_n.lhsIdx i q 0).val = (i 0).val := by
  unfold DotDims.lhsIdx
  rw [dif_neg (show ¬(0 : Fin S1024x4096.rank) ∈ dot_S1024x4096_S512x4096_S1024x512_1_1_0_0_n_n.lhsBatch by decide),
    dif_pos (show (0 : Fin S1024x4096.rank) ∈ dot_S1024x4096_S512x4096_S1024x512_1_1_0_0_n_n.lhsNonContracting by decide)]
  rfl
theorem lhs_k1_1 (i : S1024x512.Idx) (q : dot_S1024x4096_S512x4096_S1024x512_1_1_0_0_n_n.contr.Idx) :
    (dot_S1024x4096_S512x4096_S1024x512_1_1_0_0_n_n.lhsIdx i q 1).val = (q ⟨0, by decide⟩).val :=
  dot_S1024x4096_S512x4096_S1024x512_1_1_0_0_n_n.lhsIdx_val_of_single rfl i q
theorem rhs_k1_0 (i : S1024x512.Idx) (q : dot_S1024x4096_S512x4096_S1024x512_1_1_0_0_n_n.contr.Idx) :
    (dot_S1024x4096_S512x4096_S1024x512_1_1_0_0_n_n.rhsIdx i q 0).val = (i 1).val := by
  unfold DotDims.rhsIdx
  rw [dif_neg (show ¬(0 : Fin S512x4096.rank) ∈ dot_S1024x4096_S512x4096_S1024x512_1_1_0_0_n_n.rhsBatch by decide),
    dif_pos (show (0 : Fin S512x4096.rank) ∈ dot_S1024x4096_S512x4096_S1024x512_1_1_0_0_n_n.rhsNonContracting by decide)]
  rfl
theorem rhs_k1_1 (i : S1024x512.Idx) (q : dot_S1024x4096_S512x4096_S1024x512_1_1_0_0_n_n.contr.Idx) :
    (dot_S1024x4096_S512x4096_S1024x512_1_1_0_0_n_n.rhsIdx i q 1).val = (q ⟨0, by decide⟩).val :=
  dot_S1024x4096_S512x4096_S1024x512_1_1_0_0_n_n.rhsIdx_val_of_single rfl i q

/-- The layer-2 block product: entry `(p, q)` of `a · bᵀ` for `a : [1024, 4096]`, `b : [512, 4096]`. -/
theorem matmul_k1_apply (a : FVec Ideal S1024x4096 .bf16) (b : FVec Ideal S512x4096 .bf16) (p : Fin 1024) (q : Fin 512) :
    matmul dot_S1024x4096_S512x4096_S1024x512_1_1_0_0_n_n none a b (constant (F := Ideal) S1024x512 .f32 0x00000000#32) (ix2 p q)
      = ∑ k : Fin 4096, a (ix2 p k) * b (ix2 q k) := by
  simp only [matmul]
  rw [Ideal.matmul_constant_zero_apply, ← Equiv.sum_comp (contrEquiv1 dot_S1024x4096_S512x4096_S1024x512_1_1_0_0_n_n 4096 rfl rfl).symm]
  refine Finset.sum_congr rfl fun k _ => ?_
  have hk := contrEquiv1_symm_val dot_S1024x4096_S512x4096_S1024x512_1_1_0_0_n_n 4096 rfl rfl k
  have el : dot_S1024x4096_S512x4096_S1024x512_1_1_0_0_n_n.lhsIdx (ix2 p q) ((contrEquiv1 dot_S1024x4096_S512x4096_S1024x512_1_1_0_0_n_n 4096 rfl rfl).symm k) = ix2 p k :=
    funext fun d => Fin.ext (by
      match d with
      | ⟨0, _⟩ => exact lhs_k1_0 _ _
      | ⟨1, _⟩ => exact (lhs_k1_1 _ _).trans hk)
  have er : dot_S1024x4096_S512x4096_S1024x512_1_1_0_0_n_n.rhsIdx (ix2 p q) ((contrEquiv1 dot_S1024x4096_S512x4096_S1024x512_1_1_0_0_n_n 4096 rfl rfl).symm k) = ix2 q k :=
    funext fun d => Fin.ext (by
      match d with
      | ⟨0, _⟩ => exact rhs_k1_0 _ _
      | ⟨1, _⟩ => exact (rhs_k1_1 _ _).trans hk)
  rw [el, er]

/-- A row `[1, 512]` broadcast down the rows of `[1024, 512]` reads the row at the column. -/
theorem broadcastTo_row_512 (v : FVec Ideal S1x512 .f32) (p : Fin 1024) (q : Fin 512) :
    broadcastTo S1024x512 v broadcasts_S1x512_S1024x512 (ix2 p q) = v (ix2 0 q) :=
  broadcastTo_apply v broadcasts_S1x512_S1024x512 (ix2 p q) (ix2 0 q) (fun d => match d with
    | ⟨0, _⟩ => by show 0 = if (1 : Nat) = 1 then 0 else _; rw [if_pos rfl]
    | ⟨1, _⟩ => by show q.val = if (512 : Nat) = 1 then 0 else q.val; rw [if_neg (by decide)])

/-- A column `[1024, 1]` broadcast along the columns of `[1024, 512]` reads the column at the row. -/
theorem broadcastTo_col_512 (v : FVec Ideal S1024x1 .f32) (p : Fin 1024) (q : Fin 512) :
    broadcastTo S1024x512 v broadcasts_S1024x1_S1024x512 (ix2 p q) = v (ix2 p 0) :=
  broadcastTo_apply v broadcasts_S1024x1_S1024x512 (ix2 p q) (ix2 p 0) (fun d => match d with
    | ⟨0, _⟩ => by show p.val = if (1024 : Nat) = 1 then 0 else p.val; rw [if_neg (by decide)]
    | ⟨1, _⟩ => by show 0 = if (1 : Nat) = 1 then 0 else _; rw [if_pos rfl])

/-- The one entry of `[1, 1]` broadcast to `[1024, 1]`. -/
theorem broadcastTo_one (v : FVec Ideal S1x1 .f32) (p : Fin 1024) (z : Fin 1) :
    broadcastTo S1024x1 v broadcasts_S1x1_S1024x1 (ix2 p z) = v (ix2 0 0) :=
  broadcastTo_apply v broadcasts_S1x1_S1024x1 (ix2 p z) (ix2 0 0) (fun d => match d with
    | ⟨0, _⟩ => by show 0 = if (1 : Nat) = 1 then 0 else _; rw [if_pos rfl]
    | ⟨1, _⟩ => by show 0 = if (1 : Nat) = 1 then 0 else _; rw [if_pos rfl])

/-- The lane sum of a `[1024, 512]` block at row `p`: the sum of the row's 512 entries. -/
theorem laneSum_apply (src : FVec Ideal S1024x512 .f32) (p : Fin 1024) :
    multiReduction (F := Ideal) .add [1] S1024 src 0x00000000#32 reduces_S1024x512_S1024 (.inl rfl) rfl (ix1 p)
      = ∑ q : Fin 512, src (ix2 p q) := by
  refine (Ideal.multiReduction_add_single src 0x00000000#32 reduces_S1024x512_S1024 (.inl rfl) rfl (ix1 p)).trans ?_
  refine Finset.sum_congr rfl fun q _ => congrArg src (funext fun d => Fin.ext ?_)
  match d with
  | ⟨0, _⟩ => rfl
  | ⟨1, _⟩ => rfl

/-- A vector `[1024]` viewed as a column `[1024, 1]` reads its entry at the row. -/
theorem shapeCast_col_apply (v : FVec Ideal S1024 .f32) (p : Fin 1024) (z : Fin 1) :
    shapeCast S1024x1 v shapeCasts_S1024_S1024x1 (ix2 p z) = v (ix1 p) :=
  shapeCast_apply v shapeCasts_S1024_S1024x1 (ix2 p z) (ix1 p) (by
    rw [Shape.rowMajor_val_one, Shape.rowMajor_val_two]
    show p.val = p.val * 1 + z.val
    have := z.isLt
    omega)

/-- The layer-2 block at `(p, q)`: `tanh` of row `p` of the first operand against row `q` of the second, plus the bias
    row's entry `q`. -/
theorem k1_pay2_apply (x3 : Vec Ideal S1024x4096 .bf16) (x5 : Vec Ideal S512x4096 .bf16) (x8 : Vec Ideal S1x512 .f32)
    (p : Fin 1024) (q : Fin 512) :
    k1_pay2 (F := Ideal) x3 x5 x8 (ix2 p q)
      = Ideal.tanh ((∑ k : Fin 4096, x3 (ix2 p k) * x5 (ix2 q k)) + x8 (ix2 0 q)) := by
  unfold k1_pay2
  show Ideal.tanh _ = _
  rw [addf_apply, shapeCast_self, shapeCast_self, shapeCast_self, matmul_k1_apply, broadcastTo_row_512]

/-- The narrowed copy of the layer-2 block is the block: a float format change is the identity on extended reals. -/
theorem k1_pay3_eq (x3 : Vec Ideal S1024x4096 .bf16) (x5 : Vec Ideal S512x4096 .bf16) (x8 : Vec Ideal S1x512 .f32) :
    k1_pay3 (F := Ideal) x3 x5 x8 = k1_pay2 (F := Ideal) x3 x5 x8 := rfl

/-- The row-norm accumulator is started at zero. -/
theorem k1_pay1_apply (j : S1024x1.Idx) : k1_pay1 (F := Ideal) j = 0 := by
  unfold k1_pay1
  show Ideal.ofBits .f32 0x00000000#32 = 0
  exact Ideal.ofBits_zero_f32

/-- The row-norm accumulator after a block: the previous value plus the sum of the squares of the block's row. -/
theorem k1_pay4_apply (x3 : Vec Ideal S1024x4096 .bf16) (x5 : Vec Ideal S512x4096 .bf16) (x8 : Vec Ideal S1x512 .f32)
    (x15 : Vec Ideal S1024x1 .f32) (p : Fin 1024) (z : Fin 1) :
    k1_pay4 (F := Ideal) x3 x5 x8 x15 (ix2 p z)
      = x15 (ix2 p z) + ∑ q : Fin 512, k1_pay2 (F := Ideal) x3 x5 x8 (ix2 p q) * k1_pay2 (F := Ideal) x3 x5 x8 (ix2 p q) := by
  unfold k1_pay4
  rw [addf_apply, shapeCast_self, shapeCast_col_apply, laneSum_apply]
  rfl

/-! ## Layer 3: the Gaussian weights of a `[1024, 512]` block of row pairs, summed against the read-out row -/

/-- The output accumulator is started at zero. -/
theorem k2_pay1_apply (j : S1024x1.Idx) : k2_pay1 (F := Ideal) j = 0 := by
  unfold k2_pay1
  show Ideal.ofBits .f32 0x00000000#32 = 0
  exact Ideal.ofBits_zero_f32

/-- The output accumulator after a block: the previous value plus, over the block's 512 columns `q`, the Gaussian
    weight of rows `p` and `q` — from the two squared lengths and the rows' inner product — times the read-out weight. -/
theorem k2_pay2_apply (x3 : Vec Ideal S1024x4096 .bf16) (x5 : Vec Ideal S512x4096 .bf16) (x8 : Vec Ideal S1024x1 .f32)
    (x10 x21 : Vec Ideal S1x512 .f32) (x26 : Vec Ideal S1024x1 .f32) (p : Fin 1024) (z : Fin 1) :
    k2_pay2 (F := Ideal) x3 x5 x8 x10 x21 x26 (ix2 p z)
      = x26 (ix2 p z) + ∑ q : Fin 512,
          Ideal.exp (Ideal.ofBits .f32 0xBA03126F#32 *
            ((x8 (ix2 p 0) + x10 (ix2 0 q)) - Ideal.ofBits .f32 0x40000000#32 * ∑ k : Fin 4096, x3 (ix2 p k) * x5 (ix2 q k)))
          * x21 (ix2 0 q) := by
  unfold k2_pay2
  rw [addf_apply, shapeCast_self, shapeCast_col_apply, laneSum_apply]
  refine congrArg (x26 (ix2 p z) + ·) (Finset.sum_congr rfl fun q _ => ?_)
  rw [mulf_apply, broadcastTo_row_512]
  show Ideal.exp _ * _ = _
  rw [mulf_apply, subf_apply, addf_apply, mulf_apply, shapeCast_self, shapeCast_self, shapeCast_self, shapeCast_self,
    broadcastTo_col_512, broadcastTo_row_512, matmul_k1_apply]
  rfl

/-- The last step adds the one bias entry to every row of the accumulator. -/
theorem k2_pay3_apply (x33 : Vec Ideal S1024x1 .f32) (x35 : Vec Ideal S1x1 .f32) (p : Fin 1024) (z : Fin 1) :
    k2_pay3 (F := Ideal) x33 x35 (ix2 p z) = x33 (ix2 p z) + x35 (ix2 0 0) := by
  unfold k2_pay3
  rw [addf_apply, shapeCast_self, shapeCast_self, shapeCast_self, broadcastTo_one]

end Cert.KernelIdeal.PayAt

end
-- ==== Proof.Value1.lean ====
import proofs.«127863_j65481071400088_2_alg».proof.Proof.Layer1Ideal
import proofs.«127863_j65481071400088_2_alg».proof.Proof.PayAt
import Idealize.ShloMosaic.Lib.Pipeline.Value
import Idealize.ShloMosaic.Lib.ValueIdx

/-!
# The first layer's region: the output array, index by index

After the first region the output array holds, at row i and column n, tanh of row i of x against row n of W1 plus the
bias entry n: every point of the 4 × 4 grid writes back the 1024 × 1024 block of that one function of the three input
arrays, and the sixteen blocks tile the array.
-/

set_option maxRecDepth 16384

noncomputable section

open scoped BigOperators

namespace Cert.KernelIdeal.Layer1V

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The output block at (p, q): tanh of row p of the first block against row q of the second, plus the bias entry q. -/
theorem outBlock_apply (x0 x1 : Vec Ideal S1024x512 .f32) (x2 : Vec Ideal S1x1024 .f32) (p q : Fin 1024) :
    Layer1.outBlock (F := Ideal) x0 x1 x2 (ix2 p q)
      = Ideal.tanh ((∑ k : Fin 512, x0 (ix2 p k) * x1 (ix2 q k)) + x2 (ix2 0 q)) := by
  unfold Layer1.outBlock
  rw [View.canon_unit_zero hz]
  simp only [View.ld_unit_zero (S := S1024x512) hz, View.ld_unit_zero (S := S1x1024) hz]
  exact PayAt.k0_pay1_apply x0 x1 x2 p q

/-- The layer's value at row i and column n, from the three arrays. -/
def h1At (a0 a1 : S4096x512.Idx → Elt Ideal .f32) (a2 : S1x4096.Idx → Elt Ideal .f32) (i n : Fin 4096) : Elt Ideal .bf16 :=
  Ideal.tanh ((∑ k : Fin 512, a0 (ix2 i k) * a1 (ix2 n k)) + a2 (ix2 0 n))

/-- The whole output array as one function of the three input arrays. -/
def G1 (a0 a1 : S4096x512.Idx → Elt Ideal .f32) (a2 : S1x4096.Idx → Elt Ideal .f32) : S4096x4096.Idx → Elt Ideal .bf16 :=
  fun j => h1At a0 a1 a2 (j 0) (j 1)

/-- The index maps over the grid: the x block moves with the output's row block, the W1 block and the bias block with
    the output's column block, and the output's block indices stay below 4. -/
theorem idx_facts : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = 0
    ∧ win0_2.index t (1 : Fin 2) = win0_3.index t (1 : Fin 2)
    ∧ win0_3.index t (0 : Fin 2) ≤ 3 ∧ win0_3.index t (1 : Fin 2) ≤ 3 :=
  (by decide +kernel : ∀ t : Fin grid0.N, _)

/-- Every block of the output array is some point's. -/
theorem idx_onto : ∀ (q0 q1 : Fin 4), ∃ t : Fin cfg0.N, win0_3.index t = ![q0.val, q1.val] :=
  (by decide +kernel : ∀ (q0 q1 : Fin 4), ∃ t : Fin grid0.N, win0_3.index t = ![q0.val, q1.val])

/-- What point t writes back is block t of G1 of the three input arrays as the region finds them. -/
theorem flushed_eq (c : Dev nD) (t : Fin cfg0.N) :
    (Layer1.dat V c).flushed 3 t
      = ((cfg0.win 3).blk t).view.read (Elt Ideal) (G1 (V c main_arg0) (V c main_arg1) (V c main_v1)) := by
  show (cfg0.win 3).cut (grid0.coords t) ((Layer1.dat V c).after 3 t) = _
  rw [Layer1.after_out]
  obtain ⟨e0, e1, e2, e3, e4, e5, e6, e7⟩ := idx_facts t
  funext j
  obtain ⟨p, q, rfl⟩ : ∃ (p q : Fin 1024), j = ix2 p q := ⟨j 0, j 1, eq_ix2 j⟩
  refine (outBlock_apply (Layer1.iblk V c 0 t) (Layer1.iblk V c 1 t) (Layer1.iblk V c 2 t) p q).trans ?_
  have hp := p.isLt
  have hq := q.isLt
  have hI : win0_3.index t (0 : Fin 2) * 1024 + p.val < 4096 := by omega
  have hN : win0_3.index t (1 : Fin 2) * 1024 + q.val < 4096 := by omega
  -- the output block's element (p, q) sits in the array at row I, column N
  have hout : ((cfg0.win 3).blk t).view.emb (ix2 p q)
      = ix2 (⟨win0_3.index t (0 : Fin 2) * 1024 + p.val, hI⟩ : Fin 4096) (⟨win0_3.index t (1 : Fin 2) * 1024 + q.val, hN⟩ : Fin 4096) := by
    funext a; apply Fin.ext
    match a with
    | ⟨0, _⟩ => show win0_3.index t (0 : Fin 2) * 1024 + 1 * p.val = win0_3.index t (0 : Fin 2) * 1024 + p.val; omega
    | ⟨1, _⟩ => show win0_3.index t (1 : Fin 2) * 1024 + 1 * q.val = win0_3.index t (1 : Fin 2) * 1024 + q.val; omega
  -- the x block's row p is row I of x
  have hx : ∀ k : Fin 512, Layer1.iblk V c 0 t (ix2 p k)
      = V c main_arg0 (ix2 (⟨win0_3.index t (0 : Fin 2) * 1024 + p.val, hI⟩ : Fin 4096) k) := fun k => by
    show V c main_arg0 (((cfg0.win 0).blk t).view.emb (ix2 p k)) = _
    refine congrArg (V c main_arg0) (funext fun a => Fin.ext ?_)
    match a with
    | ⟨0, _⟩ => show win0_0.index t (0 : Fin 2) * 1024 + 1 * p.val = win0_3.index t (0 : Fin 2) * 1024 + p.val; omega
    | ⟨1, _⟩ => show win0_0.index t (1 : Fin 2) * 512 + 1 * k.val = k.val; omega
  -- the W1 block's row q is row N of W1
  have hw : ∀ k : Fin 512, Layer1.iblk V c 1 t (ix2 q k)
      = V c main_arg1 (ix2 (⟨win0_3.index t (1 : Fin 2) * 1024 + q.val, hN⟩ : Fin 4096) k) := fun k => by
    show V c main_arg1 (((cfg0.win 1).blk t).view.emb (ix2 q k)) = _
    refine congrArg (V c main_arg1) (funext fun a => Fin.ext ?_)
    match a with
    | ⟨0, _⟩ => show win0_1.index t (0 : Fin 2) * 1024 + 1 * q.val = win0_3.index t (1 : Fin 2) * 1024 + q.val; omega
    | ⟨1, _⟩ => show win0_1.index t (1 : Fin 2) * 512 + 1 * k.val = k.val; omega
  -- the bias block's entry q is entry N of the bias row
  have hb : Layer1.iblk V c 2 t (ix2 0 q)
      = V c main_v1 (ix2 (0 : Fin 1) (⟨win0_3.index t (1 : Fin 2) * 1024 + q.val, hN⟩ : Fin 4096)) := by
    show V c main_v1 (((cfg0.win 2).blk t).view.emb (ix2 0 q)) = _
    refine congrArg (V c main_v1) (funext fun a => Fin.ext ?_)
    match a with
    | ⟨0, _⟩ => show win0_2.index t (0 : Fin 2) * 1 + 1 * 0 = 0; omega
    | ⟨1, _⟩ => show win0_2.index t (1 : Fin 2) * 1024 + 1 * q.val = win0_3.index t (1 : Fin 2) * 1024 + q.val; omega
  rw [View.read_apply, hout]
  show _ = h1At (V c main_arg0) (V c main_arg1) (V c main_v1) _ _
  unfold h1At
  exact congrArg Ideal.tanh (congrArg₂ (· + ·) (Finset.sum_congr rfl fun k _ => congrArg₂ (· * ·) (hx k) (hw k)) hb)

/-- An index of the output array is in point t's block iff each coordinate is in the block's range on its axis. -/
theorem mem_blk (t : Fin cfg0.N) (i : S4096x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v4).slice (win0_3.rect t)).set ↔ _
  rw [View.set_slice_whole, Rect.mem_set_unit]
  exact Iff.rfl

/-- The sixteen blocks tile the output array: the entry at row r, column s is in the block of the point whose block
    indices are r / 1024 and s / 1024. -/
theorem cover (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := idx_onto ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- The output array after the region is G1 of the three input arrays as the region finds them. -/
theorem final1_fun (c : Dev nD) :
    (Layer1.dat V c).arrAt 3 cfg0.N = G1 (V c main_arg0) (V c main_arg1) (V c main_v1) :=
  (Layer1.dat V c).arrAt_eq_of_cover 3 (G1 (V c main_arg0) (V c main_arg1) (V c main_v1)) (fun t _ => flushed_eq V c t) cover

/-- The layer's value at (i, n), spelled out. -/
theorem h1At_apply (a0 a1 : S4096x512.Idx → Elt Ideal .f32) (a2 : S1x4096.Idx → Elt Ideal .f32) (i n : Fin 4096) :
    h1At a0 a1 a2 i n = Ideal.tanh ((∑ k : Fin 512, a0 (ix2 i k) * a1 (ix2 n k)) + a2 (ix2 0 n)) := rfl

/-- Index by index: the entry at row i, column n is tanh of row i of x against row n of W1 plus the bias entry n. -/
theorem final1 (c : Dev nD) (i n : Fin 4096) :
    (Layer1.dat V c).arrAt 3 cfg0.N (ix2 i n) = h1At (V c main_arg0) (V c main_arg1) (V c main_v1) i n :=
  (congrFun (final1_fun V c) (ix2 i n)).trans rfl

end Cert.KernelIdeal.Layer1V

end
-- ==== Proof.LibBlockSums.lean ====
import Mathlib

/-! # Sums over a range cut into equal blocks, and running sums

Two regroupings of a finite sum in a commutative additive monoid (the extended reals among them: no
finiteness is asked):

* `sum_blocks`: a sum over `a · b` consecutive positions is the sum, over the `a` blocks of `b` consecutive
  positions, of each block's sum: `∑ n < a, ∑ q < b, f (b · n + q) = ∑ j < a · b, f j`. The literal forms
  `8 · 512 = 4096` and `4 · 1024 = 4096` state it over `Fin 4096`.
* `foldl_add_eq_sum` / `runningSum_eq_sum`: an accumulator that starts at `0` and adds `g n` at step `n`
  holds, after all `N` steps, `∑ n < N, g n`. -/

open scoped BigOperators

namespace Cert.BlockSums

variable {M : Type*} [AddCommMonoid M]

/-- Position `b · n + q` of block `n`, offset `q`, lies below `a · b`. -/
theorem block_pos_lt {a b : ℕ} (n : Fin a) (q : Fin b) : b * n.val + q.val < a * b := by
  have hn := n.isLt
  have hq := q.isLt
  calc b * n.val + q.val < b * n.val + b := by omega
    _ = b * (n.val + 1) := by ring
    _ ≤ b * a := Nat.mul_le_mul_left b hn
    _ = a * b := Nat.mul_comm b a

/-- A sum over `a · b` positions, block by block. -/
theorem sum_blocks (a b : ℕ) (f : ℕ → M) :
    ∑ n : Fin a, ∑ q : Fin b, f (b * n.val + q.val) = ∑ j : Fin (a * b), f j.val := by
  rw [← Fintype.sum_prod_type', ← Equiv.sum_comp (finProdFinEquiv (m := a) (n := b))]
  refine Finset.sum_congr rfl fun p _ => ?_
  show f (b * p.1.val + p.2.val) = f (p.2.val + b * p.1.val)
  rw [Nat.add_comm]

/-- The same over `Fin N` with `N = a · b`, for a function of the position as an element of `Fin N`. -/
theorem sum_blocks_fin {N : ℕ} (a b : ℕ) (h : a * b = N) (f : Fin N → M) :
    ∑ n : Fin a, ∑ q : Fin b, f ⟨b * n.val + q.val, h ▸ block_pos_lt n q⟩ = ∑ j : Fin N, f j := by
  subst h
  have key := sum_blocks a b (fun j => if hj : j < a * b then f ⟨j, hj⟩ else 0)
  simp only [block_pos_lt, dif_pos, Fin.is_lt, Fin.eta] at key
  exact key

/-- Eight blocks of 512 positions make up 4096 positions. -/
theorem sum_blocks_8_512 (f : Fin 4096 → M) :
    ∑ n : Fin 8, ∑ q : Fin 512, f ⟨512 * n.val + q.val, by have := n.isLt; have := q.isLt; omega⟩
      = ∑ j : Fin 4096, f j :=
  sum_blocks_fin 8 512 rfl f

/-- Four blocks of 1024 positions make up 4096 positions. -/
theorem sum_blocks_4_1024 (f : Fin 4096 → M) :
    ∑ n : Fin 4, ∑ q : Fin 1024, f ⟨1024 * n.val + q.val, by have := n.isLt; have := q.isLt; omega⟩
      = ∑ j : Fin 4096, f j :=
  sum_blocks_fin 4 1024 rfl f

/-- A left fold that adds `g n` at step `n`, from `init`, over the first `N` steps, is `init` plus the sum. -/
theorem foldl_add_eq_sum (g : ℕ → M) (init : M) (N : ℕ) :
    (List.range N).foldl (fun acc n => acc + g n) init = init + ∑ n ∈ Finset.range N, g n := by
  induction N with
  | zero => simp
  | succ N ih =>
    rw [List.range_succ, List.foldl_append, ih, Finset.sum_range_succ]
    show init + ∑ n ∈ Finset.range N, g n + g N = _
    rw [add_assoc]

/-- The running sum: `acc 0 = 0`, `acc (n + 1) = acc n + g n`. -/
def runningSum (g : ℕ → M) : ℕ → M
  | 0 => 0
  | n + 1 => runningSum g n + g n

/-- After `N` steps the running sum is `∑ n < N, g n`. -/
theorem runningSum_eq_sum (g : ℕ → M) (N : ℕ) : runningSum g N = ∑ n ∈ Finset.range N, g n := by
  induction N with
  | zero => rfl
  | succ N ih => rw [runningSum, ih, Finset.sum_range_succ]

/-- Any accumulator sequence that starts at `0` and adds `g n` at step `n` is, after `N` steps, the sum over
    `Fin N` of `g`. -/
theorem acc_eq_sum_fin (g : ℕ → M) (acc : ℕ → M) (h0 : acc 0 = 0) (hs : ∀ n, acc (n + 1) = acc n + g n) (N : ℕ) :
    acc N = ∑ n : Fin N, g n.val := by
  rw [Fin.sum_univ_eq_sum_range (fun n => g n) N]
  induction N with
  | zero => simpa using h0
  | succ N ih => rw [hs, ih, Finset.sum_range_succ]

end Cert.BlockSums
-- ==== Proof.Value2.lean ====
import proofs.«127863_j65481071400088_2_alg».proof.Proof.Layer2Ideal
import proofs.«127863_j65481071400088_2_alg».proof.Proof.PayAt
import proofs.«127863_j65481071400088_2_alg».proof.Proof.LibBlockSums
import Idealize.ShloMosaic.Lib.Pipeline.Value
import Idealize.ShloMosaic.Lib.ValueIdx
import Idealize.ShloMosaic.Lib.Tactic

/-!
# The second layer's region: the two output arrays, index by index

After the second region the second layer's array holds, at row i and column n, tanh of row i of the first layer
against row n of the weights plus the bias entry n, and the squared lengths' array holds, at row i, the sum over the
4096 columns of the squares of that value.

Every point of the 4 × 8 grid writes back its 1024 × 512 block of the second layer, one function of the three input
arrays, and the thirty-two blocks tile the array. The accumulator stays in its buffer along a row of the grid: it is
reset to zero at the first point of the row and every point adds the sums of the squares of its block's rows, so after
the point at column block b it holds the sums over the column blocks 0, …, b (an induction on the point); the last
point of the row is the one written back, and the eight column blocks of 512 make up the 4096 columns.
-/

set_option maxRecDepth 16384

noncomputable section

open scoped BigOperators

namespace Cert.KernelIdeal.Layer2V

open Cert.KernelIdeal Cert.KernelIdeal.Gen
open Idealize.ShloMosaic Idealize.ShloMosaic.TcCoe Idealize.ShloMosaic.ValueIdx Idealize.SL.Sem Idealize.ShloMosaic.Tactic
open Idealize.ShloMosaic.Pipeline (Dat)

theorem hz : (![0, 0] : Fin 2 → Nat) = fun _ => 0 := funext fun a => by fin_cases a <;> rfl

section Pieces
variable {F : FTy → Type} [FloatOps F]

/-- The first point of a row leaves the layer's block in the stored block's buffer: its one covering store's payload. -/
theorem outFirst_blk_eq (c : Dev nD) (i : grid1.Coords) (arg2 : Memref sig .tc .vmem S1024x4096 .bf16) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x1 .f32) (harg6 : arg6.IsWhole) (hc : Layer2.isFirst i) (x0 : Vec F S1024x4096 .bf16) (x1 : Vec F S512x4096 .bf16) (x2 : Vec F S1x512 .f32) :
    Layer2.outFirst_blk c i arg2 harg2 arg3 harg3 arg4 harg4 arg5 harg5 arg6 harg6 hc x0 x1 x2 = k1_pay3 x0 x1 x2 := by
  unfold Layer2.outFirst_blk
  rw [View.read_writes_eq_canon _ _ _ (Layer2.coverFirst_blk c i arg2 harg2 arg3 harg3 arg4 harg4 arg5 harg5 arg6 harg6 hc x0 x1 x2)]
  unfold Layer2.runFirst
  dsimp only
  rw [View.canon_unit_zero (S := S1024x512) hz]
  simp only [View.readAt_eq_ld, harg2.read_unread, harg3.read_unread, harg4.read_unread, View.ld_unit_zero (S := S1024x4096) hz, View.ld_unit_zero (S := S512x4096) hz, View.ld_unit_zero (S := S1x512) hz]

/-- Every other point leaves the same block there. -/
theorem outNext_blk_eq (c : Dev nD) (i : grid1.Coords) (arg2 : Memref sig .tc .vmem S1024x4096 .bf16) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x1 .f32) (harg6 : arg6.IsWhole) (hc : ¬Layer2.isFirst i) (x0 : Vec F S1024x4096 .bf16) (x1 : Vec F S512x4096 .bf16) (x2 : Vec F S1x512 .f32) (xo : Vec F S1024x1 .f32) :
    Layer2.outNext_blk c i arg2 harg2 arg3 harg3 arg4 harg4 arg5 harg5 arg6 harg6 hc x0 x1 x2 xo = k1_pay3 x0 x1 x2 := by
  unfold Layer2.outNext_blk
  rw [View.read_writes_eq_canon _ _ _ (Layer2.coverNext_blk c i arg2 harg2 arg3 harg3 arg4 harg4 arg5 harg5 arg6 harg6 hc x0 x1 x2 xo)]
  unfold Layer2.runNext
  dsimp only
  rw [View.canon_unit_zero (S := S1024x512) hz]
  simp only [View.readAt_eq_ld, harg2.read_unread, harg3.read_unread, harg4.read_unread, View.ld_unit_zero (S := S1024x4096) hz, View.ld_unit_zero (S := S512x4096) hz, View.ld_unit_zero (S := S1x512) hz]

/-- The first point of a row stores the zero column into the accumulator, reads it back, and leaves it plus the
    block's row sums of squares. -/
theorem outFirst_acc_eq (c : Dev nD) (i : grid1.Coords) (arg2 : Memref sig .tc .vmem S1024x4096 .bf16) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x1 .f32) (harg6 : arg6.IsWhole) (hc : Layer2.isFirst i) (x0 : Vec F S1024x4096 .bf16) (x1 : Vec F S512x4096 .bf16) (x2 : Vec F S1x512 .f32) :
    Layer2.outFirst_acc c i arg2 harg2 arg3 harg3 arg4 harg4 arg5 harg5 arg6 harg6 hc x0 x1 x2 = k1_pay4 x0 x1 x2 k1_pay1 := by
  unfold Layer2.outFirst_acc
  rw [View.read_writes_eq_canon _ _ _ (Layer2.coverFirst_acc c i arg2 harg2 arg3 harg3 arg4 harg4 arg5 harg5 arg6 harg6 hc x0 x1 x2)]
  unfold Layer2.runFirst
  dsimp only
  sl_unfold_words
  rw [View.canon_cons_unit_zero (S := S1024x1) hz, View.readCov_unit_zero (S := S1024x1) _ hz]
  simp only [View.readAt_eq_ld, harg2.read_unread, harg3.read_unread, harg4.read_unread, View.ld_unit_zero (S := S1024x4096) hz, View.ld_unit_zero (S := S512x4096) hz, View.ld_unit_zero (S := S1x512) hz]

/-- Every other point leaves what the accumulator held plus the block's row sums of squares. -/
theorem outNext_acc_eq (c : Dev nD) (i : grid1.Coords) (arg2 : Memref sig .tc .vmem S1024x4096 .bf16) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x1 .f32) (harg6 : arg6.IsWhole) (hc : ¬Layer2.isFirst i) (x0 : Vec F S1024x4096 .bf16) (x1 : Vec F S512x4096 .bf16) (x2 : Vec F S1x512 .f32) (xo : Vec F S1024x1 .f32) :
    Layer2.outNext_acc c i arg2 harg2 arg3 harg3 arg4 harg4 arg5 harg5 arg6 harg6 hc x0 x1 x2 xo = k1_pay4 x0 x1 x2 xo := by
  unfold Layer2.outNext_acc
  rw [View.read_writes_eq_canon _ _ _ (Layer2.coverNext_acc c i arg2 harg2 arg3 harg3 arg4 harg4 arg5 harg5 arg6 harg6 hc x0 x1 x2 xo)]
  unfold Layer2.runNext
  dsimp only
  rw [View.canon_unit_zero (S := S1024x1) hz]
  simp only [View.readAt_eq_ld, harg2.read_unread, harg3.read_unread, harg4.read_unread, harg6.read_unread, View.ld_unit_zero (S := S1024x4096) hz, View.ld_unit_zero (S := S512x4096) hz, View.ld_unit_zero (S := S1x512) hz, View.ld_unit_zero (S := S1024x1) hz]

end Pieces

/-! ## The second layer's value, index by index -/

section Value

variable (V : (c : Dev nD) → (b : Ref sig .tc) → Buf (Elt Ideal) ((c : Thread nD τ).loc b))

/-- The second layer's value at row i and column n, from the first layer's array, the weights and the bias row. -/
def h2At (a0 a1 : S4096x4096.Idx → Elt Ideal .bf16) (a2 : S1x4096.Idx → Elt Ideal .f32) (i n : Fin 4096) : EReal :=
  Ideal.tanh ((∑ k : Fin 4096, a0 (ix2 i k) * a1 (ix2 n k)) + a2 (ix2 0 n))

/-- The squared length of row i of the second layer. -/
def normAt (a0 a1 : S4096x4096.Idx → Elt Ideal .bf16) (a2 : S1x4096.Idx → Elt Ideal .f32) (i : Fin 4096) : EReal :=
  ∑ n : Fin 4096, h2At a0 a1 a2 i n * h2At a0 a1 a2 i n

/-- The second layer's array as one function of the three input arrays. -/
def G2h (a0 a1 : S4096x4096.Idx → Elt Ideal .bf16) (a2 : S1x4096.Idx → Elt Ideal .f32) : S4096x4096.Idx → Elt Ideal .bf16 :=
  fun j => h2At a0 a1 a2 (j 0) (j 1)

/-- The array of the rows' squared lengths as one function of the three input arrays. -/
def G2n (a0 a1 : S4096x4096.Idx → Elt Ideal .bf16) (a2 : S1x4096.Idx → Elt Ideal .f32) : S4096x1.Idx → Elt Ideal .f32 :=
  fun j => normAt a0 a1 a2 (j 0)

/-- The index maps over the grid: point t is at row block t / 8 and column block t % 8; the block of rows of the first
    layer and the accumulator's block move with the row block, the block of rows of the weights and the bias block
    with the column block. -/
theorem idx_facts : ∀ t : Fin cfg1.N, win1_0.index t (0 : Fin 2) = t.val / 8
    ∧ win1_0.index t (1 : Fin 2) = 0
    ∧ win1_1.index t (0 : Fin 2) = t.val % 8
    ∧ win1_1.index t (1 : Fin 2) = 0
    ∧ win1_2.index t (0 : Fin 2) = 0
    ∧ win1_2.index t (1 : Fin 2) = t.val % 8
    ∧ win1_3.index t (0 : Fin 2) = t.val / 8
    ∧ win1_3.index t (1 : Fin 2) = t.val % 8
    ∧ win1_4.index t (0 : Fin 2) = t.val / 8
    ∧ win1_4.index t (1 : Fin 2) = 0 :=
  (by decide +kernel : ∀ t : Fin grid1.N, _)

/-- Every block of the second layer's array is some point's. -/
theorem idx_onto3 : ∀ (q0 : Fin 4) (q1 : Fin 8), ∃ t : Fin cfg1.N, win1_3.index t = ![q0.val, q1.val] :=
  (by decide +kernel : ∀ (q0 : Fin 4) (q1 : Fin 8), ∃ t : Fin grid1.N, win1_3.index t = ![q0.val, q1.val])

/-- Every block of the squared lengths' array is the block of the last point of some row of the grid. -/
theorem idx_onto4 : ∀ (q0 : Fin 4), ∃ t : Fin cfg1.N, t.val % 8 = 7 ∧ win1_4.index t = ![q0.val, 0] :=
  (by decide +kernel : ∀ (q0 : Fin 4), ∃ t : Fin grid1.N, t.val % 8 = 7 ∧ win1_4.index t = ![q0.val, 0])

/-- The layer's block at point t, entry (p, q), is the layer's value at row (t / 8) · 1024 + p and column
    (t % 8) · 512 + q of the arrays the region finds. -/
theorem blk_apply (c : Dev nD) (t : Fin cfg1.N) (p : Fin 1024) (q : Fin 512) (I N : Fin 4096)
    (hI : I.val = t.val / 8 * 1024 + p.val) (hN : N.val = t.val % 8 * 512 + q.val) :
    k1_pay2 (F := Ideal) (Layer2.iblk V c 0 t) (Layer2.iblk V c 1 t) (Layer2.iblk V c 2 t) (ix2 p q) = h2At (V c main_v4) (V c main_v0) (V c main_v2) I N := by
  obtain ⟨e0, e1, e2, e3, e4, e5, e6, e7, e8, e9⟩ := idx_facts t
  refine (PayAt.k1_pay2_apply (Layer2.iblk V c 0 t) (Layer2.iblk V c 1 t) (Layer2.iblk V c 2 t) p q).trans ?_
  have hx : ∀ k : Fin 4096, Layer2.iblk V c 0 t (ix2 p k) = V c main_v4 (ix2 I k) := fun k => by
    show V c main_v4 (((cfg1.win 0).blk t).view.emb (ix2 p k)) = _
    refine congrArg (V c main_v4) (funext fun a => Fin.ext ?_)
    match a with
    | ⟨0, _⟩ => show win1_0.index t (0 : Fin 2) * 1024 + 1 * p.val = I.val; omega
    | ⟨1, _⟩ => show win1_0.index t (1 : Fin 2) * 4096 + 1 * k.val = k.val; omega
  have hw : ∀ k : Fin 4096, Layer2.iblk V c 1 t (ix2 q k) = V c main_v0 (ix2 N k) := fun k => by
    show V c main_v0 (((cfg1.win 1).blk t).view.emb (ix2 q k)) = _
    refine congrArg (V c main_v0) (funext fun a => Fin.ext ?_)
    match a with
    | ⟨0, _⟩ => show win1_1.index t (0 : Fin 2) * 512 + 1 * q.val = N.val; omega
    | ⟨1, _⟩ => show win1_1.index t (1 : Fin 2) * 4096 + 1 * k.val = k.val; omega
  have hb : Layer2.iblk V c 2 t (ix2 0 q) = V c main_v2 (ix2 (0 : Fin 1) N) := by
    show V c main_v2 (((cfg1.win 2).blk t).view.emb (ix2 0 q)) = _
    refine congrArg (V c main_v2) (funext fun a => Fin.ext ?_)
    match a with
    | ⟨0, _⟩ => show win1_2.index t (0 : Fin 2) * 1 + 1 * 0 = 0; omega
    | ⟨1, _⟩ => show win1_2.index t (1 : Fin 2) * 512 + 1 * q.val = N.val; omega
  unfold h2At
  exact congrArg Ideal.tanh (congrArg₂ (· + ·) (Finset.sum_congr rfl fun k _ => congrArg₂ (· * ·) (hx k) (hw k)) hb)

/-! ### The stored block -/

/-- After every point the stored block's buffer holds the layer's block of the point's three input blocks. -/
theorem outs_blk (c : Dev nD) (t : Fin cfg1.N) :
    (Layer2.outsAt V c t.val t.isLt).1 = k1_pay3 (F := Ideal) (Layer2.iblk V c 0 t) (Layer2.iblk V c 1 t) (Layer2.iblk V c 2 t) := by
  by_cases h0 : t.val % 8 = 0
  · rw [Layer2.outsAt_first_blk V c t h0]
    exact outFirst_blk_eq (F := Ideal) c (grid1.coords t) (Layer2.ms0 t) (Layer2.hs0 t) (Layer2.ms1 t) (Layer2.hs1 t) (Layer2.ms2 t) (Layer2.hs2 t) (Layer2.ms3 t) (Layer2.hs3 t) (Layer2.ms4 t) (Layer2.hs4 t) ((Layer2.isFirst_iff t).mpr h0) (Layer2.iblk V c 0 t) (Layer2.iblk V c 1 t) (Layer2.iblk V c 2 t)
  · rw [Layer2.outsAt_next_blk V c t h0]
    exact outNext_blk_eq (F := Ideal) c (grid1.coords t) (Layer2.ms0 t) (Layer2.hs0 t) (Layer2.ms1 t) (Layer2.hs1 t) (Layer2.ms2 t) (Layer2.hs2 t) (Layer2.ms3 t) (Layer2.hs3 t) (Layer2.ms4 t) (Layer2.hs4 t) (fun h => h0 ((Layer2.isFirst_iff t).mp h)) (Layer2.iblk V c 0 t) (Layer2.iblk V c 1 t) (Layer2.iblk V c 2 t) (Layer2.outsAt V c (t.val - 1) (Nat.lt_of_le_of_lt (Nat.sub_le _ _) t.isLt)).2

/-- What point t writes back of the second layer is block t of G2h of the three input arrays as the region finds them. -/
theorem flushed3_eq (c : Dev nD) (t : Fin cfg1.N) :
    (Layer2.dat V c).flushed 3 t = ((cfg1.win 3).blk t).view.read (Elt Ideal) (G2h (V c main_v4) (V c main_v0) (V c main_v2)) := by
  show (cfg1.win 3).cut (grid1.coords t) ((Layer2.dat V c).after 3 t) = _
  rw [Layer2.after_blk, outs_blk]
  obtain ⟨e0, e1, e2, e3, e4, e5, e6, e7, e8, e9⟩ := idx_facts t
  funext j
  obtain ⟨p, q, rfl⟩ : ∃ (p : Fin 1024) (q : Fin 512), j = ix2 p q := ⟨j 0, j 1, eq_ix2 j⟩
  have hp := p.isLt
  have hq := q.isLt
  have hT : t.val < 32 := lt_of_lt_of_eq t.isLt N_1
  have hI : t.val / 8 * 1024 + p.val < 4096 := by omega
  have hN : t.val % 8 * 512 + q.val < 4096 := by omega
  refine (congrFun (PayAt.k1_pay3_eq (Layer2.iblk V c 0 t) (Layer2.iblk V c 1 t) (Layer2.iblk V c 2 t)) (ix2 p q)).trans ?_
  refine (blk_apply V c t p q ⟨_, hI⟩ ⟨_, hN⟩ rfl rfl).trans ?_
  have hout : ((cfg1.win 3).blk t).view.emb (ix2 p q)
      = ix2 (⟨t.val / 8 * 1024 + p.val, hI⟩ : Fin 4096) (⟨t.val % 8 * 512 + q.val, hN⟩ : Fin 4096) := by
    funext a; apply Fin.ext
    match a with
    | ⟨0, _⟩ => show win1_3.index t (0 : Fin 2) * 1024 + 1 * p.val = t.val / 8 * 1024 + p.val; omega
    | ⟨1, _⟩ => show win1_3.index t (1 : Fin 2) * 512 + 1 * q.val = t.val % 8 * 512 + q.val; omega
  rw [View.read_apply, hout]
  rfl

/-- An index of the second layer's array is in point t's block iff each coordinate is in the block's range. -/
theorem mem_blk3 (t : Fin cfg1.N) (i : S4096x4096.Idx) :
    i ∈ ((cfg1.win 3).blk t).view.set ↔ ∀ a : Fin 2, win1_3.index t a * S1024x512.size a ≤ (i a).val
      ∧ (i a).val < win1_3.index t a * S1024x512.size a + S1024x512.size a := by
  show i ∈ ((View.whole main_v5_0).slice (win1_3.rect t)).set ↔ _
  rw [View.set_slice_whole, Rect.mem_set_unit]
  exact Iff.rfl

/-- The thirty-two blocks tile the second layer's array. -/
theorem cover3 (i : S4096x4096.Idx) :
    ∃ t : Fin cfg1.N, (cfg1.win 3).flush t = true ∧ i ∈ ((cfg1.win 3).blk t).view.set := by
  have hi0 : (i 0).val < 4096 := (i 0).isLt
  have hi1 : (i 1).val < 4096 := (i 1).isLt
  obtain ⟨t, ht⟩ := idx_onto3 ⟨(i 0).val / 1024, by omega⟩ ⟨(i 1).val / 512, by omega⟩
  have q0 : win1_3.index t (0 : Fin 2) = (i 0).val / 1024 := congrFun ht 0
  have q1 : win1_3.index t (1 : Fin 2) = (i 1).val / 512 := congrFun ht 1
  refine ⟨t, flush1_3 t, ?_⟩
  rw [mem_blk3]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 512 ≤ (i 1).val ∧ (i 1).val < win1_3.index t (1 : Fin 2) * 512 + 512; omega

/-- The second layer's array after the region is G2h of the three input arrays as the region finds them. -/
theorem final2_h_fun (c : Dev nD) : (Layer2.dat V c).arrAt 3 cfg1.N = G2h (V c main_v4) (V c main_v0) (V c main_v2) :=
  (Layer2.dat V c).arrAt_eq_of_cover 3 (G2h (V c main_v4) (V c main_v0) (V c main_v2)) (fun t _ => flushed3_eq V c t) cover3

/-- The layer's value at (i, n), spelled out. -/
theorem h2At_apply (a0 a1 : S4096x4096.Idx → Elt Ideal .bf16) (a2 : S1x4096.Idx → Elt Ideal .f32) (i n : Fin 4096) :
    h2At a0 a1 a2 i n = Ideal.tanh ((∑ k : Fin 4096, a0 (ix2 i k) * a1 (ix2 n k)) + a2 (ix2 0 n)) := rfl

/-- Index by index: the entry at row i, column n is tanh of row i of the first layer against row n of the weights
    plus the bias entry n. -/
theorem final2_h (c : Dev nD) (i n : Fin 4096) :
    (Layer2.dat V c).arrAt 3 cfg1.N (ix2 i n) = h2At (V c main_v4) (V c main_v0) (V c main_v2) i n :=
  (congrFun (final2_h_fun V c) (ix2 i n)).trans rfl

end Value

/-! ### The accumulator -/

section Acc

variable (V : (c : Dev nD) → (b : Ref sig .tc) → Buf (Elt Ideal) ((c : Thread nD τ).loc b))

/-- The square of the layer's value at row I and column s, zero past the last column. -/
def sqc (a0 a1 : S4096x4096.Idx → Elt Ideal .bf16) (a2 : S1x4096.Idx → Elt Ideal .f32) (I : Fin 4096) (s : ℕ) : EReal :=
  if h : s < 4096 then h2At a0 a1 a2 I ⟨s, h⟩ * h2At a0 a1 a2 I ⟨s, h⟩ else 0

/-- The sum of the squares of row I over the 512 columns of column block j. -/
def colSq (a0 a1 : S4096x4096.Idx → Elt Ideal .bf16) (a2 : S1x4096.Idx → Elt Ideal .f32) (I : Fin 4096) (j : ℕ) : EReal :=
  ∑ q : Fin 512, sqc a0 a1 a2 I (512 * j + q.val)

/-- What point t adds to the accumulator at row p: the sum of the squares of row (t / 8) · 1024 + p over column
    block t % 8. -/
theorem acc_term (c : Dev nD) (t : Fin cfg1.N) (p : Fin 1024) (I : Fin 4096) (hI : I.val = t.val / 8 * 1024 + p.val) :
    (∑ q : Fin 512, k1_pay2 (F := Ideal) (Layer2.iblk V c 0 t) (Layer2.iblk V c 1 t) (Layer2.iblk V c 2 t) (ix2 p q) * k1_pay2 (F := Ideal) (Layer2.iblk V c 0 t) (Layer2.iblk V c 1 t) (Layer2.iblk V c 2 t) (ix2 p q))
      = colSq (V c main_v4) (V c main_v0) (V c main_v2) I (t.val % 8) := by
  unfold colSq
  refine Finset.sum_congr rfl fun q _ => ?_
  have hq := q.isLt
  have ht : t.val % 8 < 8 := Nat.mod_lt _ (by decide)
  have hs : 512 * (t.val % 8) + q.val < 4096 := by omega
  unfold sqc
  rw [dif_pos hs, blk_apply V c t p q I ⟨512 * (t.val % 8) + q.val, hs⟩ hI (by show 512 * (t.val % 8) + q.val = t.val % 8 * 512 + q.val; omega)]

/-- At the first point of a row of the grid the accumulator is left at the first column block's sum. -/
theorem acc_first (c : Dev nD) (t : Fin cfg1.N) (h0 : t.val % 8 = 0) (p : Fin 1024) (z : Fin 1) (I : Fin 4096)
    (hI : I.val = t.val / 8 * 1024 + p.val) :
    (Layer2.outsAt V c t.val t.isLt).2 (ix2 p z) = colSq (V c main_v4) (V c main_v0) (V c main_v2) I 0 := by
  rw [Layer2.outsAt_first_acc V c t h0,
    outFirst_acc_eq (F := Ideal) c (grid1.coords t) (Layer2.ms0 t) (Layer2.hs0 t) (Layer2.ms1 t) (Layer2.hs1 t) (Layer2.ms2 t) (Layer2.hs2 t) (Layer2.ms3 t) (Layer2.hs3 t) (Layer2.ms4 t) (Layer2.hs4 t) ((Layer2.isFirst_iff t).mpr h0) (Layer2.iblk V c 0 t) (Layer2.iblk V c 1 t) (Layer2.iblk V c 2 t)]
  refine (PayAt.k1_pay4_apply (Layer2.iblk V c 0 t) (Layer2.iblk V c 1 t) (Layer2.iblk V c 2 t) (k1_pay1 (F := Ideal)) p z).trans ?_
  rw [PayAt.k1_pay1_apply (ix2 p z), zero_add, acc_term V c t p I hI, h0]

/-- At every other point it is left at what the point before left plus the point's column block's sum. -/
theorem acc_next (c : Dev nD) (t : Fin cfg1.N) (h0 : ¬t.val % 8 = 0) (p : Fin 1024) (z : Fin 1) (I : Fin 4096)
    (hI : I.val = t.val / 8 * 1024 + p.val) :
    (Layer2.outsAt V c t.val t.isLt).2 (ix2 p z) = (Layer2.outsAt V c (t.val - 1) (Nat.lt_of_le_of_lt (Nat.sub_le _ _) t.isLt)).2 (ix2 p z) + colSq (V c main_v4) (V c main_v0) (V c main_v2) I (t.val % 8) := by
  rw [Layer2.outsAt_next_acc V c t h0,
    outNext_acc_eq (F := Ideal) c (grid1.coords t) (Layer2.ms0 t) (Layer2.hs0 t) (Layer2.ms1 t) (Layer2.hs1 t) (Layer2.ms2 t) (Layer2.hs2 t) (Layer2.ms3 t) (Layer2.hs3 t) (Layer2.ms4 t) (Layer2.hs4 t) (fun h => h0 ((Layer2.isFirst_iff t).mp h)) (Layer2.iblk V c 0 t) (Layer2.iblk V c 1 t) (Layer2.iblk V c 2 t) (Layer2.outsAt V c (t.val - 1) (Nat.lt_of_le_of_lt (Nat.sub_le _ _) t.isLt)).2]
  refine (PayAt.k1_pay4_apply (Layer2.iblk V c 0 t) (Layer2.iblk V c 1 t) (Layer2.iblk V c 2 t) (Layer2.outsAt V c (t.val - 1) (Nat.lt_of_le_of_lt (Nat.sub_le _ _) t.isLt)).2 p z).trans ?_
  rw [acc_term V c t p I hI]

/-- THE RUNNING SUM. After the point at position n the accumulator holds, at row p, the sums of the squares of row
    (n / 8) · 1024 + p over the column blocks 0, …, n % 8: by induction on the point. -/
theorem acc_inv (c : Dev nD) : ∀ (n : ℕ) (hn : n < cfg1.N) (p : Fin 1024) (z : Fin 1) (I : Fin 4096),
    I.val = n / 8 * 1024 + p.val →
    (Layer2.outsAt V c n hn).2 (ix2 p z) = ∑ j ∈ Finset.range (n % 8 + 1), colSq (V c main_v4) (V c main_v0) (V c main_v2) I j := by
  intro n
  induction n with
  | zero =>
    intro hn p z I hI
    refine (acc_first V c ⟨0, hn⟩ (Nat.zero_mod 8) p z I hI).trans ?_
    exact (Finset.sum_range_one _).symm
  | succ n ih =>
    intro hn p z I hI
    by_cases h0 : (n + 1) % 8 = 0
    · refine (acc_first V c ⟨n + 1, hn⟩ h0 p z I hI).trans ?_
      rw [h0, zero_add, Finset.sum_range_one]
    · refine (acc_next V c ⟨n + 1, hn⟩ h0 p z I hI).trans ?_
      have e2 : (n + 1) % 8 = n % 8 + 1 := by omega
      show (Layer2.outsAt V c n (Nat.lt_of_succ_lt hn)).2 (ix2 p z) + _ = _
      rw [ih (Nat.lt_of_succ_lt hn) p z I (by omega), e2]
      exact (Finset.sum_range_succ _ _).symm

/-- The eight column blocks' sums make up the row's squared length. -/
theorem colSq_sum (a0 a1 : S4096x4096.Idx → Elt Ideal .bf16) (a2 : S1x4096.Idx → Elt Ideal .f32) (I : Fin 4096) :
    ∑ j ∈ Finset.range 8, colSq a0 a1 a2 I j = normAt a0 a1 a2 I := by
  rw [Finset.sum_range]
  unfold colSq normAt
  refine (Cert.BlockSums.sum_blocks 8 512 (sqc a0 a1 a2 I)).trans ?_
  show ∑ s : Fin 4096, sqc a0 a1 a2 I s.val = _
  exact Finset.sum_congr rfl fun s _ => dif_pos s.isLt

/-- What the last point of a row of the grid writes back of the accumulator is its block of G2n of the three input
    arrays as the region finds them. -/
theorem flushed4_eq (c : Dev nD) (t : Fin cfg1.N) (hf : (cfg1.win 4).flush t = true) :
    (Layer2.dat V c).flushed 4 t = ((cfg1.win 4).blk t).view.read (Elt Ideal) (G2n (V c main_v4) (V c main_v0) (V c main_v2)) := by
  have h7 : t.val % 8 = 7 := (flush1_4 t).mp hf
  show (cfg1.win 4).cut (grid1.coords t) ((Layer2.dat V c).after 4 t) = _
  rw [Layer2.after_acc]
  obtain ⟨e0, e1, e2, e3, e4, e5, e6, e7, e8, e9⟩ := idx_facts t
  funext j
  obtain ⟨p, z, rfl⟩ : ∃ (p : Fin 1024) (z : Fin 1), j = ix2 p z := ⟨j 0, j 1, eq_ix2 j⟩
  have hp := p.isLt
  have hT : t.val < 32 := lt_of_lt_of_eq t.isLt N_1
  have hI : t.val / 8 * 1024 + p.val < 4096 := by omega
  refine (acc_inv V c t.val t.isLt p z ⟨t.val / 8 * 1024 + p.val, hI⟩ rfl).trans ?_
  rw [h7]
  refine (colSq_sum (V c main_v4) (V c main_v0) (V c main_v2) ⟨t.val / 8 * 1024 + p.val, hI⟩).trans ?_
  rw [View.read_apply]
  show normAt (V c main_v4) (V c main_v0) (V c main_v2) _ = normAt (V c main_v4) (V c main_v0) (V c main_v2) ((((cfg1.win 4).blk t).view.emb (ix2 p z)) 0)
  refine congrArg (normAt (V c main_v4) (V c main_v0) (V c main_v2)) (Fin.ext ?_)
  show t.val / 8 * 1024 + p.val = win1_4.index t (0 : Fin 2) * 1024 + 1 * p.val
  omega

/-- An index of the squared lengths' array is in point t's block iff each coordinate is in the block's range. -/
theorem mem_blk4 (t : Fin cfg1.N) (i : S4096x1.Idx) :
    i ∈ ((cfg1.win 4).blk t).view.set ↔ ∀ a : Fin 2, win1_4.index t a * S1024x1.size a ≤ (i a).val
      ∧ (i a).val < win1_4.index t a * S1024x1.size a + S1024x1.size a := by
  show i ∈ ((View.whole main_v5_1).slice (win1_4.rect t)).set ↔ _
  rw [View.set_slice_whole, Rect.mem_set_unit]
  exact Iff.rfl

/-- The four blocks the last points of the rows of the grid write back tile the squared lengths' array. -/
theorem cover4 (i : S4096x1.Idx) :
    ∃ t : Fin cfg1.N, (cfg1.win 4).flush t = true ∧ i ∈ ((cfg1.win 4).blk t).view.set := by
  have hi0 : (i 0).val < 4096 := (i 0).isLt
  have hi1 : (i 1).val < 1 := (i 1).isLt
  obtain ⟨t, h7, ht⟩ := idx_onto4 ⟨(i 0).val / 1024, by omega⟩
  have q0 : win1_4.index t (0 : Fin 2) = (i 0).val / 1024 := congrFun ht 0
  have q1 : win1_4.index t (1 : Fin 2) = 0 := congrFun ht 1
  refine ⟨t, (flush1_4 t).mpr h7, ?_⟩
  rw [mem_blk4]
  intro a
  match a with
  | ⟨0, _⟩ => show win1_4.index t (0 : Fin 2) * 1024 ≤ (i 0).val ∧ (i 0).val < win1_4.index t (0 : Fin 2) * 1024 + 1024; omega
  | ⟨1, _⟩ => show win1_4.index t (1 : Fin 2) * 1 ≤ (i 1).val ∧ (i 1).val < win1_4.index t (1 : Fin 2) * 1 + 1; omega

/-- The squared lengths' array after the region is G2n of the three input arrays as the region finds them. -/
theorem final2_norm_fun (c : Dev nD) : (Layer2.dat V c).arrAt 4 cfg1.N = G2n (V c main_v4) (V c main_v0) (V c main_v2) :=
  (Layer2.dat V c).arrAt_eq_of_cover 4 (G2n (V c main_v4) (V c main_v0) (V c main_v2)) (flushed4_eq V c) cover4

/-- The squared length of row i, spelled out. -/
theorem normAt_apply (a0 a1 : S4096x4096.Idx → Elt Ideal .bf16) (a2 : S1x4096.Idx → Elt Ideal .f32) (i : Fin 4096) :
    normAt a0 a1 a2 i = ∑ n : Fin 4096, h2At a0 a1 a2 i n * h2At a0 a1 a2 i n := rfl

/-- Index by index: the entry at row i is the sum over the 4096 columns n of the square of the second layer's value
    at (i, n). -/
theorem final2_norm (c : Dev nD) (i : Fin 4096) (z : Fin 1) :
    (Layer2.dat V c).arrAt 4 cfg1.N (ix2 i z) = normAt (V c main_v4) (V c main_v0) (V c main_v2) i :=
  (congrFun (final2_norm_fun V c) (ix2 i z)).trans rfl

end Acc

end Cert.KernelIdeal.Layer2V

end
-- ==== Proof.HostReshape.lean ====
import proofs.«127863_j65481071400088_2_alg».proof.Proof.Gen.KernelIdeal
import Idealize.ShloMosaic.Lib.Pipeline.Value
import Idealize.ShloMosaic.Lib.ValueIdx

/-! # The host reshapes between the regions, read at an index

Between its three regions the kernel's program reshapes a vector `[4096]` into a row `[1, 4096]` (the two bias
vectors), the one-entry vector `[1]` into `[1, 1]` (the output bias), and the column `[4096, 1]` of row norms into a row
`[1, 4096]`. A reshape keeps row-major positions, so each reads the same entry at the matching coordinate. -/

noncomputable section

namespace Cert.KernelIdeal.HostReshape

open Cert.KernelIdeal Idealize.ShloMosaic Idealize.ShloMosaic.ValueIdx

variable {α : Type}

/-- A vector `[4096]` as a row `[1, 4096]`: entry `n`. -/
theorem vec_row_apply (v : S4096.Idx → α) (h : S4096.ShapeCasts S1x4096) (n : Fin 4096) :
    shapeCast S1x4096 v h (ix2 0 n) = v (ix1 n) :=
  shapeCast_apply v h (ix2 0 n) (ix1 n) (by
    rw [Shape.rowMajor_val_one, Shape.rowMajor_val_two]
    show n.val = 0 * 4096 + n.val
    omega)

/-- The one-entry vector `[1]` as `[1, 1]`: its entry. -/
theorem one_apply (v : S1.Idx → α) (h : S1.ShapeCasts S1x1) :
    shapeCast S1x1 v h (ix2 0 0) = v (ix1 0) :=
  shapeCast_apply v h (ix2 0 0) (ix1 0) (by
    rw [Shape.rowMajor_val_one, Shape.rowMajor_val_two]
    show 0 = 0 * 1 + 0
    omega)

/-- A column `[4096, 1]` as a row `[1, 4096]`: entry `j` of the row is entry `j` of the column. -/
theorem col_row_apply (v : S4096x1.Idx → α) (h : S4096x1.ShapeCasts S1x4096) (j : Fin 4096) :
    shapeCast S1x4096 v h (ix2 0 j) = v (ix2 j 0) :=
  shapeCast_apply v h (ix2 0 j) (ix2 j 0) (by
    rw [Shape.rowMajor_val_two, Shape.rowMajor_val_two]
    show j.val * 1 + 0 = 0 * 4096 + j.val
    omega)

end Cert.KernelIdeal.HostReshape

end
-- ==== Proof.Spec.lean ====
import Idealize.ShloMosaic.PureOps.Ideal
import Idealize.ShloMosaic.Lib.ValueIdx

/-! # The specification

The function both programs compute, over the extended reals, index by index. With inputs
`x, W1 : [4096, 512]`, `b1 : [4096]`, `W2 : [4096, 4096]`, `b2 : [4096]`, `Wc : [1, 4096]`, `bc : [1]`:

* `h1 i n = tanh (∑ k < 512, x[i,k] · W1[n,k] + b1[n])`  (first hidden layer),
* `h2 i n = tanh (∑ k < 4096, h1 i k · W2[n,k] + b2[n])`  (second hidden layer),
* `norm i = ∑ k < 4096, h2 i k · h2 i k`  (squared length of row `i` of the second layer),
* `cross i j = ∑ k < 4096, h2 i k · h2 j k`  (inner product of rows `i` and `j`),
* `out[i,0] = ∑ j < 4096, exp (c · ((norm i + norm j) − two · cross i j)) · Wc[0,j] + bc[0]`,

a Gaussian-kernel layer on the rows of `h2`: `(norm i + norm j) − 2 · cross i j` is the squared distance
between rows `i` and `j`. The two float constants stay as their f32 words (`c` is the word of −5·10⁻⁴,
`two` the word of 2); nothing below evaluates them. Every sum is a finite sum in the commutative monoid of
the extended reals, so regrouping it needs no finiteness. -/

noncomputable section

open scoped BigOperators

namespace Cert.Spec

open Idealize.ShloMosaic Idealize.ShloMosaic.ValueIdx

/-- The scale inside the exponential: the f32 word of −5·10⁻⁴, never evaluated. -/
abbrev c : EReal := Ideal.ofBits .f32 0xBA03126F#32
/-- The factor of the cross term: the f32 word of 2, never evaluated. -/
abbrev two : EReal := Ideal.ofBits .f32 0x40000000#32

variable (x W1 : Vec Ideal ⟨2, ![4096, 512]⟩ .f32) (b1 : Vec Ideal ⟨1, ![4096]⟩ .f32)
  (W2 : Vec Ideal ⟨2, ![4096, 4096]⟩ .f32) (b2 : Vec Ideal ⟨1, ![4096]⟩ .f32)
  (Wc : Vec Ideal ⟨2, ![1, 4096]⟩ .f32) (bc : Vec Ideal ⟨1, ![1]⟩ .f32)

/-- First hidden layer: unit `n` of row `i`. -/
def h1 (i n : Fin 4096) : EReal :=
  Ideal.tanh ((∑ k : Fin 512, x (ix2 i k) * W1 (ix2 n k)) + b1 (ix1 n))

/-- Second hidden layer: unit `n` of row `i`. -/
def h2 (i n : Fin 4096) : EReal :=
  Ideal.tanh ((∑ k : Fin 4096, h1 x W1 b1 i k * W2 (ix2 n k)) + b2 (ix1 n))

/-- Squared length of row `i` of the second layer. -/
def norm (i : Fin 4096) : EReal :=
  ∑ k : Fin 4096, h2 x W1 b1 W2 b2 i k * h2 x W1 b1 W2 b2 i k

/-- Inner product of rows `i` and `j` of the second layer. -/
def cross (i j : Fin 4096) : EReal :=
  ∑ k : Fin 4096, h2 x W1 b1 W2 b2 i k * h2 x W1 b1 W2 b2 j k

/-- One term of the output's sum: the Gaussian weight of rows `i`, `j` times the read-out weight of `j`. -/
def term (i j : Fin 4096) : EReal :=
  Ideal.exp (c * ((norm x W1 b1 W2 b2 i + norm x W1 b1 W2 b2 j) - two * cross x W1 b1 W2 b2 i j))
    * Wc (ix2 0 j)

/-- Row `i` of the result. -/
def outAt (i : Fin 4096) : EReal :=
  (∑ j : Fin 4096, term x W1 b1 W2 b2 Wc i j) + bc (ix1 0)

/-- The result array `[4096, 1]`. -/
def out : Vec Ideal ⟨2, ![4096, 1]⟩ .f32 := fun j => outAt x W1 b1 W2 b2 Wc bc (j 0)

/-- The result read at `(i, 0)`. -/
theorem out_apply (i : Fin 4096) (z : Fin 1) :
    out x W1 b1 W2 b2 Wc bc (ix2 i z) = outAt x W1 b1 W2 b2 Wc bc i := rfl

end Cert.Spec

end
-- ==== Proof.Bridge12.lean ====
import proofs.«127863_j65481071400088_2_alg».proof.Proof.ThroughIdeal
import proofs.«127863_j65481071400088_2_alg».proof.Proof.Value1
import proofs.«127863_j65481071400088_2_alg».proof.Proof.Value2
import proofs.«127863_j65481071400088_2_alg».proof.Proof.HostReshape
import proofs.«127863_j65481071400088_2_alg».proof.Proof.Spec

/-!
# The two hidden layers and the row norms, from the launch arrays

What the first region leaves in the first layer's array is the specification's first hidden layer of the launch
arrays x, W1 and b1: the region finds x and W1 as launched and b1 laid out as a row, whose entry (0, n) is b1's entry n.
What the second region leaves in the second layer's array is the specification's second hidden layer: the region finds
the first layer's array as the first region left it, W2 narrowed (the identity on extended reals) and b2 laid out as
a row. The squared lengths' array holds the specification's row norms: the same sum of squares.
-/

noncomputable section

open scoped BigOperators

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-- The first layer's array after the first region is the specification's first hidden layer. -/
theorem h1_eq (i n : Fin 4096) :
    (V2 m ρ c main_v4 : S4096x4096.Idx → EReal) (ix2 i n)
      = Cert.Spec.h1 (m ((c : Thread nD τ).loc main_arg0)) (m ((c : Thread nD τ).loc main_arg1)) (m ((c : Thread nD τ).loc main_arg2)) i n := by
  rw [V2_h1]
  refine (Layer1V.final1 (V1 m ρ) c i n).trans ?_
  rw [V1_x, V1_W1, V1_b1]
  unfold Layer1V.h1At Cert.Spec.h1
  exact congrArg Ideal.tanh (congrArg (_ + ·) (HostReshape.vec_row_apply _ _ n))

/-- The second layer's value of the arrays the second region finds is the specification's second hidden layer. -/
theorem h2At_eq (i n : Fin 4096) :
    Layer2V.h2At (V2 m ρ c main_v4) (V2 m ρ c main_v0) (V2 m ρ c main_v2) i n
      = Cert.Spec.h2 (m ((c : Thread nD τ).loc main_arg0)) (m ((c : Thread nD τ).loc main_arg1)) (m ((c : Thread nD τ).loc main_arg2)) (m ((c : Thread nD τ).loc main_arg3)) (m ((c : Thread nD τ).loc main_arg4)) i n := by
  rw [V2_W2, V2_b2, V1_W2, V1_b2]
  unfold Layer2V.h2At Cert.Spec.h2
  exact congrArg Ideal.tanh (congrArg₂ (· + ·)
    (Finset.sum_congr rfl fun k _ => congrArg₂ (· * ·) (h1_eq m ρ c i k) (truncf_apply _ _ (ix2 n k)))
    (HostReshape.vec_row_apply _ _ n))

/-- The second layer's array after the second region is the specification's second hidden layer. -/
theorem h2_eq (i n : Fin 4096) :
    (V3 m ρ c main_v5_0 : S4096x4096.Idx → EReal) (ix2 i n)
      = Cert.Spec.h2 (m ((c : Thread nD τ).loc main_arg0)) (m ((c : Thread nD τ).loc main_arg1)) (m ((c : Thread nD τ).loc main_arg2)) (m ((c : Thread nD τ).loc main_arg3)) (m ((c : Thread nD τ).loc main_arg4)) i n := by
  rw [V3_h2]
  exact (Layer2V.final2_h (V2 m ρ) c i n).trans (h2At_eq m ρ c i n)

/-- The squared length of a row of the arrays the second region finds is the specification's row norm. -/
theorem normAt_eq (i : Fin 4096) :
    Layer2V.normAt (V2 m ρ c main_v4) (V2 m ρ c main_v0) (V2 m ρ c main_v2) i
      = Cert.Spec.norm (m ((c : Thread nD τ).loc main_arg0)) (m ((c : Thread nD τ).loc main_arg1)) (m ((c : Thread nD τ).loc main_arg2)) (m ((c : Thread nD τ).loc main_arg3)) (m ((c : Thread nD τ).loc main_arg4)) i := by
  unfold Layer2V.normAt Cert.Spec.norm
  exact Finset.sum_congr rfl fun n _ => by rw [h2At_eq m ρ c i n]

/-- The squared lengths' array after the second region holds the specification's row norms. -/
theorem norm_eq (i : Fin 4096) (z : Fin 1) :
    (V3 m ρ c main_v5_1 : S4096x1.Idx → EReal) (ix2 i z)
      = Cert.Spec.norm (m ((c : Thread nD τ).loc main_arg0)) (m ((c : Thread nD τ).loc main_arg1)) (m ((c : Thread nD τ).loc main_arg2)) (m ((c : Thread nD τ).loc main_arg3)) (m ((c : Thread nD τ).loc main_arg4)) i := by
  rw [V3_norm]
  exact (Layer2V.final2_norm (V2 m ρ) c i z).trans (normAt_eq m ρ c i)

end Cert.KernelIdeal.Whole

end
-- ==== Proof.Value3Blocks.lean ====
import proofs.«127863_j65481071400088_2_alg».proof.Proof.Gen.KernelIdeal.Launch
import proofs.«127863_j65481071400088_2_alg».proof.Proof.PayAt
import proofs.«127863_j65481071400088_2_alg».proof.Proof.LibBlockSums
import Idealize.ShloMosaic.Lib.Pipeline.Value

/-! # The third region's blocks and its step, at coordinates

The third region runs on a 4 × 8 grid; point `t` is `(t / 8, t % 8)`. This module reads each window's block at point
`t` at explicit coordinates of its array (rows `1024 · (t / 8) + p` for the windows that follow the first grid axis,
rows or columns `512 · (t % 8) + q` for those that follow the second), states one step of the accumulation — the block's
payload at the blocks of the arrays — as "previous value plus the 512 terms of this column block", and regroups the
eight column blocks of a row into the sum over all 4096 columns. -/

noncomputable section

open scoped BigOperators

namespace Cert.KernelIdeal.Layer3V

open Cert.KernelIdeal Cert.KernelIdeal.Gen Cert.KernelIdeal.PayAt
open Idealize.ShloMosaic Idealize.ShloMosaic.ValueIdx Idealize.ShloMosaic.TcCoe Idealize.SL.Sem

/-! ## Where each window's block sits -/

/-- The windows' block indices at point `t`, decided over the grid. -/
theorem idx_facts : ∀ t : Fin cfg2.N,
    win2_0.index t (0 : Fin 2) = t.val / 8 ∧ win2_0.index t (1 : Fin 2) = 0
    ∧ win2_1.index t (0 : Fin 2) = t.val % 8 ∧ win2_1.index t (1 : Fin 2) = 0
    ∧ win2_2.index t (0 : Fin 2) = t.val / 8 ∧ win2_2.index t (1 : Fin 2) = 0
    ∧ win2_3.index t (0 : Fin 2) = 0 ∧ win2_3.index t (1 : Fin 2) = t.val % 8
    ∧ win2_4.index t (0 : Fin 2) = 0 ∧ win2_4.index t (1 : Fin 2) = t.val % 8
    ∧ win2_5.index t (0 : Fin 2) = 0 ∧ win2_5.index t (1 : Fin 2) = 0
    ∧ win2_6.index t (0 : Fin 2) = t.val / 8 ∧ win2_6.index t (1 : Fin 2) = 0 :=
  (by decide +kernel : ∀ t : Fin grid2.N, _)

theorem lt32 (t : Fin cfg2.N) : t.val < 32 := lt_of_lt_of_eq t.isLt N_2

/-- Row `p` of the row block of point `t`, in the array. -/
def rowOf (t : Fin cfg2.N) (p : Fin 1024) : Fin 4096 :=
  ⟨1024 * (t.val / 8) + p.val, by have := lt32 t; have := p.isLt; omega⟩
/-- Column `q` of the column block of point `t`, in the array. -/
def colOf (t : Fin cfg2.N) (q : Fin 512) : Fin 4096 :=
  ⟨512 * (t.val % 8) + q.val, by have := q.isLt; omega⟩

/-- The block of rows i of the hidden layer at point `t`. -/
theorem blk0_apply (A : S4096x4096.Idx → Ideal .bf16) (t : Fin cfg2.N) (p : Fin 1024) (k : Fin 4096) :
    ((cfg2.win 0).blk t).view.read (Elt Ideal) A (ix2 p k) = A (ix2 (rowOf t p) k) := by
  obtain ⟨e0, e1, -⟩ := idx_facts t
  show A (((cfg2.win 0).blk t).view.emb (ix2 p k)) = _
  refine congrArg A (funext fun a => Fin.ext ?_)
  match a with
  | ⟨0, _⟩ => show win2_0.index t (0 : Fin 2) * 1024 + 1 * p.val = 1024 * (t.val / 8) + p.val; rw [e0]; omega
  | ⟨1, _⟩ => show win2_0.index t (1 : Fin 2) * 4096 + 1 * k.val = k.val; rw [e1]; omega

/-- The block of rows j of the hidden layer at point `t`. -/
theorem blk1_apply (A : S4096x4096.Idx → Ideal .bf16) (t : Fin cfg2.N) (q : Fin 512) (k : Fin 4096) :
    ((cfg2.win 1).blk t).view.read (Elt Ideal) A (ix2 q k) = A (ix2 (colOf t q) k) := by
  obtain ⟨-, -, e0, e1, -⟩ := idx_facts t
  show A (((cfg2.win 1).blk t).view.emb (ix2 q k)) = _
  refine congrArg A (funext fun a => Fin.ext ?_)
  match a with
  | ⟨0, _⟩ => show win2_1.index t (0 : Fin 2) * 512 + 1 * q.val = 512 * (t.val % 8) + q.val; rw [e0]; omega
  | ⟨1, _⟩ => show win2_1.index t (1 : Fin 2) * 4096 + 1 * k.val = k.val; rw [e1]; omega

/-- The block of row norms at i at point `t`. -/
theorem blk2_apply (A : S4096x1.Idx → Ideal .f32) (t : Fin cfg2.N) (p : Fin 1024) (z : Fin 1) :
    ((cfg2.win 2).blk t).view.read (Elt Ideal) A (ix2 p z) = A (ix2 (rowOf t p) 0) := by
  obtain ⟨-, -, -, -, e0, e1, -⟩ := idx_facts t
  show A (((cfg2.win 2).blk t).view.emb (ix2 p z)) = _
  refine congrArg A (funext fun a => Fin.ext ?_)
  match a with
  | ⟨0, _⟩ => show win2_2.index t (0 : Fin 2) * 1024 + 1 * p.val = 1024 * (t.val / 8) + p.val; rw [e0]; omega
  | ⟨1, _⟩ => show win2_2.index t (1 : Fin 2) * 1 + 1 * z.val = 0; rw [e1]; have := z.isLt; omega

/-- The block of row norms at j at point `t`. -/
theorem blk3_apply (A : S1x4096.Idx → Ideal .f32) (t : Fin cfg2.N) (z : Fin 1) (q : Fin 512) :
    ((cfg2.win 3).blk t).view.read (Elt Ideal) A (ix2 z q) = A (ix2 0 (colOf t q)) := by
  obtain ⟨-, -, -, -, -, -, e0, e1, -⟩ := idx_facts t
  show A (((cfg2.win 3).blk t).view.emb (ix2 z q)) = _
  refine congrArg A (funext fun a => Fin.ext ?_)
  match a with
  | ⟨0, _⟩ => show win2_3.index t (0 : Fin 2) * 1 + 1 * z.val = 0; rw [e0]; have := z.isLt; omega
  | ⟨1, _⟩ => show win2_3.index t (1 : Fin 2) * 512 + 1 * q.val = 512 * (t.val % 8) + q.val; rw [e1]; omega

/-- The block of the read-out weights at point `t`. -/
theorem blk4_apply (A : S1x4096.Idx → Ideal .f32) (t : Fin cfg2.N) (z : Fin 1) (q : Fin 512) :
    ((cfg2.win 4).blk t).view.read (Elt Ideal) A (ix2 z q) = A (ix2 0 (colOf t q)) := by
  obtain ⟨-, -, -, -, -, -, -, -, e0, e1, -⟩ := idx_facts t
  show A (((cfg2.win 4).blk t).view.emb (ix2 z q)) = _
  refine congrArg A (funext fun a => Fin.ext ?_)
  match a with
  | ⟨0, _⟩ => show win2_4.index t (0 : Fin 2) * 1 + 1 * z.val = 0; rw [e0]; have := z.isLt; omega
  | ⟨1, _⟩ => show win2_4.index t (1 : Fin 2) * 512 + 1 * q.val = 512 * (t.val % 8) + q.val; rw [e1]; omega

/-- The bias block at point `t`: the array's one entry. -/
theorem blk5_apply (A : S1x1.Idx → Ideal .f32) (t : Fin cfg2.N) (z z' : Fin 1) :
    ((cfg2.win 5).blk t).view.read (Elt Ideal) A (ix2 z z') = A (ix2 0 0) := by
  obtain ⟨-, -, -, -, -, -, -, -, -, -, e0, e1, -⟩ := idx_facts t
  show A (((cfg2.win 5).blk t).view.emb (ix2 z z')) = _
  refine congrArg A (funext fun a => Fin.ext ?_)
  match a with
  | ⟨0, _⟩ => show win2_5.index t (0 : Fin 2) * 1 + 1 * z.val = 0; rw [e0]; have := z.isLt; omega
  | ⟨1, _⟩ => show win2_5.index t (1 : Fin 2) * 1 + 1 * z'.val = 0; rw [e1]; have := z'.isLt; omega

/-- The output block at point `t`, read off an array. -/
theorem blk6_apply (A : S4096x1.Idx → Ideal .f32) (t : Fin cfg2.N) (p : Fin 1024) (z : Fin 1) :
    ((cfg2.win 6).blk t).view.read (Elt Ideal) A (ix2 p z) = A (ix2 (rowOf t p) 0) := by
  obtain ⟨-, -, -, -, -, -, -, -, -, -, -, -, e0, e1⟩ := idx_facts t
  show A (((cfg2.win 6).blk t).view.emb (ix2 p z)) = _
  refine congrArg A (funext fun a => Fin.ext ?_)
  match a with
  | ⟨0, _⟩ => show win2_6.index t (0 : Fin 2) * 1024 + 1 * p.val = 1024 * (t.val / 8) + p.val; rw [e0]; omega
  | ⟨1, _⟩ => show win2_6.index t (1 : Fin 2) * 1 + 1 * z.val = 0; rw [e1]; have := z.isLt; omega

/-! ## The terms and their partial sums -/

variable (A5 : S4096x4096.Idx → Ideal .bf16) (N1 : S4096x1.Idx → Ideal .f32) (N2 WC : S1x4096.Idx → Ideal .f32)
  (B : S1x1.Idx → Ideal .f32)

/-- The term of rows `i`, `j`: the Gaussian weight from the two row norms and the rows' inner product, times the read-out
    weight of `j`. -/
def gterm (i j : Fin 4096) : EReal :=
  Ideal.exp (Ideal.ofBits .f32 0xBA03126F#32 *
      ((N1 (ix2 i 0) + N2 (ix2 0 j)) - Ideal.ofBits .f32 0x40000000#32 * ∑ k : Fin 4096, A5 (ix2 i k) * A5 (ix2 j k)))
    * WC (ix2 0 j)

/-- The same at a column given as a natural number (zero past the array). -/
def gtermN (i : Fin 4096) (j : ℕ) : EReal := if h : j < 4096 then gterm A5 N1 N2 WC i ⟨j, h⟩ else 0

/-- The sum of row `i`'s terms over the first `r` column blocks. -/
def partialSum (i : Fin 4096) (r : ℕ) : EReal :=
  ∑ m ∈ Finset.range r, ∑ q : Fin 512, gtermN A5 N1 N2 WC i (512 * m + q.val)

theorem partialSum_zero (i : Fin 4096) : partialSum A5 N1 N2 WC i 0 = 0 := by
  unfold partialSum; rw [Finset.range_zero, Finset.sum_empty]

theorem partialSum_succ (i : Fin 4096) (r : ℕ) :
    partialSum A5 N1 N2 WC i (r + 1)
      = partialSum A5 N1 N2 WC i r + ∑ q : Fin 512, gtermN A5 N1 N2 WC i (512 * r + q.val) := by
  unfold partialSum; rw [Finset.sum_range_succ]

/-- All eight column blocks: the sum over every column. -/
theorem partialSum_eight (i : Fin 4096) :
    partialSum A5 N1 N2 WC i 8 = ∑ j : Fin 4096, gterm A5 N1 N2 WC i j := by
  unfold partialSum
  rw [← Fin.sum_univ_eq_sum_range (fun m => ∑ q : Fin 512, gtermN A5 N1 N2 WC i (512 * m + q.val)) 8,
    ← Cert.BlockSums.sum_blocks_8_512 (fun j => gterm A5 N1 N2 WC i j)]
  refine Finset.sum_congr rfl fun n _ => Finset.sum_congr rfl fun q _ => ?_
  unfold gtermN
  rw [dif_pos (by have := n.isLt; have := q.isLt; omega)]

/-- The term at a column of point `t`'s column block. -/
theorem gterm_colOf (i : Fin 4096) (t : Fin cfg2.N) (q : Fin 512) :
    gterm A5 N1 N2 WC i (colOf t q) = gtermN A5 N1 N2 WC i (512 * (t.val % 8) + q.val) := by
  unfold gtermN
  rw [dif_pos (by have := q.isLt; omega)]
  rfl

/-! ## One step of the accumulation -/

/-- One step over any blocks that read the arrays at rows `i p` and columns `j q`: the previous accumulator plus the 512
    terms of those rows and columns. -/
theorem step_core (x0 : Vec Ideal S1024x4096 .bf16) (x1 : Vec Ideal S512x4096 .bf16) (x2 : Vec Ideal S1024x1 .f32)
    (x3 x4 : Vec Ideal S1x512 .f32) (xo : Vec Ideal S1024x1 .f32) (i : Fin 1024 → Fin 4096) (j : Fin 512 → Fin 4096)
    (h0 : ∀ p k, x0 (ix2 p k) = A5 (ix2 (i p) k)) (h1 : ∀ q k, x1 (ix2 q k) = A5 (ix2 (j q) k))
    (h2 : ∀ p, x2 (ix2 p 0) = N1 (ix2 (i p) 0)) (h3 : ∀ q, x3 (ix2 0 q) = N2 (ix2 0 (j q)))
    (h4 : ∀ q, x4 (ix2 0 q) = WC (ix2 0 (j q))) (p : Fin 1024) (z : Fin 1) :
    k2_pay2 (F := Ideal) x0 x1 x2 x3 x4 xo (ix2 p z)
      = xo (ix2 p z) + ∑ q : Fin 512, gterm A5 N1 N2 WC (i p) (j q) := by
  rw [k2_pay2_apply]
  simp only [h0, h1, h2, h3, h4]
  rfl

/-- The block's payload at point `t`, on the blocks of the arrays and a previous accumulator `xo`: `xo` plus the 512 terms
    of the point's column block, at the point's rows. -/
theorem step_apply (t : Fin cfg2.N) (xo : Vec Ideal S1024x1 .f32) (p : Fin 1024) (z : Fin 1) :
    k2_pay2 (F := Ideal) (((cfg2.win 0).blk t).view.read (Elt Ideal) A5) (((cfg2.win 1).blk t).view.read (Elt Ideal) A5)
        (((cfg2.win 2).blk t).view.read (Elt Ideal) N1) (((cfg2.win 3).blk t).view.read (Elt Ideal) N2)
        (((cfg2.win 4).blk t).view.read (Elt Ideal) WC) xo (ix2 p z)
      = xo (ix2 p z) + ∑ q : Fin 512, gtermN A5 N1 N2 WC (rowOf t p) (512 * (t.val % 8) + q.val) :=
  (step_core A5 N1 N2 WC (((cfg2.win 0).blk t).view.read (Elt Ideal) A5) (((cfg2.win 1).blk t).view.read (Elt Ideal) A5)
      (((cfg2.win 2).blk t).view.read (Elt Ideal) N1) (((cfg2.win 3).blk t).view.read (Elt Ideal) N2)
      (((cfg2.win 4).blk t).view.read (Elt Ideal) WC) xo (rowOf t) (colOf t)
      (blk0_apply A5 t) (blk1_apply A5 t) (fun p => blk2_apply N1 t p 0) (fun q => blk3_apply N2 t 0 q)
      (fun q => blk4_apply WC t 0 q) p z).trans
    (congrArg (xo (ix2 p z) + ·) (Finset.sum_congr rfl fun q _ => gterm_colOf A5 N1 N2 WC (rowOf t p) t q))

/-- The last step's bias: the bias array's one entry added. -/
theorem bias_apply (t : Fin cfg2.N) (xo : Vec Ideal S1024x1 .f32) (p : Fin 1024) (z : Fin 1) :
    k2_pay3 (F := Ideal) xo (((cfg2.win 5).blk t).view.read (Elt Ideal) B) (ix2 p z) = xo (ix2 p z) + B (ix2 0 0) := by
  rw [k2_pay3_apply, blk5_apply]

end Cert.KernelIdeal.Layer3V

end
-- ==== Proof.Value3.lean ====
import proofs.«127863_j65481071400088_2_alg».proof.Proof.Layer3Ideal
import proofs.«127863_j65481071400088_2_alg».proof.Proof.Value3Blocks
import proofs.«127863_j65481071400088_2_alg».proof.Proof.Spec
import Idealize.ShloMosaic.Lib.Pipeline.Value
import Idealize.ShloMosaic.Lib.Tactic

/-! # What the third region leaves in its output array

The three control cases of the third region's body, read back as values: the first point of a row of the grid leaves
the block's payload over the zero block, a point between leaves it over what the point before left, the last point adds
the bias. So what the accumulator's buffer holds after point `t = 8 · mb + nb` is, at row `p`, the sum over the first
`nb + 1` column blocks of the terms of row `1024 · mb + p` (plus the bias at `nb = 7`), by induction on the point. The
points with `nb = 7` write the buffer back; their four row blocks cover the output array, which therefore ends holding,
at row `i`, the sum over all 4096 columns of the terms of row `i`, plus the bias. -/

set_option maxRecDepth 16384

noncomputable section

open scoped BigOperators

namespace Cert.KernelIdeal.Layer3V

open Cert.KernelIdeal Cert.KernelIdeal.Gen Cert.KernelIdeal.Layer3 Cert.KernelIdeal.PayAt
open Idealize.ShloMosaic Idealize.ShloMosaic.ValueIdx Idealize.ShloMosaic.TcCoe Idealize.ShloMosaic.Tactic Idealize.SL.Sem
open Idealize.ShloMosaic.Pipeline (Dat)

/-! ## The three cases' values -/

section Pieces

variable {F : FTy → Type} [FloatOps F]

theorem hz : (![0, 0] : Fin 2 → Nat) = fun _ => 0 := funext fun a => by fin_cases a <;> rfl

/-- A POINT BETWEEN leaves, in the accumulator's buffer holding `xo`, the block's payload over `xo`: its one covering
    store's payload, whose loads read the whole buffers. -/
theorem outMid_eq (c : Dev nD) (i : grid2.Coords) (arg2 : Memref sig .tc .vmem S1024x4096 .bf16) (harg2 : arg2.IsWhole) (arg3 : Memref sig .tc .vmem S512x4096 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1 .f32) (harg7 : arg7.IsWhole) (arg8 : Memref sig .tc .vmem S1024x1 .f32) (harg8 : arg8.IsWhole) (hc0 : ¬isFirst i) (hc1 : ¬isLast i) (x0 : Vec F S1024x4096 .bf16) (x1 : Vec F S512x4096 .bf16) (x2 : Vec F S1024x1 .f32) (x3 : Vec F S1x512 .f32) (x4 : Vec F S1x512 .f32) (x5 : Vec F S1x1 .f32) (xo : Vec F S1024x1 .f32) :
    outMid c i arg2 harg2 arg3 harg3 arg4 harg4 arg5 harg5 arg6 harg6 arg7 harg7 arg8 harg8 hc0 hc1 x0 x1 x2 x3 x4 x5 xo = k2_pay2 x0 x1 x2 x3 x4 xo := by
  unfold outMid
  rw [View.read_writes_eq_canon _ _ _ (coverMid c i arg2 harg2 arg3 harg3 arg4 harg4 arg5 harg5 arg6 harg6 arg7 harg7 arg8 harg8 hc0 hc1 x0 x1 x2 x3 x4 x5 xo)]
  unfold runMid
  dsimp only
  rw [View.canon_unit_zero hz]
  simp only [View.readAt_eq_ld, harg2.read_unread, harg3.read_unread, harg4.read_unread, harg5.read_unread, harg6.read_unread,
    harg8.read_unread, View.ld_unit_zero (S := S1024x4096) hz, View.ld_unit_zero (S := S512x4096) hz,
    View.ld_unit_zero (S := S1024x1) hz, View.ld_unit_zero (S := S1x512) hz]

/-- THE FIRST POINT OF A ROW stores the zero block, reads it back, and leaves the block's payload over it. -/
theorem outFirst_eq (c : Dev nD) (i : grid2.Coords) (arg2 : Memref sig .tc .vmem S1024x4096 .bf16) (harg2 : arg2.IsWhole) (arg3 : Memref sig .tc .vmem S512x4096 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1 .f32) (harg7 : arg7.IsWhole) (arg8 : Memref sig .tc .vmem S1024x1 .f32) (harg8 : arg8.IsWhole) (hc0 : isFirst i) (hc1 : ¬isLast i) (x0 : Vec F S1024x4096 .bf16) (x1 : Vec F S512x4096 .bf16) (x2 : Vec F S1024x1 .f32) (x3 : Vec F S1x512 .f32) (x4 : Vec F S1x512 .f32) (x5 : Vec F S1x1 .f32) :
    outFirst c i arg2 harg2 arg3 harg3 arg4 harg4 arg5 harg5 arg6 harg6 arg7 harg7 arg8 harg8 hc0 hc1 x0 x1 x2 x3 x4 x5 = k2_pay2 x0 x1 x2 x3 x4 (k2_pay1 (F := F)) := by
  unfold outFirst
  rw [View.read_writes_eq_canon _ _ _ (coverFirst c i arg2 harg2 arg3 harg3 arg4 harg4 arg5 harg5 arg6 harg6 arg7 harg7 arg8 harg8 hc0 hc1 x0 x1 x2 x3 x4 x5)]
  unfold runFirst
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, harg6.read_unread,
    View.ld_unit_zero (S := S1024x4096) hz, View.ld_unit_zero (S := S512x4096) hz,
    View.ld_unit_zero (S := S1024x1) hz, View.ld_unit_zero (S := S1x512) hz]

/-- THE LAST POINT OF A ROW stores the block's payload over `xo`, reads it back, and leaves it with the bias added. -/
theorem outLast_eq (c : Dev nD) (i : grid2.Coords) (arg2 : Memref sig .tc .vmem S1024x4096 .bf16) (harg2 : arg2.IsWhole) (arg3 : Memref sig .tc .vmem S512x4096 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1 .f32) (harg7 : arg7.IsWhole) (arg8 : Memref sig .tc .vmem S1024x1 .f32) (harg8 : arg8.IsWhole) (hc0 : ¬isFirst i) (hc1 : isLast i) (x0 : Vec F S1024x4096 .bf16) (x1 : Vec F S512x4096 .bf16) (x2 : Vec F S1024x1 .f32) (x3 : Vec F S1x512 .f32) (x4 : Vec F S1x512 .f32) (x5 : Vec F S1x1 .f32) (xo : Vec F S1024x1 .f32) :
    outLast c i arg2 harg2 arg3 harg3 arg4 harg4 arg5 harg5 arg6 harg6 arg7 harg7 arg8 harg8 hc0 hc1 x0 x1 x2 x3 x4 x5 xo = k2_pay3 (k2_pay2 x0 x1 x2 x3 x4 xo) x5 := by
  unfold outLast
  rw [View.read_writes_eq_canon _ _ _ (coverLast c i arg2 harg2 arg3 harg3 arg4 harg4 arg5 harg5 arg6 harg6 arg7 harg7 arg8 harg8 hc0 hc1 x0 x1 x2 x3 x4 x5 xo)]
  unfold runLast
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, harg6.read_unread,
    harg7.read_unread, harg8.read_unread, View.ld_unit_zero (S := S1024x4096) hz, View.ld_unit_zero (S := S512x4096) hz,
    View.ld_unit_zero (S := S1024x1) hz, View.ld_unit_zero (S := S1x512) hz, View.ld_unit_zero (S := S1x1) hz]

end Pieces

/-! ## The accumulation, point by point -/

variable (V : (c : Dev nD) → (b : Ref sig .tc) → Buf (Elt Ideal) ((c : Thread nD τ).loc b))

/-- The arrays the region reads, as it finds them: the hidden layer, -/
abbrev hid (c : Dev nD) : S4096x4096.Idx → EReal := V c main_v5_0
/-- its row norms as a column -/
abbrev nrmI (c : Dev nD) : S4096x1.Idx → EReal := V c main_v5_1
/-- and as a row, -/
abbrev nrmJ (c : Dev nD) : S1x4096.Idx → EReal := V c main_v6
/-- the read-out weights -/
abbrev wts (c : Dev nD) : S1x4096.Idx → EReal := V c main_arg5
/-- and the bias. -/
abbrev bia (c : Dev nD) : S1x1.Idx → EReal := V c main_v3

/-- The accumulator's buffer after point `n = 8 · mb + nb`, at row `p`: the terms of row `1024 · mb + p` summed over the
    first `nb + 1` column blocks, plus the bias once `nb = 7`. -/
theorem outsAt_eq (c : Dev nD) : ∀ (n : ℕ) (hn : n < cfg2.N) (p : Fin 1024) (z : Fin 1),
    outsAt V c n hn (ix2 p z)
      = partialSum (hid V c) (nrmI V c) (nrmJ V c) (wts V c) (rowOf ⟨n, hn⟩ p) (n % 8 + 1)
        + (if n % 8 = 7 then bia V c (ix2 0 0) else 0)
  | 0, hn, p, z => by
    refine (congrFun (outsAt_first V c ⟨0, hn⟩ (Nat.zero_mod 8)) (ix2 p z)).trans ?_
    refine (congrFun (outFirst_eq (F := Ideal) c (grid2.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) ((isFirst_iff ⟨0, hn⟩).mpr (Nat.zero_mod 8))
      (fun h => by have := (isLast_iff ⟨0, hn⟩).mp h; dsimp only at this; omega) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩)) (ix2 p z)).trans ?_
    refine (step_apply (hid V c) (nrmI V c) (nrmJ V c) (wts V c) ⟨0, hn⟩ (k2_pay1 (F := Ideal)) p z).trans ?_
    rw [k2_pay1_apply, zero_add]
    show _ = partialSum (hid V c) (nrmI V c) (nrmJ V c) (wts V c) (rowOf ⟨0, hn⟩ p) (0 + 1) + (if (0 : ℕ) = 7 then _ else 0)
    rw [partialSum_succ, partialSum_zero, zero_add, if_neg (by decide), add_zero]
    rfl
  | m + 1, hn, p, z => by
    have hm : m < cfg2.N := Nat.lt_of_succ_lt hn
    have h32 : m + 1 < 32 := lt_of_lt_of_eq hn N_2
    by_cases h0 : (m + 1) % 8 = 0
    · refine (congrFun (outsAt_first V c ⟨m + 1, hn⟩ h0) (ix2 p z)).trans ?_
      refine (congrFun (outFirst_eq (F := Ideal) c (grid2.coords ⟨m + 1, hn⟩) (ms0 ⟨m + 1, hn⟩) (hs0 ⟨m + 1, hn⟩) (ms1 ⟨m + 1, hn⟩) (hs1 ⟨m + 1, hn⟩) (ms2 ⟨m + 1, hn⟩) (hs2 ⟨m + 1, hn⟩) (ms3 ⟨m + 1, hn⟩) (hs3 ⟨m + 1, hn⟩) (ms4 ⟨m + 1, hn⟩) (hs4 ⟨m + 1, hn⟩) (ms5 ⟨m + 1, hn⟩) (hs5 ⟨m + 1, hn⟩) (ms6 ⟨m + 1, hn⟩) (hs6 ⟨m + 1, hn⟩) ((isFirst_iff ⟨m + 1, hn⟩).mpr h0)
        (fun h => by have := (isLast_iff ⟨m + 1, hn⟩).mp h; dsimp only at this; omega) (iblk V c 0 ⟨m + 1, hn⟩) (iblk V c 1 ⟨m + 1, hn⟩) (iblk V c 2 ⟨m + 1, hn⟩) (iblk V c 3 ⟨m + 1, hn⟩) (iblk V c 4 ⟨m + 1, hn⟩) (iblk V c 5 ⟨m + 1, hn⟩)) (ix2 p z)).trans ?_
      refine (step_apply (hid V c) (nrmI V c) (nrmJ V c) (wts V c) ⟨m + 1, hn⟩ (k2_pay1 (F := Ideal)) p z).trans ?_
      rw [k2_pay1_apply, zero_add]
      show (∑ q : Fin 512, gtermN (hid V c) (nrmI V c) (nrmJ V c) (wts V c) (rowOf ⟨m + 1, hn⟩ p) (512 * ((m + 1) % 8) + q.val)) = _
      rw [h0, partialSum_succ, partialSum_zero, zero_add, if_neg (by decide), add_zero]
    · have e1 : rowOf ⟨m, hm⟩ p = rowOf ⟨m + 1, hn⟩ p :=
        Fin.ext (by show 1024 * (m / 8) + p.val = 1024 * ((m + 1) / 8) + p.val; omega)
      have e2 : m % 8 + 1 = (m + 1) % 8 := by omega
      have e3 : ¬m % 8 = 7 := by omega
      have ih := outsAt_eq c m hm p z
      rw [e1, e2, if_neg e3, add_zero] at ih
      by_cases h7 : (m + 1) % 8 = 7
      · refine (congrFun (outsAt_last V c ⟨m + 1, hn⟩ h0 h7) (ix2 p z)).trans ?_
        refine (congrFun (outLast_eq (F := Ideal) c (grid2.coords ⟨m + 1, hn⟩) (ms0 ⟨m + 1, hn⟩) (hs0 ⟨m + 1, hn⟩) (ms1 ⟨m + 1, hn⟩) (hs1 ⟨m + 1, hn⟩) (ms2 ⟨m + 1, hn⟩) (hs2 ⟨m + 1, hn⟩) (ms3 ⟨m + 1, hn⟩) (hs3 ⟨m + 1, hn⟩) (ms4 ⟨m + 1, hn⟩) (hs4 ⟨m + 1, hn⟩) (ms5 ⟨m + 1, hn⟩) (hs5 ⟨m + 1, hn⟩) (ms6 ⟨m + 1, hn⟩) (hs6 ⟨m + 1, hn⟩) (fun h => h0 ((isFirst_iff ⟨m + 1, hn⟩).mp h))
          ((isLast_iff ⟨m + 1, hn⟩).mpr h7) (iblk V c 0 ⟨m + 1, hn⟩) (iblk V c 1 ⟨m + 1, hn⟩) (iblk V c 2 ⟨m + 1, hn⟩) (iblk V c 3 ⟨m + 1, hn⟩) (iblk V c 4 ⟨m + 1, hn⟩) (iblk V c 5 ⟨m + 1, hn⟩) (outsAt V c m hm)) (ix2 p z)).trans ?_
        refine (bias_apply (bia V c) ⟨m + 1, hn⟩ _ p z).trans ?_
        refine (congrArg (· + bia V c (ix2 0 0))
          (step_apply (hid V c) (nrmI V c) (nrmJ V c) (wts V c) ⟨m + 1, hn⟩ (outsAt V c m hm) p z)).trans ?_
        show (outsAt V c m hm (ix2 p z) + ∑ q : Fin 512, gtermN (hid V c) (nrmI V c) (nrmJ V c) (wts V c) (rowOf ⟨m + 1, hn⟩ p) (512 * ((m + 1) % 8) + q.val))
          + bia V c (ix2 0 0) = _
        rw [ih, ← partialSum_succ, if_pos h7]
      · refine (congrFun (outsAt_mid V c ⟨m + 1, hn⟩ h0 h7) (ix2 p z)).trans ?_
        refine (congrFun (outMid_eq (F := Ideal) c (grid2.coords ⟨m + 1, hn⟩) (ms0 ⟨m + 1, hn⟩) (hs0 ⟨m + 1, hn⟩) (ms1 ⟨m + 1, hn⟩) (hs1 ⟨m + 1, hn⟩) (ms2 ⟨m + 1, hn⟩) (hs2 ⟨m + 1, hn⟩) (ms3 ⟨m + 1, hn⟩) (hs3 ⟨m + 1, hn⟩) (ms4 ⟨m + 1, hn⟩) (hs4 ⟨m + 1, hn⟩) (ms5 ⟨m + 1, hn⟩) (hs5 ⟨m + 1, hn⟩) (ms6 ⟨m + 1, hn⟩) (hs6 ⟨m + 1, hn⟩) (fun h => h0 ((isFirst_iff ⟨m + 1, hn⟩).mp h))
          (fun h => h7 ((isLast_iff ⟨m + 1, hn⟩).mp h)) (iblk V c 0 ⟨m + 1, hn⟩) (iblk V c 1 ⟨m + 1, hn⟩) (iblk V c 2 ⟨m + 1, hn⟩) (iblk V c 3 ⟨m + 1, hn⟩) (iblk V c 4 ⟨m + 1, hn⟩) (iblk V c 5 ⟨m + 1, hn⟩) (outsAt V c m hm)) (ix2 p z)).trans ?_
        refine (step_apply (hid V c) (nrmI V c) (nrmJ V c) (wts V c) ⟨m + 1, hn⟩ (outsAt V c m hm) p z).trans ?_
        show outsAt V c m hm (ix2 p z) + (∑ q : Fin 512, gtermN (hid V c) (nrmI V c) (nrmJ V c) (wts V c) (rowOf ⟨m + 1, hn⟩ p) (512 * ((m + 1) % 8) + q.val)) = _
        rw [ih, ← partialSum_succ, if_neg h7, add_zero]

/-! ## The output array -/

/-- What the output array ends holding: at row `i`, the sum of the row's terms over every column, plus the bias. -/
def result (c : Dev nD) : S4096x1.Idx → EReal := fun y =>
  (∑ j : Fin 4096, gterm (hid V c) (nrmI V c) (nrmJ V c) (wts V c) (y 0) j) + bia V c (ix2 0 0)

/-- What a point with `nb = 7` writes back is its block of `result`. -/
theorem flushed_eq (c : Dev nD) (t : Fin cfg2.N) (hf : (cfg2.win 6).flush t = true) :
    (dat V c).flushed 6 t = ((cfg2.win 6).blk t).view.read (Elt Ideal) (result V c) := by
  have h7 : t.val % 8 = 7 := (flush2_6 t).mp hf
  show (cfg2.win 6).cut (grid2.coords t) ((dat V c).after 6 t) = _
  rw [after_acc]
  funext y
  obtain ⟨p, z, rfl⟩ : ∃ (p : Fin 1024) (z : Fin 1), y = ix2 p z := ⟨y 0, y 1, eq_ix2 y⟩
  refine (outsAt_eq V c t.val t.isLt p z).trans ?_
  rw [h7, if_pos rfl, partialSum_eight]
  exact (blk6_apply (result V c) t p z).symm

/-- The four points `8 · mb + 7` cover the output array by their row blocks. -/
theorem cover (c : Dev nD) (i : S4096x1.Idx) :
    ∃ t : Fin cfg2.N, (cfg2.win 6).flush t = true ∧ i ∈ ((cfg2.win 6).blk t).view.set := by
  have hi0 : (i 0).val < 4096 := (i 0).isLt
  have hi1 : (i 1).val < 1 := (i 1).isLt
  have ht : 8 * ((i 0).val / 1024) + 7 < cfg2.N := lt_of_lt_of_eq (by omega) N_2.symm
  refine ⟨⟨8 * ((i 0).val / 1024) + 7, ht⟩, (flush2_6 _).mpr (by show (8 * ((i 0).val / 1024) + 7) % 8 = 7; omega), ?_⟩
  obtain ⟨-, -, -, -, -, -, -, -, -, -, -, -, e0, e1⟩ := idx_facts ⟨8 * ((i 0).val / 1024) + 7, ht⟩
  show i ∈ ((View.whole main_v7).slice (win2_6.rect ⟨8 * ((i 0).val / 1024) + 7, ht⟩)).set
  rw [View.set_slice_whole, Rect.mem_set_unit]
  intro a
  match a with
  | ⟨0, _⟩ =>
    show win2_6.index ⟨8 * ((i 0).val / 1024) + 7, ht⟩ (0 : Fin 2) * 1024 ≤ (i 0).val
      ∧ (i 0).val < win2_6.index ⟨8 * ((i 0).val / 1024) + 7, ht⟩ (0 : Fin 2) * 1024 + 1024
    rw [e0]; dsimp only; omega
  | ⟨1, _⟩ =>
    show win2_6.index ⟨8 * ((i 0).val / 1024) + 7, ht⟩ (1 : Fin 2) * 1 ≤ (i 1).val
      ∧ (i 1).val < win2_6.index ⟨8 * ((i 0).val / 1024) + 7, ht⟩ (1 : Fin 2) * 1 + 1
    rw [e1]; omega

/-- THE OUTPUT ARRAY after the region: `result`. -/
theorem final3_fun (c : Dev nD) : (dat V c).arrAt 6 cfg2.N = result V c :=
  (dat V c).arrAt_eq_of_cover 6 (result V c) (flushed_eq V c) (cover c)

/-- The same read at row `i`: the sum over all columns `j` of the Gaussian weight of rows `i`, `j` (from the two row-norm
    arrays and the inner product of the rows of the hidden layer) times the read-out weight, plus the bias. -/
theorem final3 (c : Dev nD) (i : Fin 4096) (z : Fin 1) :
    (dat V c).arrAt 6 cfg2.N (ix2 i z)
      = (∑ j : Fin 4096, Ideal.exp (Spec.c * ((nrmI V c (ix2 i 0) + nrmJ V c (ix2 0 j))
            - Spec.two * ∑ k : Fin 4096, hid V c (ix2 i k) * hid V c (ix2 j k))) * wts V c (ix2 0 j))
        + bia V c (ix2 0 0) :=
  congrFun (final3_fun V c) (ix2 i z)

end Cert.KernelIdeal.Layer3V

end
-- ==== Proof.SpecClose.lean ====
import proofs.«127863_j65481071400088_2_alg».proof.Proof.Spec

/-! # Closing the specification from its parts

If an array `hid` holds the second hidden layer, `nrmI` (a column) and `nrmJ` (a row) hold its rows' squared lengths,
`wts` is the read-out row and `bia` holds the bias, then the sum over all columns `j` of the Gaussian weight of rows
`i`, `j` times the read-out weight, plus the bias, is the specification's row `i`. Nothing is regrouped: the
specification's definitions unfold to this sum. -/

noncomputable section

open scoped BigOperators

namespace Cert.Spec

open Idealize.ShloMosaic Idealize.ShloMosaic.ValueIdx

variable (x W1 : Vec Ideal ⟨2, ![4096, 512]⟩ .f32) (b1 : Vec Ideal ⟨1, ![4096]⟩ .f32)
  (W2 : Vec Ideal ⟨2, ![4096, 4096]⟩ .f32) (b2 : Vec Ideal ⟨1, ![4096]⟩ .f32)
  (Wc : Vec Ideal ⟨2, ![1, 4096]⟩ .f32) (bc : Vec Ideal ⟨1, ![1]⟩ .f32)

/-- The specification's row `i` from arrays that hold its parts. -/
theorem outAt_of_parts (hid : (⟨2, ![4096, 4096]⟩ : Shape).Idx → EReal) (nrmI : (⟨2, ![4096, 1]⟩ : Shape).Idx → EReal)
    (nrmJ wts : (⟨2, ![1, 4096]⟩ : Shape).Idx → EReal) (bia : (⟨2, ![1, 1]⟩ : Shape).Idx → EReal)
    (hh : ∀ i k : Fin 4096, hid (ix2 i k) = h2 x W1 b1 W2 b2 i k)
    (hI : ∀ i : Fin 4096, nrmI (ix2 i 0) = norm x W1 b1 W2 b2 i)
    (hJ : ∀ j : Fin 4096, nrmJ (ix2 0 j) = norm x W1 b1 W2 b2 j)
    (hw : ∀ j : Fin 4096, wts (ix2 0 j) = Wc (ix2 0 j))
    (hb : bia (ix2 0 0) = bc (ix1 0)) (i : Fin 4096) :
    (∑ j : Fin 4096, Ideal.exp (c * ((nrmI (ix2 i 0) + nrmJ (ix2 0 j)) - two * ∑ k : Fin 4096, hid (ix2 i k) * hid (ix2 j k)))
        * wts (ix2 0 j)) + bia (ix2 0 0)
      = outAt x W1 b1 W2 b2 Wc bc i := by
  simp only [hh, hI, hJ, hw, hb]
  rfl

end Cert.Spec

end
-- ==== Proof.Bridge.lean ====
import proofs.«127863_j65481071400088_2_alg».proof.Proof.ThroughIdeal
import proofs.«127863_j65481071400088_2_alg».proof.Proof.Bridge12
import proofs.«127863_j65481071400088_2_alg».proof.Proof.Value3
import proofs.«127863_j65481071400088_2_alg».proof.Proof.SpecClose
import proofs.«127863_j65481071400088_2_alg».proof.Proof.HostReshape

/-! # What the kernel's program leaves in its result array

The third region on top of the first two. When the third region is entered its windows stand on: the second hidden
layer and the column of its rows' squared lengths, as the second region left them; the same squared lengths laid out as
a row by the host reshape (a reshape keeps row-major positions: entry `j` of the row is entry `j` of the column); the
read-out row `Wc`, untouched since the launch; and the bias `bc` laid out as a 1 × 1 array. So the sum the third region
leaves at row `i` of its output array — over all columns `j`, the Gaussian weight of rows `i`, `j` times the read-out
weight, plus the bias — is the specification's row `i` of the seven launch arrays. -/

noncomputable section

open scoped BigOperators

namespace Cert.KernelIdeal.Whole

open Cert.KernelIdeal Cert.KernelIdeal.Gen
open Idealize.ShloMosaic Idealize.ShloMosaic.ValueIdx Idealize.ShloMosaic.TcCoe Idealize.SL.Sem
open Idealize.ShloMosaic.Pipeline (Dat)

/-- THE RESULT ARRAY after the third region is the specification of the launch arrays. -/
theorem result_eq (m : (ℓ : Loc nD τ sig) → Buf (Elt Ideal) ℓ) (ρ : Dev nD → PrngReg) (c : Dev nD) :
    (Layer3.dat (F := Ideal) (V4 m ρ) c).arrAt 6 cfg2.N
      = Cert.Spec.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  funext y
  obtain ⟨i, z, rfl⟩ : ∃ (i : Fin 4096) (z : Fin 1), y = ix2 i z := ⟨y 0, y 1, eq_ix2 y⟩
  refine (Layer3V.final3 (V4 m ρ) c i z).trans ?_
  refine Cert.Spec.outAt_of_parts (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6))
    (Layer3V.hid (V4 m ρ) c) (Layer3V.nrmI (V4 m ρ) c) (Layer3V.nrmJ (V4 m ρ) c) (Layer3V.wts (V4 m ρ) c)
    (Layer3V.bia (V4 m ρ) c) (fun i k => ?_) (fun i => ?_) (fun j => ?_) (fun j => ?_) ?_ i
  · show V4 m ρ c main_v5_0 (ix2 i k) = _
    rw [V4_h2]
    exact h2_eq m ρ c i k
  · show V4 m ρ c main_v5_1 (ix2 i 0) = _
    rw [V4_norm]
    exact norm_eq m ρ c i 0
  · show V4 m ρ c main_v6 (ix2 0 j) = _
    rw [V4_normRow, HostReshape.col_row_apply]
    exact norm_eq m ρ c j 0
  · show V4 m ρ c main_arg5 (ix2 0 j) = _
    rw [V4_Wc, V3_Wc, V2_Wc, V1_Wc]
  · show V4 m ρ c main_v3 (ix2 0 0) = _
    rw [V4_bc, V3_bc, V2_bc, V1_bc, HostReshape.one_apply]

end Cert.KernelIdeal.Whole

end
-- ==== Proof.RefValue.lean ====
import proofs.«127863_j65481071400088_2_alg».proof.Defs
import proofs.«127863_j65481071400088_2_alg».proof.Proof.Gen.ReferenceIdeal.Run
import proofs.«127863_j65481071400088_2_alg».proof.Proof.Gen.ReferenceIdeal.Read
import proofs.«127863_j65481071400088_2_alg».proof.Proof.Spec

/-! # The reference program computes the specification

The reference's host operations, read index by index from the result back to the arguments, are the specification's
formulas: two dense `tanh` layers (a transpose followed by a contraction reads the weight matrix by ROWS), the rows'
squared lengths (a sum that starts from the zero word, which is `0`), the rows' inner products, the Gaussian weights,
and their sum against the read-out row plus the bias. Each step is one value of the specification read at an index;
no sum is regrouped here. -/

noncomputable section

open scoped BigOperators

namespace Cert.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-! ## The composed index maps at coordinates -/

theorem lidx1 (i n : Fin 4096) (k : Fin 512) : lidx_main_v1 (ix2 i n) k = ix2 i k :=
  funext fun a => Fin.ext (by match a with | ⟨0, _⟩ => rfl | ⟨1, _⟩ => rfl)
theorem ridx1 (i n : Fin 4096) (k : Fin 512) : idx_main_v0 (ridx_main_v1 (ix2 i n) k) = ix2 n k :=
  funext fun a => Fin.ext (by match a with | ⟨0, _⟩ => rfl | ⟨1, _⟩ => rfl)
theorem bidx3 (i n : Fin 4096) : idx_main_v2 (idx_main_v3 (ix2 i n)) = ix1 n :=
  funext fun a => Fin.ext (by match a with | ⟨0, _⟩ => rfl)
theorem lidx7 (i n : Fin 4096) (k : Fin 4096) : lidx_main_v7 (ix2 i n) k = ix2 i k :=
  funext fun a => Fin.ext (by match a with | ⟨0, _⟩ => rfl | ⟨1, _⟩ => rfl)
theorem ridx7 (i n : Fin 4096) (k : Fin 4096) : idx_main_v6 (ridx_main_v7 (ix2 i n) k) = ix2 n k :=
  funext fun a => Fin.ext (by match a with | ⟨0, _⟩ => rfl | ⟨1, _⟩ => rfl)
theorem bidx9 (i n : Fin 4096) : idx_main_v8 (idx_main_v9 (ix2 i n)) = ix1 n :=
  funext fun a => Fin.ext (by match a with | ⟨0, _⟩ => rfl)
theorem idx13 (i : Fin 4096) (k : Fin 4096) : idx_main_v13 (ix1 i) k = ix2 i k :=
  funext fun a => Fin.ext (by match a with | ⟨0, _⟩ => rfl | ⟨1, _⟩ => rfl)
theorem idx16 (i : Fin 4096) (k : Fin 4096) : idx_main_v16 (ix1 i) k = ix2 i k :=
  funext fun a => Fin.ext (by match a with | ⟨0, _⟩ => rfl | ⟨1, _⟩ => rfl)
theorem idx18 (i j : Fin 4096) : idx_main_v14 (idx_main_v18 (ix2 i j)) = ix1 i :=
  funext fun a => Fin.ext (by match a with | ⟨0, _⟩ => rfl)
theorem idx19 (i j : Fin 4096) : idx_main_v17 (idx_main_v19 (ix2 i j)) = ix1 j :=
  funext fun a => Fin.ext (by match a with | ⟨0, _⟩ => rfl)
theorem lidx22 (i j : Fin 4096) (k : Fin 4096) : lidx_main_v22 (ix2 i j) k = ix2 i k :=
  funext fun a => Fin.ext (by match a with | ⟨0, _⟩ => rfl | ⟨1, _⟩ => rfl)
theorem ridx22 (i j : Fin 4096) (k : Fin 4096) : idx_main_v21 (ridx_main_v22 (ix2 i j) k) = ix2 j k :=
  funext fun a => Fin.ext (by match a with | ⟨0, _⟩ => rfl | ⟨1, _⟩ => rfl)
theorem lidx30 (i : Fin 4096) (z : Fin 1) (k : Fin 4096) : lidx_main_v30 (ix2 i z) k = ix2 i k :=
  funext fun a => Fin.ext (by match a with | ⟨0, _⟩ => rfl | ⟨1, _⟩ => rfl)
theorem ridx30 (i : Fin 4096) (z : Fin 1) (k : Fin 4096) : idx_main_v29 (ridx_main_v30 (ix2 i z) k) = ix2 0 k :=
  funext fun a => Fin.ext (by
    match a with
    | ⟨0, _⟩ => show z.val = 0; have := z.isLt; omega
    | ⟨1, _⟩ => rfl)
theorem bidx32 (i : Fin 4096) (z : Fin 1) : idx_main_v31 (idx_main_v32 (ix2 i z)) = ix1 0 :=
  funext fun a => Fin.ext (by match a with | ⟨0, _⟩ => rfl)

variable (x0 x1 : Vec Ideal S4096x512 .f32) (x2 : Vec Ideal S4096 .f32) (x3 : Vec Ideal S4096x4096 .f32)
  (x4 : Vec Ideal S4096 .f32) (x5 : Vec Ideal S1x4096 .f32) (x6 : Vec Ideal S1 .f32)

/-! ## The stages at an index -/

/-- The reference's first `tanh` layer is `h1`. -/
theorem v5_at (i n : Fin 4096) : val_main_v5 (F := Ideal) x0 x1 x2 (ix2 i n) = Spec.h1 x0 x1 x2 i n := by
  rw [val_main_v5_apply, val_main_v4_apply, val_main_v1_apply, val_main_v3_apply, val_main_v2_apply]
  have hs : ∑ k : Fin 512, x0 (lidx_main_v1 (ix2 i n) k) * val_main_v0 (F := Ideal) x1 (ridx_main_v1 (ix2 i n) k)
      = ∑ k : Fin 512, x0 (ix2 i k) * x1 (ix2 n k) :=
    Finset.sum_congr rfl fun k _ => by rw [val_main_v0_apply, lidx1, ridx1]
  rw [hs, bidx3]
  rfl

/-- The reference's second `tanh` layer is `h2`. -/
theorem v11_at (i n : Fin 4096) : val_main_v11 (F := Ideal) x0 x1 x2 x3 x4 (ix2 i n) = Spec.h2 x0 x1 x2 x3 x4 i n := by
  rw [val_main_v11_apply, val_main_v10_apply, val_main_v7_apply, val_main_v9_apply, val_main_v8_apply]
  have hs : ∑ k : Fin 4096, val_main_v5 (F := Ideal) x0 x1 x2 (lidx_main_v7 (ix2 i n) k) * val_main_v6 (F := Ideal) x3 (ridx_main_v7 (ix2 i n) k)
      = ∑ k : Fin 4096, Spec.h1 x0 x1 x2 i k * x3 (ix2 n k) :=
    Finset.sum_congr rfl fun k _ => by rw [val_main_v6_apply, lidx7, ridx7, v5_at]
  rw [hs, bidx9]
  rfl

/-- The rows' squared lengths (first copy). -/
theorem v13_at (i : Fin 4096) : val_main_v13 (F := Ideal) x0 x1 x2 x3 x4 (ix1 i) = Spec.norm x0 x1 x2 x3 x4 i := by
  rw [val_main_v13_apply, val_main_cst_apply]
  have hs : ∑ k : Fin 4096, val_main_v12 (F := Ideal) x0 x1 x2 x3 x4 (idx_main_v13 (ix1 i) k)
      = ∑ k : Fin 4096, Spec.h2 x0 x1 x2 x3 x4 i k * Spec.h2 x0 x1 x2 x3 x4 i k :=
    Finset.sum_congr rfl fun k _ => by rw [val_main_v12_apply, idx13, v11_at]; rfl
  rw [hs]
  show Ideal.ofBits .f32 0x00000000#32 + _ = _
  rw [Ideal.ofBits_zero_f32, zero_add]
  rfl

/-- The rows' squared lengths (second copy). -/
theorem v16_at (i : Fin 4096) : val_main_v16 (F := Ideal) x0 x1 x2 x3 x4 (ix1 i) = Spec.norm x0 x1 x2 x3 x4 i := by
  rw [val_main_v16_apply, val_main_cst_0_apply]
  have hs : ∑ k : Fin 4096, val_main_v15 (F := Ideal) x0 x1 x2 x3 x4 (idx_main_v16 (ix1 i) k)
      = ∑ k : Fin 4096, Spec.h2 x0 x1 x2 x3 x4 i k * Spec.h2 x0 x1 x2 x3 x4 i k :=
    Finset.sum_congr rfl fun k _ => by rw [val_main_v15_apply, idx16, v11_at]; rfl
  rw [hs]
  show Ideal.ofBits .f32 0x00000000#32 + _ = _
  rw [Ideal.ofBits_zero_f32, zero_add]
  rfl

/-- The rows' inner products. -/
theorem v22_at (i j : Fin 4096) : val_main_v22 (F := Ideal) x0 x1 x2 x3 x4 (ix2 i j) = Spec.cross x0 x1 x2 x3 x4 i j := by
  rw [val_main_v22_apply]
  exact Finset.sum_congr rfl fun k _ => by rw [val_main_v21_apply, lidx22, ridx22, v11_at, v11_at]

/-- The Gaussian weights. -/
theorem v28_at (i j : Fin 4096) : val_main_v28 (F := Ideal) x0 x1 x2 x3 x4 (ix2 i j)
    = Ideal.exp (Spec.c * ((Spec.norm x0 x1 x2 x3 x4 i + Spec.norm x0 x1 x2 x3 x4 j) - Spec.two * Spec.cross x0 x1 x2 x3 x4 i j)) := by
  rw [val_main_v28_apply, val_main_v27_apply, val_main_v26_apply, val_main_cst_2_apply, val_main_v25_apply,
    val_main_v20_apply, val_main_v18_apply, val_main_v14_apply, val_main_v19_apply, val_main_v17_apply,
    val_main_v24_apply, val_main_v23_apply, val_main_cst_1_apply, v22_at, idx18, idx19, v13_at, v16_at]
  rfl

/-- The result at `(i, 0)`. -/
theorem v33_at (i : Fin 4096) (z : Fin 1) :
    val_main_v33 (F := Ideal) x0 x1 x2 x3 x4 x5 x6 (ix2 i z) = Spec.outAt x0 x1 x2 x3 x4 x5 x6 i := by
  rw [val_main_v33_apply, val_main_v30_apply, val_main_v32_apply, val_main_v31_apply]
  have hs : ∑ k : Fin 4096, val_main_v28 (F := Ideal) x0 x1 x2 x3 x4 (lidx_main_v30 (ix2 i z) k) * val_main_v29 (F := Ideal) x5 (ridx_main_v30 (ix2 i z) k)
      = ∑ k : Fin 4096, Spec.term x0 x1 x2 x3 x4 x5 i k :=
    Finset.sum_congr rfl fun k _ => by rw [val_main_v29_apply, lidx30, ridx30, v28_at]; rfl
  rw [hs, bidx32]
  rfl

/-! ## The result -/

/-- The reference's result term, as a function of the seven arguments, is the specification. -/
theorem ref_eq : val_main_v33 (F := Ideal) x0 x1 x2 x3 x4 x5 x6 = Spec.out x0 x1 x2 x3 x4 x5 x6 := by
  funext j
  obtain ⟨i, z, rfl⟩ : ∃ (i : Fin 4096) (z : Fin 1), j = ix2 i z := ⟨j 0, j 1, eq_ix2 j⟩
  rw [v33_at]
  rfl

/-- The same for the term the reference's run states: on every device, the result buffer after the run holds the
    specification of the arguments' launch contents. -/
theorem res_eq (m : (ℓ : Loc nD τ sig) → Buf (Elt Ideal) ℓ) (c : Dev nD) :
    Cert.ReferenceIdeal.Value.res_main_v33 (F := Ideal) m c
      = Spec.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  rw [val_main_v33_eq]
  exact ref_eq _ _ _ _ _ _ _

end Cert.RefValue

end
-- ==== Proof.lean ====
/-
  The certificate of a three-layer kernel against its reference, over the extended reals.

  Both programs compute, from `x : [4096, 512]`, `W1 : [4096, 512]`, `b1 : [4096]`, `W2 : [4096, 4096]`, `b2 : [4096]`,
  `Wc : [1, 4096]`, `bc : [1]`:
      h1 = tanh (x · W1ᵀ + b1),  h2 = tanh (h1 · W2ᵀ + b2),
      out[i] = Σ_j exp (c · ((‖h2_i‖² + ‖h2_j‖²) − 2 · h2_i · h2_j)) · Wc[j] + bc,
  with the same two literals (2 and the single-precision word of −0.0005) on both sides. The reference does it with
  whole-array operations. The kernel does it in three tiled regions: the first writes h1 block by block; the second
  writes h2 block by block and accumulates each row's squared norm over the eight column blocks; the third accumulates,
  for each block of 1024 rows i, the sum over the eight blocks of 512 columns j, and adds the bias after the last block.
  At the ideal instance a change of float format is the identity, so the two sides differ only in how sums are grouped,
  and addition of extended reals is a commutative monoid: the equality needs no finiteness and the precondition is
  never opened.

  The three frames: each kernel program's run is the chain "host operations, region, region, host reshape, region"
  over valuations of the core's unscoped buffers (Proof/RunBits.lean, Proof/RunIdeal.lean, over the regions' point-by-point
  halves Proof/Layer1*.lean, Layer2*.lean, Layer3*.lean and Layer3Arrays*.lean); the reference's is its run with the
  result dropped. The one rewrite of the idealization (a round trip through the narrow format removed in the second
  region) is its rule's statement. The value: what the third region leaves in the result buffer is the specification's
  function of the launch arrays (Proof/Value1.lean, Value2.lean, Value3.lean, Through*.lean, Bridge.lean, over
  Proof/Spec.lean, PayAt.lean, LibBlockSums.lean), and so is the reference's result (Proof/RefValue.lean).
-/
import proofs.«127863_j65481071400088_2_alg».proof.Defs
import proofs.«127863_j65481071400088_2_alg».proof.Proof.Gen.Kernel
import proofs.«127863_j65481071400088_2_alg».proof.Proof.Gen.KernelIdeal
import proofs.«127863_j65481071400088_2_alg».proof.Proof.Gen.ReferenceIdeal
import proofs.«127863_j65481071400088_2_alg».proof.Proof.Gen.Pre_finite_inputs
import proofs.«127863_j65481071400088_2_alg».proof.Proof.RunBits
import proofs.«127863_j65481071400088_2_alg».proof.Proof.RunIdeal
import proofs.«127863_j65481071400088_2_alg».proof.Proof.Bridge
import proofs.«127863_j65481071400088_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to its end and leaves its arguments as launched. -/
theorem frame_kernel : Cert.frame_Kernel := fun m ρ _ => Cert.Kernel.Whole.frame m ρ

/-- So does the idealized kernel. -/
theorem frame_kernelIdeal : Cert.frame_KernelIdeal := fun m ρ _ => Cert.KernelIdeal.Whole.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization's one rewrite: widening back what was just narrowed is the identity at the ideal instance. -/
theorem preserves : Cert.preserves_Kernel_KernelIdeal := IdealRules.truncf_extf.statement _ .f32 .bf16

/-- From memories that agree on the arguments both programs end with the result array at the specification's function
    of the arguments. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Whole.result_eq m ρ c), (h c).2⟩) (Cert.KernelIdeal.Whole.run m ρ)
  · refine (θ_run Cert.ReferenceIdeal.defs _ _).mono (fun _ h c => ⟨(h c).1.trans ?_, (h c).2⟩)
      (Cert.ReferenceIdeal.Value.run (F := Ideal) m' ρ')
    rw [Cert.RefValue.res_eq m' c, (hagree c).1, (hagree c).2.1, (hagree c).2.2.1, (hagree c).2.2.2.1, (hagree c).2.2.2.2.1,
      (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
